-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v50)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v50) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000x64 : Shape := ⟨2, ![1600000, 64]⟩
abbrev S1600000 : Shape := ⟨1, ![1600000]⟩
abbrev S128x128 : Shape := ⟨2, ![128, 128]⟩
abbrev S128 : Shape := ⟨1, ![128]⟩
abbrev S64x128 : Shape := ⟨2, ![64, 128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1600000x64 : S_.BroadcastsInDim S1600000x64 (![] : Fin 0 → Fin S1600000x64.rank)
  reducesTo_S1600000x64_S_d0_1 : S1600000x64.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S64x128 : S_.BroadcastsInDim S64x128 (![] : Fin 0 → Fin S64x128.rank)
  reducesTo_S64x128_S_d0_1 : S64x128.ReducesTo [0, 1] S_

variable [Facts]

def fn_part2 {F : FTy → Type} [FloatOps F] (main_arg9 : FVec F S128 .f32) (main_arg10 : FVec F S128x128 .f32) (main_arg11 : FVec F S128 .f32) (main_v33 : IVec S_ 1) : IVec S_ 1 :=
  let main_v34 : FVec F S128 .f32 := Host.absf main_arg9
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg10
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg11
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  main_v48

def fn_part1 {F : FTy → Type} [FloatOps F] (main_arg6 : FVec F S64x128 .f32) (main_arg7 : FVec F S128 .f32) (main_arg8 : FVec F S128x128 .f32) (main_arg9 : FVec F S128 .f32) (main_arg10 : FVec F S128x128 .f32) (main_arg11 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S64x128 .f32 := Host.absf main_arg6
  let main_cst_6 : FVec F S_ .f32 := constant S_ .f32 0x7F800000#32
  let main_v20 : FVec F S64x128 .f32 := broadcastInDim S64x128 ![] bcast_S_S64x128 main_cst_6
  let main_v21 : IVec S64x128 1 := cmpf .olt main_v19 main_v20
  let main_c_7 : IVec S_ 1 := constantI S_ 1 1#1
  let main_v22 : IVec S_ 1 := (fun x v => Host.reduce IntOp.andi x v reducesTo_S64x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg8
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg9 main_arg10 main_arg11 main_v33

def fn {F : FTy → Type} [FloatOps F] (main_arg0 : FVec F S100000x128 .f32) (main_arg1 : FVec F S1600000x64 .f32) (main_arg2 : IVec S1600000 32) (main_arg3 : IVec S1600000 32) (main_arg4 : FVec F S128x128 .f32) (main_arg5 : FVec F S128 .f32) (main_arg6 : FVec F S64x128 .f32) (main_arg7 : FVec F S128 .f32) (main_arg8 : FVec F S128x128 .f32) (main_arg9 : FVec F S128 .f32) (main_arg10 : FVec F S128x128 .f32) (main_arg11 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1600000x64 .f32 := Host.absf main_arg1
  let main_cst_0 : FVec F S_ .f32 := constant S_ .f32 0x7F800000#32
  let main_v5 : FVec F S1600000x64 .f32 := broadcastInDim S1600000x64 ![] bcast_S_S1600000x64 main_cst_0
  let main_v6 : IVec S1600000x64 1 := cmpf .olt main_v4 main_v5
  let main_c_1 : IVec S_ 1 := constantI S_ 1 1#1
  let main_v7 : IVec S_ 1 := (fun x v => Host.reduce IntOp.andi x v reducesTo_S1600000x64_S_d0_1 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_arg9 main_arg10 main_arg11 main_v13 main_v16
-- ==== Kernel.lean ====
abbrev S100000x128 : Shape := ⟨2, ![100000, 128]⟩
abbrev S1600000x64 : Shape := ⟨2, ![1600000, 64]⟩
abbrev S1600000 : Shape := ⟨1, ![1600000]⟩
abbrev S128x128 : Shape := ⟨2, ![128, 128]⟩
abbrev S128 : Shape := ⟨1, ![128]⟩
abbrev S64x128 : Shape := ⟨2, ![64, 128]⟩
abbrev S_ : Shape := ⟨0, ![]⟩
abbrev S100000x64 : Shape := ⟨2, ![100000, 64]⟩
abbrev S1600000x1 : Shape := ⟨2, ![1600000, 1]⟩
abbrev S100000 : Shape := ⟨1, ![100000]⟩
abbrev S100000x1 : Shape := ⟨2, ![100000, 1]⟩
abbrev S1x128 : Shape := ⟨2, ![1, 128]⟩
abbrev S5000x128 : Shape := ⟨2, ![5000, 128]⟩
abbrev S5000x64 : Shape := ⟨2, ![5000, 64]⟩
abbrev S1600000x128 : Shape := ⟨2, ![1600000, 128]⟩

abbrev nBuf : Space → Nat
  | .hbm => 76
  | .vmem => 39
  | .smem => 0
  | _ => 0

abbrev bufTy : (tb : Table) → Fin (tcTables nBuf tb) → BufTy
  | .hbm, ⟨0, _⟩ => ⟨S100000x128, .f32⟩
  | .hbm, ⟨1, _⟩ => ⟨S1600000x64, .f32⟩
  | .hbm, ⟨2, _⟩ => ⟨S1600000, .i32⟩
  | .hbm, ⟨3, _⟩ => ⟨S1600000, .i32⟩
  | .hbm, ⟨4, _⟩ => ⟨S128x128, .f32⟩
  | .hbm, ⟨5, _⟩ => ⟨S128, .f32⟩
  | .hbm, ⟨6, _⟩ => ⟨S64x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S128x128, .f32⟩
  | .hbm, ⟨11, _⟩ => ⟨S128, .f32⟩
  | .hbm, ⟨12, _⟩ => ⟨S_, .f32⟩
  | .hbm, ⟨13, _⟩ => ⟨S100000x64, .f32⟩
  | .hbm, ⟨14, _⟩ => ⟨S1600000x1, .i32⟩
  | .hbm, ⟨15, _⟩ => ⟨S100000x64, .f32⟩
  | .hbm, ⟨16, _⟩ => ⟨S_, .f32⟩
  | .hbm, ⟨17, _⟩ => ⟨S1600000, .f32⟩
  | .hbm, ⟨18, _⟩ => ⟨S_, .f32⟩
  | .hbm, ⟨19, _⟩ => ⟨S100000, .f32⟩
  | .hbm, ⟨20, _⟩ => ⟨S1600000x1, .i32⟩
  | .hbm, ⟨21, _⟩ => ⟨S100000, .f32⟩
  | .hbm, ⟨22, _⟩ => ⟨S100000x1, .f32⟩
  | .hbm, ⟨23, _⟩ => ⟨S1x128, .f32⟩
  | .hbm, ⟨24, _⟩ => ⟨S100000x128, .f32⟩
  | .hbm, ⟨25, _⟩ => ⟨S100000x128, .f32⟩
  | .hbm, ⟨26, _⟩ => ⟨S100000x128, .f32⟩
  | .hbm, ⟨27, _⟩ => ⟨S1x128, .f32⟩
  | .hbm, ⟨28, _⟩ => ⟨S100000x128, .f32⟩
  | .hbm, ⟨29, _⟩ => ⟨S100000x128, .f32⟩
  | .hbm, ⟨30, _⟩ => ⟨S_, .i32⟩
  | .hbm, ⟨31, _⟩ => ⟨S1600000, .i32⟩
  | .hbm, ⟨32, _⟩ => ⟨S1600000, .i1⟩
  | .hbm, ⟨33, _⟩ => ⟨S_, .i32⟩
  | .hbm, ⟨34, _⟩ => ⟨S1600000, .i32⟩
  | .hbm, ⟨35, _⟩ => ⟨S1600000, .i32⟩
  | .hbm, ⟨36, _⟩ => ⟨S1600000, .i32⟩
  | .hbm, ⟨37, _⟩ => ⟨S1600000x1, .i32⟩
  | .hbm, ⟨38, _⟩ => ⟨S1600000x128, .f32⟩
  | .hbm, ⟨39, _⟩ => ⟨S_, .f32⟩
  | .hbm, ⟨40, _⟩ => ⟨S100000x128, .f32⟩
  | .hbm, ⟨41, _⟩ => ⟨S1600000x1, .i32⟩
  | .hbm, ⟨42, _⟩ => ⟨S100000x128, .f32⟩
  | .hbm, ⟨43, _⟩ => ⟨S1x128, .f32⟩
  | .hbm, ⟨44, _⟩ => ⟨S100000x128, .f32⟩
  | .hbm, ⟨45, _⟩ => ⟨S_, .i32⟩
  | .hbm, ⟨46, _⟩ => ⟨S1600000, .i32⟩
  | .hbm, ⟨47, _⟩ => ⟨S1600000, .i1⟩
  | .hbm, ⟨48, _⟩ => ⟨S_, .i32⟩
  | .hbm, ⟨49, _⟩ => ⟨S1600000, .i32⟩
  | .hbm, ⟨50, _⟩ => ⟨S1600000, .i32⟩
  | .hbm, ⟨51, _⟩ => ⟨S1600000, .i32⟩
  | .hbm, ⟨52, _⟩ => ⟨S1600000x1, .i32⟩
  | .hbm, ⟨53, _⟩ => ⟨S1600000x128, .f32⟩
  | .hbm, ⟨54, _⟩ => ⟨S_, .f32⟩
  | .hbm, ⟨55, _⟩ => ⟨S100000x128, .f32⟩
  | .hbm, ⟨56, _⟩ => ⟨S1600000x1, .i32⟩
  | .hbm, ⟨57, _⟩ => ⟨S100000x128, .f32⟩
  | .hbm, ⟨58, _⟩ => ⟨S1x128, .f32⟩
  | .hbm, ⟨59, _⟩ => ⟨S100000x128, .f32⟩
  | .hbm, ⟨60, _⟩ => ⟨S_, .i32⟩
  | .hbm, ⟨61, _⟩ => ⟨S1600000, .i32⟩
  | .hbm, ⟨62, _⟩ => ⟨S1600000, .i1⟩
  | .hbm, ⟨63, _⟩ => ⟨S_, .i32⟩
  | .hbm, ⟨64, _⟩ => ⟨S1600000, .i32⟩
  | .hbm, ⟨65, _⟩ => ⟨S1600000, .i32⟩
  | .hbm, ⟨66, _⟩ => ⟨S1600000, .i32⟩
  | .hbm, ⟨67, _⟩ => ⟨S1600000x1, .i32⟩
  | .hbm, ⟨68, _⟩ => ⟨S1600000x128, .f32⟩
  | .hbm, ⟨69, _⟩ => ⟨S_, .f32⟩
  | .hbm, ⟨70, _⟩ => ⟨S100000x128, .f32⟩
  | .hbm, ⟨71, _⟩ => ⟨S1600000x1, .i32⟩
  | .hbm, ⟨72, _⟩ => ⟨S100000x128, .f32⟩
  | .hbm, ⟨73, _⟩ => ⟨S1x128, .f32⟩
  | .hbm, ⟨74, _⟩ => ⟨S1x128, .f32⟩
  | .hbm, ⟨75, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S1x128, .f32⟩
  | .local _ .vmem, ⟨4, _⟩ => ⟨S5000x64, .f32⟩
  | .local _ .vmem, ⟨5, _⟩ => ⟨S5000x64, .f32⟩
  | .local _ .vmem, ⟨6, _⟩ => ⟨S64x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S128x128, .f32⟩
  | .local _ .vmem, ⟨16, _⟩ => ⟨S1x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S128x128, .f32⟩
  | .local _ .vmem, ⟨24, _⟩ => ⟨S1x128, .f32⟩
  | .local _ .vmem, ⟨25, _⟩ => ⟨S5000x128, .f32⟩
  | .local _ .vmem, ⟨26, _⟩ => ⟨S5000x128, .f32⟩
  | .local _ .vmem, ⟨27, _⟩ => ⟨S5000x128, .f32⟩
  | .local _ .vmem, ⟨28, _⟩ => ⟨S5000x128, .f32⟩
  | .local _ .vmem, ⟨29, _⟩ => ⟨S5000x128, .f32⟩
  | .local _ .vmem, ⟨30, _⟩ => ⟨S5000x128, .f32⟩
  | .local _ .vmem, ⟨31, _⟩ => ⟨S128x128, .f32⟩
  | .local _ .vmem, ⟨32, _⟩ => ⟨S1x128, .f32⟩
  | .local _ .vmem, ⟨33, _⟩ => ⟨S5000x128, .f32⟩
  | .local _ .vmem, ⟨34, _⟩ => ⟨S5000x128, .f32⟩
  | .local _ .vmem, ⟨35, _⟩ => ⟨S128x128, .f32⟩
  | .local _ .vmem, ⟨36, _⟩ => ⟨S1x128, .f32⟩
  | .local _ .vmem, ⟨37, _⟩ => ⟨S5000x128, .f32⟩
  | .local _ .vmem, ⟨38, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | _, _ => false

abbrev semScoped : Fin 0 → Bool
  | ⟨_, h⟩ => absurd h (Nat.not_lt_zero _)

abbrev dmaSemScoped : Fin 39 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | _ => false

abbrev sig : RefSig :=
  ofTc nBuf bufTy 0 39 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_cst_0 : Ref sig .tc := ⟨.hbm, 16, rfl⟩
abbrev main_v3 : Ref sig .tc := ⟨.hbm, 17, rfl⟩
abbrev main_cst_1 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13_0 : Ref sig .tc := ⟨.hbm, 28, rfl⟩
abbrev main_v13_1 : Ref sig .tc := ⟨.hbm, 29, rfl⟩
abbrev main_c : Ref sig .tc := ⟨.hbm, 30, rfl⟩
abbrev main_v14 : Ref sig .tc := ⟨.hbm, 31, rfl⟩
abbrev main_v15 : Ref sig .tc := ⟨.hbm, 32, rfl⟩
abbrev main_c_2 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_cst_3 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_c_4 : Ref sig .tc := ⟨.hbm, 45, rfl⟩
abbrev main_v26 : Ref sig .tc := ⟨.hbm, 46, rfl⟩
abbrev main_v27 : Ref sig .tc := ⟨.hbm, 47, rfl⟩
abbrev main_c_5 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_cst_6 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_c_7 : Ref sig .tc := ⟨.hbm, 60, rfl⟩
abbrev main_v38 : Ref sig .tc := ⟨.hbm, 61, rfl⟩
abbrev main_v39 : Ref sig .tc := ⟨.hbm, 62, rfl⟩
abbrev main_c_8 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_cst_9 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg2_0 : Ref sig .tc := ⟨.vmem, 16, rfl⟩
abbrev cc1_stg3_0 : Ref sig .tc := ⟨.vmem, 17, rfl⟩
abbrev cc1_stg3_1 : Ref sig .tc := ⟨.vmem, 18, rfl⟩
abbrev cc1_stg4_0 : Ref sig .tc := ⟨.vmem, 19, rfl⟩
abbrev cc1_stg4_1 : Ref sig .tc := ⟨.vmem, 20, rfl⟩
abbrev cc2_stg0_0 : Ref sig .tc := ⟨.vmem, 21, rfl⟩
abbrev cc2_stg0_1 : Ref sig .tc := ⟨.vmem, 22, rfl⟩
abbrev cc2_stg1_0 : Ref sig .tc := ⟨.vmem, 23, rfl⟩
abbrev cc2_stg2_0 : Ref sig .tc := ⟨.vmem, 24, rfl⟩
abbrev cc2_stg3_0 : Ref sig .tc := ⟨.vmem, 25, rfl⟩
abbrev cc2_stg3_1 : Ref sig .tc := ⟨.vmem, 26, rfl⟩
abbrev cc2_stg4_0 : Ref sig .tc := ⟨.vmem, 27, rfl⟩
abbrev cc2_stg4_1 : Ref sig .tc := ⟨.vmem, 28, rfl⟩
abbrev cc3_stg0_0 : Ref sig .tc := ⟨.vmem, 29, rfl⟩
abbrev cc3_stg0_1 : Ref sig .tc := ⟨.vmem, 30, rfl⟩
abbrev cc3_stg1_0 : Ref sig .tc := ⟨.vmem, 31, rfl⟩
abbrev cc3_stg2_0 : Ref sig .tc := ⟨.vmem, 32, rfl⟩
abbrev cc3_stg3_0 : Ref sig .tc := ⟨.vmem, 33, rfl⟩
abbrev cc3_stg3_1 : Ref sig .tc := ⟨.vmem, 34, rfl⟩
abbrev cc3_stg4_0 : Ref sig .tc := ⟨.vmem, 35, rfl⟩
abbrev cc3_stg5_0 : Ref sig .tc := ⟨.vmem, 36, rfl⟩
abbrev cc3_stg6_0 : Ref sig .tc := ⟨.vmem, 37, rfl⟩
abbrev cc3_stg6_1 : Ref sig .tc := ⟨.vmem, 38, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc1_sem0_0 : DmaSem sig := 13
abbrev cc1_sem0_1 : DmaSem sig := 14
abbrev cc1_sem1_0 : DmaSem sig := 15
abbrev cc1_sem2_0 : DmaSem sig := 16
abbrev cc1_sem3_0 : DmaSem sig := 17
abbrev cc1_sem3_1 : DmaSem sig := 18
abbrev cc1_sem4_0 : DmaSem sig := 19
abbrev cc1_sem4_1 : DmaSem sig := 20
abbrev cc2_sem0_0 : DmaSem sig := 21
abbrev cc2_sem0_1 : DmaSem sig := 22
abbrev cc2_sem1_0 : DmaSem sig := 23
abbrev cc2_sem2_0 : DmaSem sig := 24
abbrev cc2_sem3_0 : DmaSem sig := 25
abbrev cc2_sem3_1 : DmaSem sig := 26
abbrev cc2_sem4_0 : DmaSem sig := 27
abbrev cc2_sem4_1 : DmaSem sig := 28
abbrev cc3_sem0_0 : DmaSem sig := 29
abbrev cc3_sem0_1 : DmaSem sig := 30
abbrev cc3_sem1_0 : DmaSem sig := 31
abbrev cc3_sem2_0 : DmaSem sig := 32
abbrev cc3_sem3_0 : DmaSem sig := 33
abbrev cc3_sem3_1 : DmaSem sig := 34
abbrev cc3_sem4_0 : DmaSem sig := 35
abbrev cc3_sem5_0 : DmaSem sig := 36
abbrev cc3_sem6_0 : DmaSem sig := 37
abbrev cc3_sem6_1 : DmaSem sig := 38

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S64x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S5000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S5000x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S5000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S5000x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S5000x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 1 → Memref sig .tc .vmem S128x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S5000x128 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

class Facts₀ : Prop where
  bcast_S_S100000x64 : S_.BroadcastsInDim S100000x64 (![] : Fin 0 → Fin S100000x64.rank)
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S_S100000 : S_.BroadcastsInDim S100000 (![] : Fin 0 → Fin S100000.rank)
  bcast_S100000_S100000x1_0 : S100000.BroadcastsInDim S100000x1 (![0] : Fin 1 → Fin S100000x1.rank)
  bcast_S128_S1x128_1 : S128.BroadcastsInDim S1x128 (![1] : Fin 1 → Fin S1x128.rank)
  bcast_S100000x1_S100000x128_0_1 : S100000x1.BroadcastsInDim S100000x128 (![0, 1] : Fin 2 → Fin S100000x128.rank)
  bcast_S1x128_S100000x128_0_1 : S1x128.BroadcastsInDim S100000x128 (![0, 1] : Fin 2 → Fin S100000x128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  inb_S64x128_S64x128_0_0 : ∀ a, (![0, 0] : Fin 2 → Nat) a + S64x128.size a ≤ S64x128.size a
  h_S64x128 : 0 < S64x128.numel
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  bcast_S_S100000x128 : S_.BroadcastsInDim S100000x128 (![] : Fin 0 → Fin S100000x128.rank)
  scatter_S100000x64_S1600000x1_S1600000x64_1_0_0_1_wf : ScatterDims.WF S100000x64 S1600000x1 S1600000x64 [1] [0] [0] 1
  scatter_S100000_S1600000x1_S1600000_n_0_0_1_wf : ScatterDims.WF S100000 S1600000x1 S1600000 [] [0] [0] 1
  dot_S5000x128_S128x128_S5000x128_1_0_0_1_n_n_wf : DotDims.WF S5000x128 S128x128 S5000x128 [1] [0] [0] [1] [] []
  dot_S5000x64_S64x128_S5000x128_1_0_0_1_n_n_wf : DotDims.WF S5000x64 S64x128 S5000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x64.size a ≤ S100000x64.size a
  hwx0_3 : ∀ i : grid0.Coords, EltTy.bits .f32 = 32 ∨ (Rect.block (s := S100000x64) S5000x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x128.size a ≤ S64x128.size a
  hwx0_4 : ∀ i : grid0.Coords, EltTy.bits .f32 = 32 ∨ (Rect.block (s := S64x128) S64x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S100000x128.size a
  hwx0_5 : ∀ i : grid0.Coords, EltTy.bits .f32 = 32 ∨ (Rect.block (s := S100000x128) S5000x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x128.size a ≤ S100000x128.size a
  hwx0_6 : ∀ i : grid0.Coords, EltTy.bits .f32 = 32 ∨ (Rect.block (s := S100000x128) S5000x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S5000x128.size a ≤ S100000x128.size a
  hwx0_7 : ∀ i : grid0.Coords, EltTy.bits .f32 = 32 ∨ (Rect.block (s := S100000x128) S5000x128.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S100000x128.size a
  hwx1_3 : ∀ i : grid1.Coords, EltTy.bits .f32 = 32 ∨ (Rect.block (s := S100000x128) S5000x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x128.size a ≤ S100000x128.size a
  hwx1_4 : ∀ i : grid1.Coords, EltTy.bits .f32 = 32 ∨ (Rect.block (s := S100000x128) S5000x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x128.size a ≤ S100000x128.size a
  hwx2_3 : ∀ i : grid2.Coords, EltTy.bits .f32 = 32 ∨ (Rect.block (s := S100000x128) S5000x128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x128.size a ≤ S100000x128.size a
  hwx2_4 : ∀ i : grid2.Coords, EltTy.bits .f32 = 32 ∨ (Rect.block (s := S100000x128) S5000x128.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x128.size a ≤ S128x128.size a
  hwx3_1 : ∀ i : grid3.Coords, EltTy.bits .f32 = 32 ∨ (Rect.block (s := S128x128) S128x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x128.size a ≤ S100000x128.size a
  hwx3_3 : ∀ i : grid3.Coords, EltTy.bits .f32 = 32 ∨ (Rect.block (s := S100000x128) S5000x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S128x128.size a ≤ S128x128.size a
  hwx3_4 : ∀ i : grid3.Coords, EltTy.bits .f32 = 32 ∨ (Rect.block (s := S128x128) S128x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x128.size a ≤ S1x128.size a
  hwx3_5 : ∀ i : grid3.Coords, EltTy.bits .f32 = 32 ∨ (Rect.block (s := S1x128) S1x128.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S5000x128.size a ≤ S100000x128.size a
  hwx3_6 : ∀ i : grid3.Coords, EltTy.bits .f32 = 32 ∨ (Rect.block (s := S100000x128) S5000x128.size (cc3_transform_6 i) (hinb3_6 i)).WholeWords (EltTy.packing .f32)

variable [Facts₀]

def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x64_S64x128_S5000x128_1_0_0_1_n_n : DotDims S5000x64 S64x128 S5000x128 where
  lhsContracting := [1]
  rhsContracting := [0]
  lhsNonContracting := [0]
  rhsNonContracting := [1]
  lhsBatch := []
  rhsBatch := []
  wf := dot_S5000x64_S64x128_S5000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v12) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S5000x64.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg6) S64x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v11) S5000x128.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v13_0) S5000x128.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v13_1) S5000x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v23) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg8) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v24) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v13_0) S5000x128.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v25) S5000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v35) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg8) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v36) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v13_0) S5000x128.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v37) S5000x128.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v47) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg8) S128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v48) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v13_0) S5000x128.size cc3_transform_3 reads3_3 false false 2 stage3_3 sem3_3
    hrank3 hreads3_3 hinb3_3 nbuf3_3 (Memref.isWhole_whole _) hwx3_3 hstage3_3

abbrev win3_4 : Pipeline.Window sig grid3 :=
  Pipeline.Window.ofSpec (Memref.whole main_arg10) S128x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v49) S1x128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v50) S5000x128.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

class Facts : Prop extends Facts₀ where

variable [Facts]
-- ==== ReferenceIdeal.lean ====
abbrev S100000x128 : Shape := ⟨2, ![100000, 128]⟩
abbrev S1600000x64 : Shape := ⟨2, ![1600000, 64]⟩
abbrev S1600000 : Shape := ⟨1, ![1600000]⟩
abbrev S128x128 : Shape := ⟨2, ![128, 128]⟩
abbrev S128 : Shape := ⟨1, ![128]⟩
abbrev S64x128 : Shape := ⟨2, ![64, 128]⟩
abbrev S1600000x128 : Shape := ⟨2, ![1600000, 128]⟩
abbrev S1x128 : Shape := ⟨2, ![1, 128]⟩
abbrev S_ : Shape := ⟨0, ![]⟩
abbrev S1600000x1 : Shape := ⟨2, ![1600000, 1]⟩

abbrev nBuf : Space → Nat
  | .hbm => 98
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S1600000x64, .f32⟩
  | .hbm, ⟨2, _⟩ => ⟨S1600000, .i32⟩
  | .hbm, ⟨3, _⟩ => ⟨S1600000, .i32⟩
  | .hbm, ⟨4, _⟩ => ⟨S128x128, .f32⟩
  | .hbm, ⟨5, _⟩ => ⟨S128, .f32⟩
  | .hbm, ⟨6, _⟩ => ⟨S64x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S128x128, .f32⟩
  | .hbm, ⟨11, _⟩ => ⟨S128, .f32⟩
  | .hbm, ⟨12, _⟩ => ⟨S1600000x128, .f32⟩
  | .hbm, ⟨13, _⟩ => ⟨S1x128, .f32⟩
  | .hbm, ⟨14, _⟩ => ⟨S1600000x128, .f32⟩
  | .hbm, ⟨15, _⟩ => ⟨S1600000x128, .f32⟩
  | .hbm, ⟨16, _⟩ => ⟨S_, .f32⟩
  | .hbm, ⟨17, _⟩ => ⟨S100000x128, .f32⟩
  | .hbm, ⟨18, _⟩ => ⟨S1600000x1, .i32⟩
  | .hbm, ⟨19, _⟩ => ⟨S100000x128, .f32⟩
  | .hbm, ⟨20, _⟩ => ⟨S100000x128, .f32⟩
  | .hbm, ⟨21, _⟩ => ⟨S1x128, .f32⟩
  | .hbm, ⟨22, _⟩ => ⟨S100000x128, .f32⟩
  | .hbm, ⟨23, _⟩ => ⟨S100000x128, .f32⟩
  | .hbm, ⟨24, _⟩ => ⟨S100000x128, .f32⟩
  | .hbm, ⟨25, _⟩ => ⟨S_, .f32⟩
  | .hbm, ⟨26, _⟩ => ⟨S100000x128, .f32⟩
  | .hbm, ⟨27, _⟩ => ⟨S100000x128, .f32⟩
  | .hbm, ⟨28, _⟩ => ⟨S_, .i32⟩
  | .hbm, ⟨29, _⟩ => ⟨S1600000, .i32⟩
  | .hbm, ⟨30, _⟩ => ⟨S1600000, .i1⟩
  | .hbm, ⟨31, _⟩ => ⟨S_, .i32⟩
  | .hbm, ⟨32, _⟩ => ⟨S1600000, .i32⟩
  | .hbm, ⟨33, _⟩ => ⟨S1600000, .i32⟩
  | .hbm, ⟨34, _⟩ => ⟨S1600000, .i32⟩
  | .hbm, ⟨35, _⟩ => ⟨S1600000x1, .i32⟩
  | .hbm, ⟨36, _⟩ => ⟨S1600000x128, .f32⟩
  | .hbm, ⟨37, _⟩ => ⟨S_, .f32⟩
  | .hbm, ⟨38, _⟩ => ⟨S100000x128, .f32⟩
  | .hbm, ⟨39, _⟩ => ⟨S1600000x1, .i32⟩
  | .hbm, ⟨40, _⟩ => ⟨S100000x128, .f32⟩
  | .hbm, ⟨41, _⟩ => ⟨S100000x128, .f32⟩
  | .hbm, ⟨42, _⟩ => ⟨S1x128, .f32⟩
  | .hbm, ⟨43, _⟩ => ⟨S100000x128, .f32⟩
  | .hbm, ⟨44, _⟩ => ⟨S100000x128, .f32⟩
  | .hbm, ⟨45, _⟩ => ⟨S100000x128, .f32⟩
  | .hbm, ⟨46, _⟩ => ⟨S_, .f32⟩
  | .hbm, ⟨47, _⟩ => ⟨S100000x128, .f32⟩
  | .hbm, ⟨48, _⟩ => ⟨S100000x128, .f32⟩
  | .hbm, ⟨49, _⟩ => ⟨S_, .i32⟩
  | .hbm, ⟨50, _⟩ => ⟨S1600000, .i32⟩
  | .hbm, ⟨51, _⟩ => ⟨S1600000, .i1⟩
  | .hbm, ⟨52, _⟩ => ⟨S_, .i32⟩
  | .hbm, ⟨53, _⟩ => ⟨S1600000, .i32⟩
  | .hbm, ⟨54, _⟩ => ⟨S1600000, .i32⟩
  | .hbm, ⟨55, _⟩ => ⟨S1600000, .i32⟩
  | .hbm, ⟨56, _⟩ => ⟨S1600000x1, .i32⟩
  | .hbm, ⟨57, _⟩ => ⟨S1600000x128, .f32⟩
  | .hbm, ⟨58, _⟩ => ⟨S_, .f32⟩
  | .hbm, ⟨59, _⟩ => ⟨S100000x128, .f32⟩
  | .hbm, ⟨60, _⟩ => ⟨S1600000x1, .i32⟩
  | .hbm, ⟨61, _⟩ => ⟨S100000x128, .f32⟩
  | .hbm, ⟨62, _⟩ => ⟨S100000x128, .f32⟩
  | .hbm, ⟨63, _⟩ => ⟨S1x128, .f32⟩
  | .hbm, ⟨64, _⟩ => ⟨S100000x128, .f32⟩
  | .hbm, ⟨65, _⟩ => ⟨S100000x128, .f32⟩
  | .hbm, ⟨66, _⟩ => ⟨S100000x128, .f32⟩
  | .hbm, ⟨67, _⟩ => ⟨S_, .f32⟩
  | .hbm, ⟨68, _⟩ => ⟨S100000x128, .f32⟩
  | .hbm, ⟨69, _⟩ => ⟨S100000x128, .f32⟩
  | .hbm, ⟨70, _⟩ => ⟨S_, .i32⟩
  | .hbm, ⟨71, _⟩ => ⟨S1600000, .i32⟩
  | .hbm, ⟨72, _⟩ => ⟨S1600000, .i1⟩
  | .hbm, ⟨73, _⟩ => ⟨S_, .i32⟩
  | .hbm, ⟨74, _⟩ => ⟨S1600000, .i32⟩
  | .hbm, ⟨75, _⟩ => ⟨S1600000, .i32⟩
  | .hbm, ⟨76, _⟩ => ⟨S1600000, .i32⟩
  | .hbm, ⟨77, _⟩ => ⟨S1600000x1, .i32⟩
  | .hbm, ⟨78, _⟩ => ⟨S1600000x128, .f32⟩
  | .hbm, ⟨79, _⟩ => ⟨S_, .f32⟩
  | .hbm, ⟨80, _⟩ => ⟨S100000x128, .f32⟩
  | .hbm, ⟨81, _⟩ => ⟨S1600000x1, .i32⟩
  | .hbm, ⟨82, _⟩ => ⟨S100000x128, .f32⟩
  | .hbm, ⟨83, _⟩ => ⟨S100000x128, .f32⟩
  | .hbm, ⟨84, _⟩ => ⟨S1x128, .f32⟩
  | .hbm, ⟨85, _⟩ => ⟨S100000x128, .f32⟩
  | .hbm, ⟨86, _⟩ => ⟨S100000x128, .f32⟩
  | .hbm, ⟨87, _⟩ => ⟨S100000x128, .f32⟩
  | .hbm, ⟨88, _⟩ => ⟨S_, .f32⟩
  | .hbm, ⟨89, _⟩ => ⟨S100000x128, .f32⟩
  | .hbm, ⟨90, _⟩ => ⟨S100000x128, .f32⟩
  | .hbm, ⟨91, _⟩ => ⟨S100000x128, .f32⟩
  | .hbm, ⟨92, _⟩ => ⟨S1x128, .f32⟩
  | .hbm, ⟨93, _⟩ => ⟨S100000x128, .f32⟩
  | .hbm, ⟨94, _⟩ => ⟨S100000x128, .f32⟩
  | .hbm, ⟨95, _⟩ => ⟨S_, .f32⟩
  | .hbm, ⟨96, _⟩ => ⟨S100000x128, .f32⟩
  | .hbm, ⟨97, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_call0_cst : Ref sig .tc := ⟨.hbm, 25, rfl⟩
abbrev main_call0_v0 : Ref sig .tc := ⟨.hbm, 26, rfl⟩
abbrev main_v12 : Ref sig .tc := ⟨.hbm, 27, rfl⟩
abbrev main_c : Ref sig .tc := ⟨.hbm, 28, rfl⟩
abbrev main_v13 : Ref sig .tc := ⟨.hbm, 29, rfl⟩
abbrev main_v14 : Ref sig .tc := ⟨.hbm, 30, rfl⟩
abbrev main_c_0 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_cst_1 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_call1_cst : Ref sig .tc := ⟨.hbm, 46, rfl⟩
abbrev main_call1_v0 : Ref sig .tc := ⟨.hbm, 47, rfl⟩
abbrev main_v28 : Ref sig .tc := ⟨.hbm, 48, rfl⟩
abbrev main_c_2 : Ref sig .tc := ⟨.hbm, 49, rfl⟩
abbrev main_v29 : Ref sig .tc := ⟨.hbm, 50, rfl⟩
abbrev main_v30 : Ref sig .tc := ⟨.hbm, 51, rfl⟩
abbrev main_c_3 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_cst_4 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_call2_cst : Ref sig .tc := ⟨.hbm, 67, rfl⟩
abbrev main_call2_v0 : Ref sig .tc := ⟨.hbm, 68, rfl⟩
abbrev main_v44 : Ref sig .tc := ⟨.hbm, 69, rfl⟩
abbrev main_c_5 : Ref sig .tc := ⟨.hbm, 70, rfl⟩
abbrev main_v45 : Ref sig .tc := ⟨.hbm, 71, rfl⟩
abbrev main_v46 : Ref sig .tc := ⟨.hbm, 72, rfl⟩
abbrev main_c_6 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_cst_7 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_call3_cst : Ref sig .tc := ⟨.hbm, 88, rfl⟩
abbrev main_call3_v0 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_call4_cst : Ref sig .tc := ⟨.hbm, 95, rfl⟩
abbrev main_call4_v0 : Ref sig .tc := ⟨.hbm, 96, rfl⟩
abbrev main_v65 : Ref sig .tc := ⟨.hbm, 97, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S1600000x128_0_1 : S1x128.BroadcastsInDim S1600000x128 (![0, 1] : Fin 2 → Fin S1600000x128.rank)
  bcast_S_S100000x128 : S_.BroadcastsInDim S100000x128 (![] : Fin 0 → Fin S100000x128.rank)
  bcast_S1600000_S1600000x1_0 : S1600000.BroadcastsInDim S1600000x1 (![0] : Fin 1 → Fin S1600000x1.rank)
  bcast_S1x128_S100000x128_0_1 : S1x128.BroadcastsInDim S100000x128 (![0, 1] : Fin 2 → Fin S100000x128.rank)
  bcast_S_S1600000 : S_.BroadcastsInDim S1600000 (![] : Fin 0 → Fin S1600000.rank)
  dot_S1600000x64_S64x128_S1600000x128_1_0_0_1_n_n_wf : DotDims.WF S1600000x64 S64x128 S1600000x128 [1] [0] [0] [1] [] []
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []
  gather_S100000x128_S1600000x1_S1600000x128_1_0_n_n_0_1_1128_wf : GatherDims.WF S100000x128 S1600000x1 S1600000x128 [1] [0] [] [0] [] 1 ![1, 128]

variable [Facts₀]

def dot_S1600000x64_S64x128_S1600000x128_1_0_0_1_n_n : DotDims S1600000x64 S64x128 S1600000x128 where
  lhsContracting := [1]
  rhsContracting := [0]
  lhsNonContracting := [0]
  rhsNonContracting := [1]
  lhsBatch := []
  rhsBatch := []
  wf := dot_S1600000x64_S64x128_S1600000x128_1_0_0_1_n_n_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf

class Facts : Prop extends Facts₀ where

variable [Facts]
-- ==== Proof.LibPlainDot.lean ====
/-
  A plain matrix product read at coordinates. For dimension numbers that contract the left operand's columns with
  the right operand's rows and have no batch axis, a product of an `[M, K]` by a `[K, N]` matrix into a zero accumulator
  is, at the extended reals and at `(p, q)`, the sum over `k` of `l (p, k) · r (k, q)`.
-/
import Idealize.ShloMosaic.PureOps.Ideal.Laws
import Idealize.ShloMosaic.Lib.ValueIdx

noncomputable section

namespace Cert.LibPlainDot

open Idealize.ShloMosaic Idealize.ShloMosaic.ValueIdx
open scoped BigOperators

variable {M K N : Nat} (d : DotDims ⟨2, ![M, K]⟩ ⟨2, ![K, N]⟩ ⟨2, ![M, N]⟩)

/-- The left operand's row coordinate is the result's row. -/
theorem lhsIdx_row (hlb : d.lhsBatch = []) (hln : d.lhsNonContracting = [0]) (j : (⟨2, ![M, N]⟩ : Shape).Idx) (k : d.contr.Idx) :
    (d.lhsIdx j k 0).val = (j 0).val := by
  have hb : (0 : Fin 2) ∉ d.lhsBatch := by rw [hlb]; exact List.not_mem_nil
  have hn : (0 : Fin 2) ∈ d.lhsNonContracting := by rw [hln]; exact List.mem_singleton.mpr rfl
  unfold DotDims.lhsIdx
  rw [dif_neg hb, dif_pos hn]
  simp only [Fin.val_cast]
  have key : ∀ (p q : Nat) (hp : p < 2) (hq : q < 2), p = q → (j ⟨p, hp⟩).val = (j ⟨q, hq⟩).val :=
    fun p q hp hq h => by subst h; rfl
  exact key _ _ _ _ (by simp [hlb, hln])

/-- The right operand's column coordinate is the result's column. -/
theorem rhsIdx_col (hlb : d.lhsBatch = []) (hrb : d.rhsBatch = []) (hln : d.lhsNonContracting = [0]) (hrn : d.rhsNonContracting = [1])
    (j : (⟨2, ![M, N]⟩ : Shape).Idx) (k : d.contr.Idx) : (d.rhsIdx j k 1).val = (j 1).val := by
  have hb : (1 : Fin 2) ∉ d.rhsBatch := by rw [hrb]; exact List.not_mem_nil
  have hn : (1 : Fin 2) ∈ d.rhsNonContracting := by rw [hrn]; exact List.mem_singleton.mpr rfl
  unfold DotDims.rhsIdx
  rw [dif_neg hb, dif_pos hn]
  simp only [Fin.val_cast]
  have key : ∀ (p q : Nat) (hp : p < 2) (hq : q < 2), p = q → (j ⟨p, hp⟩).val = (j ⟨q, hq⟩).val :=
    fun p q hp hq h => by subst h; rfl
  exact key _ _ _ _ (by simp [hlb, hln, hrn])

/-- The product at `(p, q)`. -/
theorem matmul_plain_apply {φ₁ φ₂ : FTy} (hlc : d.lhsContracting = [1]) (hrc : d.rhsContracting = [0])
    (hlb : d.lhsBatch = []) (hrb : d.rhsBatch = []) (hln : d.lhsNonContracting = [0]) (hrn : d.rhsNonContracting = [1])
    (prec : Option ContractPrecision) (l : FVec Ideal ⟨2, ![M, K]⟩ φ₁) (r : FVec Ideal ⟨2, ![K, N]⟩ φ₂) (p : Fin M) (q : Fin N) :
    FloatOps.matmul d prec l r (constant ⟨2, ![M, N]⟩ .f32 0x00000000#32) (ix2 p q) = ∑ k : Fin K, l (ix2 p k) * r (ix2 k q) := by
  have hr : d.contr.rank = 1 := by rw [d.rank_contr, hlc]; rfl
  have hs : d.contr.size ⟨0, by omega⟩ = K := by
    rw [d.size_contr 0 (by rw [hlc]; exact Nat.one_pos)]
    simp [hlc]
  rw [Ideal.matmul_constant_zero_apply, ← Equiv.sum_comp (contrEquiv1 d K hr hs).symm]
  refine Finset.sum_congr rfl fun k _ => ?_
  have e0 : (((contrEquiv1 d K hr hs).symm k) ⟨0, by omega⟩ : ℕ) = k.val := contrEquiv1_symm_val d K hr hs k
  have hl : d.lhsIdx (ix2 p q) ((contrEquiv1 d K hr hs).symm k) = ix2 p k := by
    refine funext fun a => Fin.ext ?_
    match a with
    | ⟨0, _⟩ => exact lhsIdx_row d hlb hln (ix2 p q) _
    | ⟨1, _⟩ => exact (d.lhsIdx_val_of_single (cl := 1) hlc (ix2 p q) _).trans e0
  have hrr : d.rhsIdx (ix2 p q) ((contrEquiv1 d K hr hs).symm k) = ix2 k q := by
    refine funext fun a => Fin.ext ?_
    match a with
    | ⟨0, _⟩ => exact (d.rhsIdx_val_of_single (cr := 0) hrc (ix2 p q) _).trans e0
    | ⟨1, _⟩ => exact rhsIdx_col d hlb hrb hln hrn (ix2 p q) _
  rw [hl, hrr]

end Cert.LibPlainDot

end
-- ==== Proof.LibLayers.lean ====
/-
  Fully connected layers on the extended reals.

  A layer takes an [M, K] array l, a [K, N] weight matrix W and N biases b to the [M, N] array whose entry (p, q) is
  the sum over k of l (p, k) · W (k, q), plus b q. The rectifier replaces every entry by the larger of the entry and the
  number the f32 zero word encodes. A three-layer perceptron rectifies after its first two layers and not after the
  third. Nothing here asks the entries to be finite: the extended reals' sum and product are total. Stated for any
  extents, over index functions into the extended reals, so that a kernel's and a host program's layers are compared as
  the same function.
-/
import Idealize.ShloMosaic.PureOps.Ideal
import Idealize.ShloMosaic.Lib.ValueIdx

noncomputable section

namespace Cert.LibLayers

open Idealize.ShloMosaic Idealize.ShloMosaic.ValueIdx
open scoped BigOperators

/-- One layer before its activation: entry (p, q) is the sum over k of l (p, k) · W (k, q), plus the q-th bias. -/
def dense {M K N : ℕ} (l : (⟨2, ![M, K]⟩ : Shape).Idx → EReal) (W : (⟨2, ![K, N]⟩ : Shape).Idx → EReal) (b : Fin N → EReal) :
    (⟨2, ![M, N]⟩ : Shape).Idx → EReal :=
  fun j => (∑ k : Fin K, l (ix2 (j 0) k) * W (ix2 k (j 1))) + b (j 1)

/-- The layer at explicit coordinates. -/
theorem dense_apply {M K N : ℕ} (l : (⟨2, ![M, K]⟩ : Shape).Idx → EReal) (W : (⟨2, ![K, N]⟩ : Shape).Idx → EReal) (b : Fin N → EReal)
    (p : Fin M) (q : Fin N) : dense l W b (ix2 p q) = (∑ k : Fin K, l (ix2 p k) * W (ix2 k q)) + b q := rfl

/-- The rectifier, entry by entry: the larger of the entry and the number the f32 zero word encodes. -/
def relu {s : Shape} (f : s.Idx → EReal) : s.Idx → EReal := fun j => max (f j) (Ideal.ofBits .f32 0x00000000#32)

/-- The rectifier at an index. -/
theorem relu_apply {s : Shape} (f : s.Idx → EReal) (j : s.Idx) : relu f j = max (f j) (Ideal.ofBits .f32 0x00000000#32) := rfl

/-- Three layers, rectified after the first and after the second. -/
def mlp {M K1 K2 K3 N : ℕ} (x : (⟨2, ![M, K1]⟩ : Shape).Idx → EReal)
    (W1 : (⟨2, ![K1, K2]⟩ : Shape).Idx → EReal) (b1 : Fin K2 → EReal)
    (W2 : (⟨2, ![K2, K3]⟩ : Shape).Idx → EReal) (b2 : Fin K3 → EReal)
    (W3 : (⟨2, ![K3, N]⟩ : Shape).Idx → EReal) (b3 : Fin N → EReal) : (⟨2, ![M, N]⟩ : Shape).Idx → EReal :=
  dense (relu (dense (relu (dense x W1 b1)) W2 b2)) W3 b3

end Cert.LibLayers

end
-- ==== Proof.LibBlockLayer.lean ====
/-
  A layer as a kernel body computes it on one block.

  The body multiplies a block of activations by a block of the weight matrix into a zero accumulator, adds the bias
  block — one row, cast to its own shape and repeated over the rows — and, for a rectified layer, takes the maximum
  with a repeated zero. Entry by entry that is a layer of LibLayers.lean whose biases are the row's entries.
-/
import proofs.«125341_j42279658062025_2_alg».proof.Proof.LibPlainDot
import proofs.«125341_j42279658062025_2_alg».proof.Proof.LibLayers
import Idealize.ShloMosaic.Lib.ValueLayout
import Idealize.ShloMosaic.Lib.Pipeline.Value

noncomputable section

namespace Cert.LibBlockLayer

open Idealize.ShloMosaic Idealize.ShloMosaic.ValueIdx Cert.LibLayers
open scoped BigOperators

/-- The entries of a one-row array as a function of the column. -/
abbrev rowAt {N : ℕ} (r : (⟨2, ![1, N]⟩ : Shape).Idx → EReal) : Fin N → EReal := fun q => r (ix2 (0 : Fin 1) q)

variable {M K N : ℕ} (d : DotDims ⟨2, ![M, K]⟩ ⟨2, ![K, N]⟩ ⟨2, ![M, N]⟩)

/-- The product into a zero accumulator plus the repeated bias row is the layer before its activation. -/
theorem blockDense {φ₁ φ₂ : FTy} (hlc : d.lhsContracting = [1]) (hrc : d.rhsContracting = [0])
    (hlb : d.lhsBatch = []) (hrb : d.rhsBatch = []) (hln : d.lhsNonContracting = [0]) (hrn : d.rhsNonContracting = [1])
    (prec : Option ContractPrecision) (l : FVec Ideal ⟨2, ![M, K]⟩ φ₁) (W : FVec Ideal ⟨2, ![K, N]⟩ φ₂)
    (r : FVec Ideal ⟨2, ![1, N]⟩ .f32) (hc : (⟨2, ![1, N]⟩ : Shape).ShapeCasts ⟨2, ![1, N]⟩)
    (hb : (⟨2, ![1, N]⟩ : Shape).Broadcasts ⟨2, ![M, N]⟩) :
    addf (FloatOps.matmul d prec l W (constant ⟨2, ![M, N]⟩ .f32 0x00000000#32))
        (broadcastTo ⟨2, ![M, N]⟩ (shapeCast ⟨2, ![1, N]⟩ r hc) hb)
      = dense l W (rowAt r) := by
  funext j
  obtain ⟨p, q, rfl⟩ : ∃ (p : Fin M) (q : Fin N), j = ix2 p q := ⟨j 0, j 1, eq_ix2 j⟩
  rw [addf_apply, Cert.LibPlainDot.matmul_plain_apply d hlc hrc hlb hrb hln hrn, broadcastTo_1b_ab_apply, shapeCast_self]
  rfl

/-- The same followed by the maximum with a repeated zero is the rectified layer. -/
theorem blockDense_relu {φ₁ φ₂ : FTy} (hlc : d.lhsContracting = [1]) (hrc : d.rhsContracting = [0])
    (hlb : d.lhsBatch = []) (hrb : d.rhsBatch = []) (hln : d.lhsNonContracting = [0]) (hrn : d.rhsNonContracting = [1])
    (prec : Option ContractPrecision) (l : FVec Ideal ⟨2, ![M, K]⟩ φ₁) (W : FVec Ideal ⟨2, ![K, N]⟩ φ₂)
    (r : FVec Ideal ⟨2, ![1, N]⟩ .f32) (hc : (⟨2, ![1, N]⟩ : Shape).ShapeCasts ⟨2, ![1, N]⟩)
    (hb : (⟨2, ![1, N]⟩ : Shape).Broadcasts ⟨2, ![M, N]⟩) :
    maximumf (addf (FloatOps.matmul d prec l W (constant ⟨2, ![M, N]⟩ .f32 0x00000000#32))
        (broadcastTo ⟨2, ![M, N]⟩ (shapeCast ⟨2, ![1, N]⟩ r hc) hb))
      (broadcast ⟨2, ![M, N]⟩ (Scalar.ofBits (F := Ideal) .f32 0x00000000#32))
      = relu (dense l W (rowAt r)) := by
  rw [blockDense d hlc hrc hlb hrb hln hrn]
  rfl

/-- A layer read on a tile: when the tile's rows, columns and bias entries are the arrays' at the tile's place, the
    tile's layer at a local index is the arrays' layer at the index's place. -/
theorem dense_tile {M' N' : ℕ} (L : (⟨2, ![M', K]⟩ : Shape).Idx → EReal) (W' : (⟨2, ![K, N']⟩ : Shape).Idx → EReal)
    (B : (⟨2, ![1, N']⟩ : Shape).Idx → EReal)
    (l : (⟨2, ![M, K]⟩ : Shape).Idx → EReal) (w : (⟨2, ![K, N]⟩ : Shape).Idx → EReal) (b : (⟨2, ![1, N]⟩ : Shape).Idx → EReal)
    (y : (⟨2, ![M, N]⟩ : Shape).Idx) (e : (⟨2, ![M', N']⟩ : Shape).Idx)
    (hl : ∀ k : Fin K, l (ix2 (y 0) k) = L (ix2 (e 0) k))
    (hw : ∀ k : Fin K, w (ix2 k (y 1)) = W' (ix2 k (e 1)))
    (hb : b (ix2 (0 : Fin 1) (y 1)) = B (ix2 (0 : Fin 1) (e 1))) :
    dense l w (rowAt b) y = dense L W' (rowAt B) e := by
  show (∑ k : Fin K, l (ix2 (y 0) k) * w (ix2 k (y 1))) + b (ix2 (0 : Fin 1) (y 1))
    = (∑ k : Fin K, L (ix2 (e 0) k) * W' (ix2 k (e 1))) + B (ix2 (0 : Fin 1) (e 1))
  rw [hb]
  exact congrArg (· + B (ix2 (0 : Fin 1) (e 1))) (Finset.sum_congr rfl fun k _ => by rw [hl k, hw k])

end Cert.LibBlockLayer

end
-- ==== Proof.LibPooledLayer.lean ====
/-
  Pooling before a linear layer, on the extended reals.

  Over a finite set E of items, each with a feature vector ef e (indexed by a finite type), a linear layer with weights
  we and bias b satisfies

      (Σ_k (Σ_{e ∈ E} ef e k) · we k) + (Σ_{e ∈ E} 1) · b  =  Σ_{e ∈ E} ((Σ_k ef e k · we k) + b):

  applying the weights to the summed features and adding the bias once per item is the sum of the items' layers. Over
  the reals this is distributivity and an exchange of two finite sums. On the extended reals it is stated for REAL entries
  (an infinite weight times a sum of features of both signs is not the sum of the products), with both sums started
  from a `z` that is zero and the ones given as a `one` that is one — the shape in which a scatter-add of rows into
  zeros, and a scatter-add of ones counting the arrivals, read at an index. Also: the inclusion of the reals in the
  extended reals commutes with finite sums.
-/
import Mathlib.Data.EReal.Operations
import Mathlib.Algebra.BigOperators.Ring.Finset
import Mathlib.Algebra.BigOperators.Group.Finset.Sigma
import Mathlib.Tactic.Ring

noncomputable section

namespace Cert.LibPooledLayer

open scoped BigOperators

/-- The inclusion of the reals commutes with finite sums. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Pooling before the layer, over the reals: the layer's matrix applied to the summed features, plus the bias once per
    edge, is the sum of the edges' layers. -/
theorem pooled_layer_real {ι κ : Type*} [Fintype κ] (E : Finset ι) (ef : ι → κ → ℝ) (we : κ → ℝ) (b : ℝ) :
    (∑ k, (0 + ∑ e ∈ E, ef e k) * we k) + (0 + ∑ _e ∈ E, (1 : ℝ)) * b = 0 + ∑ e ∈ E, ((∑ k, ef e k * we k) + b) := by
  simp only [zero_add, Finset.sum_add_distrib, Finset.sum_const, nsmul_eq_mul, mul_one, Finset.sum_mul]
  rw [Finset.sum_comm]

/-- The same on the extended reals, for real entries: `z` is the number the f32 zero word encodes and `one` the number
    the f32 word of 1.0 encodes. -/
theorem pooled_layer {ι κ : Type*} [Fintype κ] (E : Finset ι) (EF : ι → κ → EReal) (We : κ → EReal) (be z one : EReal)
    (hz : z = 0) (h1 : one = 1)
    (hEF : ∀ e k, ∃ r : ℝ, EF e k = (r : EReal)) (hWe : ∀ k, ∃ r : ℝ, We k = (r : EReal)) (hbe : ∃ r : ℝ, be = (r : EReal)) :
    (∑ k, (z + ∑ e ∈ E, EF e k) * We k) + (z + ∑ _e ∈ E, one) * be = z + ∑ e ∈ E, ((∑ k, EF e k * We k) + be) := by
  choose ef hef using hEF
  choose we hwe using hWe
  obtain ⟨b, rfl⟩ := hbe
  subst hz h1
  simp only [hef, hwe]
  have := congrArg (fun r : ℝ => (r : EReal)) (pooled_layer_real E ef we b)
  simp only [EReal.coe_add, EReal.coe_mul, coe_sum, EReal.coe_zero, EReal.coe_one] at this
  exact this

end Cert.LibPooledLayer

end
-- ==== Proof.Spec.lean ====
/-
  The message-passing network as functions of whole arrays, on the extended reals.

  The network keeps one [N, L] array of node states. From an input message `im` it starts at the rectified message, and
  three times replaces the state h by  relu (pool h · Wc + bc + im),  where `pool` sums, for every node, the states of the
  nodes that send it an edge; the result is  relu (h · Wo + bo).  Here `pool` is a parameter: both programs pool with the
  same gather and scatter-add, and nothing below looks inside it.

  The input message is where the two programs differ. One sums, over the edges arriving at node p, the edge's own
  layer  ef e · We + be;  the other sums the edge features first and applies the layer's matrix once, adding the bias as
  many times as there are edges:  (Σ_e ef e) · We + (Σ_e 1) · be.  For real entries the two are equal, by distributing the
  product over the sum and exchanging the two sums (`pooled_layer`); on the extended reals that needs the entries real,
  since an infinite weight times a sum of features of both signs is not the sum of the products.
-/
import proofs.«125341_j42279658062025_2_alg».proof.Proof.LibLayers
import proofs.«125341_j42279658062025_2_alg».proof.Proof.LibPooledLayer

noncomputable section

namespace Cert.Gnn

open Idealize.ShloMosaic Idealize.ShloMosaic.ValueIdx Cert.LibLayers
open scoped BigOperators

/-- An [M, N] array of extended reals. -/
abbrev Mat (M N : ℕ) := (⟨2, ![M, N]⟩ : Shape).Idx → EReal

/-- The sum of two arrays, entry by entry. -/
def plus {s : Shape} (f g : s.Idx → EReal) : s.Idx → EReal := fun j => f j + g j

theorem plus_apply {s : Shape} (f g : s.Idx → EReal) (j : s.Idx) : plus f g j = f j + g j := rfl

/-- A matrix product with no bias: entry (p, q) is the sum over k of l (p, k) · W (k, q). -/
def prod {M K N : ℕ} (l : Mat M K) (W : Mat K N) : Mat M N :=
  fun j => ∑ k : Fin K, l (ix2 (j 0) k) * W (ix2 k (j 1))

theorem prod_apply {M K N : ℕ} (l : Mat M K) (W : Mat K N) (p : Fin M) (q : Fin N) :
    prod l W (ix2 p q) = ∑ k : Fin K, l (ix2 p k) * W (ix2 k q) := rfl

/-- One round of message passing: pool the states, apply the layer, add the input message, rectify. -/
def round {N L : ℕ} (pool : Mat N L → Mat N L) (Wc : Mat L L) (bc : Fin L → EReal) (im h : Mat N L) : Mat N L :=
  relu (plus (dense (pool h) Wc bc) im)

/-- The network's output from its input message: three rounds from the rectified message, then the rectified output
    layer. -/
def net {N L O : ℕ} (pool : Mat N L → Mat N L) (Wc : Mat L L) (bc : Fin L → EReal) (Wo : Mat L O) (bo : Fin O → EReal)
    (im : Mat N L) : Mat N O :=
  relu (dense (round pool Wc bc im (round pool Wc bc im (round pool Wc bc im (relu im)))) Wo bo)

-- The law that joins the two input messages (pooling before the layer, for real entries) and the inclusion of the
-- reals commuting with finite sums, under this namespace's names.
export Cert.LibPooledLayer (coe_sum pooled_layer_real pooled_layer)

end Cert.Gnn

end
-- ==== Proof.KBody.lean ====
/-
  What each kernel body stores, as a layer on one block.

  The four bodies are built from one pattern: a block of rows times a weight matrix into a zero accumulator, plus a bias
  row repeated over the rows. The first body adds to that a second product with no bias (the pooled edge features times
  the edge matrix) and the block of degree-scaled edge biases, and stores the sum and its rectification; the two middle
  bodies add the block of the input message and rectify; the last one does the same and then applies the rectified output
  layer. Changes of float format are the identity on the extended reals, and a cast to the same shape is the identity.
-/
import proofs.«125341_j42279658062025_2_alg».proof.Proof.Gen.KernelIdeal.Skeleton
import proofs.«125341_j42279658062025_2_alg».proof.Proof.LibBlockLayer
import proofs.«125341_j42279658062025_2_alg».proof.Proof.Spec

set_option maxRecDepth 16384

noncomputable section

namespace Cert.KernelIdeal.GnnBody

open Cert.KernelIdeal Cert.KernelIdeal.Gen
open Idealize.ShloMosaic Idealize.ShloMosaic.ValueIdx Cert.LibLayers Cert.LibBlockLayer Cert.Gnn
open scoped BigOperators

/-- A product into a zero accumulator is the plain matrix product. -/
theorem matmul_zero_eq_prod {M K N : ℕ} (d : DotDims ⟨2, ![M, K]⟩ ⟨2, ![K, N]⟩ ⟨2, ![M, N]⟩) {φ₁ φ₂ : FTy}
    (hlc : d.lhsContracting = [1]) (hrc : d.rhsContracting = [0])
    (hlb : d.lhsBatch = []) (hrb : d.rhsBatch = []) (hln : d.lhsNonContracting = [0]) (hrn : d.rhsNonContracting = [1])
    (prec : Option ContractPrecision) (l : FVec Ideal ⟨2, ![M, K]⟩ φ₁) (W : FVec Ideal ⟨2, ![K, N]⟩ φ₂) :
    FloatOps.matmul d prec l W (constant ⟨2, ![M, N]⟩ .f32 0x00000000#32) = prod l W := by
  funext j
  obtain ⟨p, q, rfl⟩ : ∃ (p : Fin M) (q : Fin N), j = ix2 p q := ⟨j 0, j 1, eq_ix2 j⟩
  exact Cert.LibPlainDot.matmul_plain_apply d hlc hrc hlb hrb hln hrn prec l W p q

/-- The maximum with a repeated f32 zero is the rectifier. -/
theorem max_zero_eq_relu {s : Shape} (x : FVec Ideal s .f32) :
    maximumf x (broadcast s (Scalar.ofBits (F := Ideal) .f32 0x00000000#32)) = relu x := rfl

/-- The sum of two arrays of extended reals. -/
theorem addf_eq_plus {s : Shape} (x y : FVec Ideal s .f32) : addf x y = plus x y := rfl

/-- The input message on a block: the node layer, plus the pooled edge features through the edge matrix, plus the
    degree-scaled edge bias. -/
def messageOf {M : ℕ} (x : Mat M 128) (wn : Mat 128 128) (bn : Mat 1 128) (p : Mat M 64) (we : Mat 64 128) (d : Mat M 128) :
    Mat M 128 :=
  plus (dense x wn (rowAt bn)) (plus (prod p we) d)

/-- One round's update on a block, from the pooled states. -/
def updateOf {M : ℕ} (n : Mat M 128) (wc : Mat 128 128) (bc : Mat 1 128) (im : Mat M 128) : Mat M 128 :=
  relu (plus (dense n wc (rowAt bc)) im)

/-- The last round's update followed by the rectified output layer, on a block. -/
def headOf {M : ℕ} (n : Mat M 128) (wc : Mat 128 128) (bc : Mat 1 128) (im : Mat M 128) (wo : Mat 128 128) (bo : Mat 1 128) :
    Mat M 128 :=
  relu (dense (updateOf n wc bc im) wo (rowAt bo))

/-! ## Each of these functions, at row i, reads only row i of its row-blocked arrays -/

theorem messageOf_rows {M M' : ℕ} (x : Mat M 128) (x' : Mat M' 128) (wn : Mat 128 128) (bn : Mat 1 128)
    (p : Mat M 64) (p' : Mat M' 64) (we : Mat 64 128) (d : Mat M 128) (d' : Mat M' 128) (i : Fin M) (i' : Fin M') (q : Fin 128)
    (hx : ∀ k, x (ix2 i k) = x' (ix2 i' k)) (hp : ∀ k, p (ix2 i k) = p' (ix2 i' k)) (hd : ∀ k, d (ix2 i k) = d' (ix2 i' k)) :
    messageOf x wn bn p we d (ix2 i q) = messageOf x' wn bn p' we d' (ix2 i' q) := by
  show ((∑ k : Fin 128, x (ix2 i k) * wn (ix2 k q)) + bn (ix2 0 q)) + ((∑ k : Fin 64, p (ix2 i k) * we (ix2 k q)) + d (ix2 i q))
    = ((∑ k : Fin 128, x' (ix2 i' k) * wn (ix2 k q)) + bn (ix2 0 q)) + ((∑ k : Fin 64, p' (ix2 i' k) * we (ix2 k q)) + d' (ix2 i' q))
  simp only [hx, hp, hd]

theorem updateOf_rows {M M' : ℕ} (n : Mat M 128) (n' : Mat M' 128) (wc : Mat 128 128) (bc : Mat 1 128)
    (im : Mat M 128) (im' : Mat M' 128) (i : Fin M) (i' : Fin M') (q : Fin 128)
    (hn : ∀ k, n (ix2 i k) = n' (ix2 i' k)) (him : ∀ k, im (ix2 i k) = im' (ix2 i' k)) :
    updateOf n wc bc im (ix2 i q) = updateOf n' wc bc im' (ix2 i' q) := by
  show max (((∑ k : Fin 128, n (ix2 i k) * wc (ix2 k q)) + bc (ix2 0 q)) + im (ix2 i q)) (Ideal.ofBits .f32 0x00000000#32)
    = max (((∑ k : Fin 128, n' (ix2 i' k) * wc (ix2 k q)) + bc (ix2 0 q)) + im' (ix2 i' q)) (Ideal.ofBits .f32 0x00000000#32)
  simp only [hn, him]

theorem headOf_rows {M M' : ℕ} (n : Mat M 128) (n' : Mat M' 128) (wc : Mat 128 128) (bc : Mat 1 128)
    (im : Mat M 128) (im' : Mat M' 128) (wo : Mat 128 128) (bo : Mat 1 128) (i : Fin M) (i' : Fin M') (q : Fin 128)
    (hn : ∀ k, n (ix2 i k) = n' (ix2 i' k)) (him : ∀ k, im (ix2 i k) = im' (ix2 i' k)) :
    headOf n wc bc im wo bo (ix2 i q) = headOf n' wc bc im' wo bo (ix2 i' q) := by
  show max ((∑ k : Fin 128, updateOf n wc bc im (ix2 i k) * wo (ix2 k q)) + bo (ix2 0 q)) (Ideal.ofBits .f32 0x00000000#32)
    = max ((∑ k : Fin 128, updateOf n' wc bc im' (ix2 i' k) * wo (ix2 k q)) + bo (ix2 0 q)) (Ideal.ofBits .f32 0x00000000#32)
  simp only [fun k => updateOf_rows n n' wc bc im im' i i' k hn him]

/-! ## The payloads -/

theorem k0_pay1_eq (x0 : Vec Ideal S5000x128 .f32) (x1 : Vec Ideal S128x128 .f32) (x3 : Vec Ideal S5000x64 .f32)
    (x4 : Vec Ideal S64x128 .f32) (x5 : Vec Ideal S5000x128 .f32) (x2 : Vec Ideal S1x128 .f32) :
    k0_pay1 (F := Ideal) x0 x1 x3 x4 x5 x2 = messageOf x0 x1 x2 x3 x4 x5 := by
  unfold k0_pay1 messageOf
  dsimp only
  rw [shapeCast_self x3, shapeCast_self x5]
  exact congrArg₂ (fun a b : Mat 5000 128 => plus a (plus b x5))
    (blockDense dot_S5000x128_S128x128_S5000x128_1_0_0_1_n_n rfl rfl rfl rfl rfl rfl none (truncf .bf16 x0 bitsLt_bf16_f32) (truncf .bf16 x1 bitsLt_bf16_f32) x2 shapeCasts_S1x128_S1x128 broadcasts_S1x128_S5000x128)
    (matmul_zero_eq_prod dot_S5000x64_S64x128_S5000x128_1_0_0_1_n_n rfl rfl rfl rfl rfl rfl none (truncf .bf16 x3 bitsLt_bf16_f32) (truncf .bf16 x4 bitsLt_bf16_f32))

theorem k0_pay2_eq (x0 : Vec Ideal S5000x128 .f32) (x1 : Vec Ideal S128x128 .f32) (x3 : Vec Ideal S5000x64 .f32)
    (x4 : Vec Ideal S64x128 .f32) (x5 : Vec Ideal S5000x128 .f32) (x2 : Vec Ideal S1x128 .f32) :
    k0_pay2 (F := Ideal) x0 x1 x3 x4 x5 x2 = relu (messageOf x0 x1 x2 x3 x4 x5) := by
  unfold k0_pay2
  dsimp only
  exact congrArg (fun z : Mat 5000 128 => relu z) (k0_pay1_eq x0 x1 x3 x4 x5 x2)

/-- One round's update as the body spells it. -/
theorem update_spelling (x0 : Vec Ideal S5000x128 .f32) (x1 : Vec Ideal S128x128 .f32) (x2 : Vec Ideal S1x128 .f32)
    (x3 : Vec Ideal S5000x128 .f32) :
    maximumf (addf (addf (matmul dot_S5000x128_S128x128_S5000x128_1_0_0_1_n_n none (truncf .bf16 x0 bitsLt_bf16_f32) (truncf .bf16 x1 bitsLt_bf16_f32) (constant S5000x128 .f32 0x00000000#32))
        (broadcastTo S5000x128 (shapeCast S1x128 x2 shapeCasts_S1x128_S1x128) broadcasts_S1x128_S5000x128)) x3)
      (broadcast S5000x128 (Scalar.ofBits (F := Ideal) .f32 0x00000000#32))
      = updateOf x0 x1 x2 x3 :=
  congrArg (fun z : Mat 5000 128 => relu (plus z x3)) (blockDense dot_S5000x128_S128x128_S5000x128_1_0_0_1_n_n rfl rfl rfl rfl rfl rfl none (truncf .bf16 x0 bitsLt_bf16_f32) (truncf .bf16 x1 bitsLt_bf16_f32) x2 shapeCasts_S1x128_S1x128 broadcasts_S1x128_S5000x128)

theorem k1_pay1_eq (x0 : Vec Ideal S5000x128 .f32) (x1 : Vec Ideal S128x128 .f32) (x2 : Vec Ideal S1x128 .f32)
    (x3 : Vec Ideal S5000x128 .f32) : k1_pay1 (F := Ideal) x0 x1 x2 x3 = updateOf x0 x1 x2 x3 := by
  unfold k1_pay1
  dsimp only
  rw [shapeCast_self x0, shapeCast_self x3]
  exact update_spelling x0 x1 x2 x3

theorem k2_pay1_eq (x0 : Vec Ideal S5000x128 .f32) (x1 : Vec Ideal S128x128 .f32) (x2 : Vec Ideal S1x128 .f32)
    (x3 : Vec Ideal S5000x128 .f32) : k2_pay1 (F := Ideal) x0 x1 x2 x3 = updateOf x0 x1 x2 x3 := by
  unfold k2_pay1
  dsimp only
  rw [shapeCast_self x0, shapeCast_self x3]
  exact update_spelling x0 x1 x2 x3

theorem k3_pay1_eq (x0 : Vec Ideal S5000x128 .f32) (x1 : Vec Ideal S128x128 .f32) (x2 : Vec Ideal S1x128 .f32)
    (x3 : Vec Ideal S5000x128 .f32) (x4 : Vec Ideal S128x128 .f32) (x5 : Vec Ideal S1x128 .f32) :
    k3_pay1 (F := Ideal) x0 x1 x2 x3 x4 x5 = headOf x0 x1 x2 x3 x4 x5 := by
  unfold k3_pay1 headOf
  dsimp only
  rw [shapeCast_self x0, shapeCast_self x3]
  refine (congrArg (fun z : Mat 5000 128 => relu z) (blockDense dot_S5000x128_S128x128_S5000x128_1_0_0_1_n_n rfl rfl rfl rfl rfl rfl none _ (truncf .bf16 x4 bitsLt_bf16_f32) x5 shapeCasts_S1x128_S1x128 broadcasts_S1x128_S5000x128)).trans ?_
  exact congrArg (fun h : Mat 5000 128 => relu (dense h x4 (rowAt x5))) (update_spelling x0 x1 x2 x3)

end Cert.KernelIdeal.GnnBody

end
-- ==== Proof.KReg0.lean ====
/-
  Region 0 of the idealized kernel, read as a function of whole arrays.

  The grid has 20 points; point t works on rows 5000·t … 5000·t + 4999 of every row-blocked array and on the whole of
  every weight matrix and bias row. What point t writes back is a function of those rows alone, so it is the block of one
  whole-array function; the 20 blocks cover the output array, which therefore ends as that function of the arrays the
  region was entered with. Stated at any entry contents `V`.
-/
import proofs.«125341_j42279658062025_2_alg».proof.Proof.KernelIdealFrameP
import proofs.«125341_j42279658062025_2_alg».proof.Proof.KBody
import Idealize.ShloMosaic.Lib.Pipeline.Value

set_option maxRecDepth 16384

noncomputable section

namespace Cert.KernelIdeal.GnnReg0

open Cert.KernelIdeal Cert.KernelIdeal.Gen Cert.KernelIdeal.GenP Cert.KernelIdeal.GnnBody
open Idealize.ShloMosaic Idealize.ShloMosaic.TcCoe Idealize.ShloMosaic.ValueIdx Idealize.SL.Sem
open Idealize.ShloMosaic.Pipeline (Dat Cfg Window)
open Cert.LibLayers Cert.LibBlockLayer Cert.Gnn

variable (V : (c : Dev nD) → (b : Ref sig .tc) → Buf (Elt Ideal) ((c : Thread nD τ).loc b))

theorem hz : (![0, 0] : Fin 2 → Nat) = fun _ => 0 := funext fun a => by fin_cases a <;> rfl

/-- Row e of point t's block is row 5000·t + e of the array. -/
def rowOf (t : ℕ) (ht : t < 20) (e : Fin 5000) : Fin 100000 := ⟨t * 5000 + e.val, by have := e.isLt; omega⟩

/-- The printed index maps over the grid: a row-blocked window is at block (t, 0), a weight or bias window at (0, 0). -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0
    ∧ win0_7.index t (0 : Fin 2) = t.val ∧ win0_7.index t (1 : Fin 2) = 0 :=
  (by decide +kernel : ∀ t : Fin grid0.N, _)

/-- Window 1's block at every point is its whole array. -/
theorem wblk1 (c : Dev nD) (t : Fin cfg0.N) : iblk0 V c 1 t = V c (Pipeline.arrRef spec0 1) := by
  funext y
  show V c (Pipeline.arrRef spec0 1) (((cfg0.win 1).blk t).view.emb y) = _
  refine congrArg _ (funext fun a => Fin.ext ?_)
  obtain ⟨h0a, h0b, h1a, h1b, h2a, h2b, h3a, h3b, h4a, h4b, h5a, h5b, h6a, h6b, h7a, h7b⟩ := idx_facts t
  match a with
  | ⟨0, _⟩ => show win0_1.index t (0 : Fin 2) * 128 + 1 * (y 0).val = (y 0).val; omega
  | ⟨1, _⟩ => show win0_1.index t (1 : Fin 2) * 128 + 1 * (y 1).val = (y 1).val; omega

/-- Window 2's block at every point is its whole array. -/
theorem wblk2 (c : Dev nD) (t : Fin cfg0.N) : iblk0 V c 2 t = V c (Pipeline.arrRef spec0 2) := by
  funext y
  show V c (Pipeline.arrRef spec0 2) (((cfg0.win 2).blk t).view.emb y) = _
  refine congrArg _ (funext fun a => Fin.ext ?_)
  obtain ⟨h0a, h0b, h1a, h1b, h2a, h2b, h3a, h3b, h4a, h4b, h5a, h5b, h6a, h6b, h7a, h7b⟩ := idx_facts t
  match a with
  | ⟨0, _⟩ => show win0_2.index t (0 : Fin 2) * 1 + 1 * (y 0).val = (y 0).val; omega
  | ⟨1, _⟩ => show win0_2.index t (1 : Fin 2) * 128 + 1 * (y 1).val = (y 1).val; omega

/-- Window 4's block at every point is its whole array. -/
theorem wblk4 (c : Dev nD) (t : Fin cfg0.N) : iblk0 V c 4 t = V c (Pipeline.arrRef spec0 4) := by
  funext y
  show V c (Pipeline.arrRef spec0 4) (((cfg0.win 4).blk t).view.emb y) = _
  refine congrArg _ (funext fun a => Fin.ext ?_)
  obtain ⟨h0a, h0b, h1a, h1b, h2a, h2b, h3a, h3b, h4a, h4b, h5a, h5b, h6a, h6b, h7a, h7b⟩ := idx_facts t
  match a with
  | ⟨0, _⟩ => show win0_4.index t (0 : Fin 2) * 64 + 1 * (y 0).val = (y 0).val; omega
  | ⟨1, _⟩ => show win0_4.index t (1 : Fin 2) * 128 + 1 * (y 1).val = (y 1).val; omega

/-- Window 0's block at point t, row e, is the array's row 5000·t + e. -/
theorem rblk0 (c : Dev nD) (t : Fin cfg0.N) (e : Fin 5000) (k : Fin 128) :
    iblk0 V c 0 t (ix2 e k) = V c (Pipeline.arrRef spec0 0) (ix2 (rowOf t.val t.isLt e) k) := by
  show V c (Pipeline.arrRef spec0 0) (((cfg0.win 0).blk t).view.emb (ix2 e k)) = _
  refine congrArg _ (funext fun a => Fin.ext ?_)
  obtain ⟨h0a, h0b, h1a, h1b, h2a, h2b, h3a, h3b, h4a, h4b, h5a, h5b, h6a, h6b, h7a, h7b⟩ := idx_facts t
  match a with
  | ⟨0, _⟩ => show win0_0.index t (0 : Fin 2) * 5000 + 1 * e.val = t.val * 5000 + e.val; omega
  | ⟨1, _⟩ => show win0_0.index t (1 : Fin 2) * 128 + 1 * k.val = k.val; omega

/-- Window 3's block at point t, row e, is the array's row 5000·t + e. -/
theorem rblk3 (c : Dev nD) (t : Fin cfg0.N) (e : Fin 5000) (k : Fin 64) :
    iblk0 V c 3 t (ix2 e k) = V c (Pipeline.arrRef spec0 3) (ix2 (rowOf t.val t.isLt e) k) := by
  show V c (Pipeline.arrRef spec0 3) (((cfg0.win 3).blk t).view.emb (ix2 e k)) = _
  refine congrArg _ (funext fun a => Fin.ext ?_)
  obtain ⟨h0a, h0b, h1a, h1b, h2a, h2b, h3a, h3b, h4a, h4b, h5a, h5b, h6a, h6b, h7a, h7b⟩ := idx_facts t
  match a with
  | ⟨0, _⟩ => show win0_3.index t (0 : Fin 2) * 5000 + 1 * e.val = t.val * 5000 + e.val; omega
  | ⟨1, _⟩ => show win0_3.index t (1 : Fin 2) * 64 + 1 * k.val = k.val; omega

/-- Window 5's block at point t, row e, is the array's row 5000·t + e. -/
theorem rblk5 (c : Dev nD) (t : Fin cfg0.N) (e : Fin 5000) (k : Fin 128) :
    iblk0 V c 5 t (ix2 e k) = V c (Pipeline.arrRef spec0 5) (ix2 (rowOf t.val t.isLt e) k) := by
  show V c (Pipeline.arrRef spec0 5) (((cfg0.win 5).blk t).view.emb (ix2 e k)) = _
  refine congrArg _ (funext fun a => Fin.ext ?_)
  obtain ⟨h0a, h0b, h1a, h1b, h2a, h2b, h3a, h3b, h4a, h4b, h5a, h5b, h6a, h6b, h7a, h7b⟩ := idx_facts t
  match a with
  | ⟨0, _⟩ => show win0_5.index t (0 : Fin 2) * 5000 + 1 * e.val = t.val * 5000 + e.val; omega
  | ⟨1, _⟩ => show win0_5.index t (1 : Fin 2) * 128 + 1 * k.val = k.val; omega

/-- Where point t's block of output window 6 sits in its array. -/
theorem emb6 (t : Fin cfg0.N) (e : Fin 5000) (q : Fin 128) :
    ((cfg0.win 6).blk t).view.emb (ix2 e q) = ix2 (rowOf t.val t.isLt e) q := by
  refine funext fun a => Fin.ext ?_
  obtain ⟨h0a, h0b, h1a, h1b, h2a, h2b, h3a, h3b, h4a, h4b, h5a, h5b, h6a, h6b, h7a, h7b⟩ := idx_facts t
  match a with
  | ⟨0, _⟩ => show win0_6.index t (0 : Fin 2) * 5000 + 1 * e.val = t.val * 5000 + e.val; omega
  | ⟨1, _⟩ => show win0_6.index t (1 : Fin 2) * 128 + 1 * q.val = q.val; omega

/-- What point t writes back through output window 6 is block t of one function of the region's entry arrays. -/
theorem flushed6 (c : Dev nD) (t : Fin cfg0.N) :
    (dat0 V c).flushed 6 t = ((cfg0.win 6).blk t).view.read (Elt Ideal) (messageOf (V c (Pipeline.arrRef spec0 0)) (V c (Pipeline.arrRef spec0 1)) (V c (Pipeline.arrRef spec0 2)) (V c (Pipeline.arrRef spec0 3)) (V c (Pipeline.arrRef spec0 4)) (V c (Pipeline.arrRef spec0 5))) := by
  show (cfg0.win 6).cut (grid0.coords t) ((dat0 V c).after 6 t) = _
  rw [after0_6]
  unfold out0_6
  rw [View.canon_unit_zero hz]
  simp only [View.ld_unit_zero (S := S5000x128) hz, View.ld_unit_zero (S := S128x128) hz, View.ld_unit_zero (S := S1x128) hz, View.ld_unit_zero (S := S5000x64) hz, View.ld_unit_zero (S := S64x128) hz]
  rw [k0_pay1_eq]
  funext j
  obtain ⟨e, q, rfl⟩ : ∃ (e : Fin 5000) (q : Fin 128), j = ix2 e q := ⟨j 0, j 1, eq_ix2 j⟩
  show messageOf (iblk0 V c 0 t) (iblk0 V c 1 t) (iblk0 V c 2 t) (iblk0 V c 3 t) (iblk0 V c 4 t) (iblk0 V c 5 t) (ix2 e q)
    = (messageOf (V c (Pipeline.arrRef spec0 0)) (V c (Pipeline.arrRef spec0 1)) (V c (Pipeline.arrRef spec0 2)) (V c (Pipeline.arrRef spec0 3)) (V c (Pipeline.arrRef spec0 4)) (V c (Pipeline.arrRef spec0 5))) (((cfg0.win 6).blk t).view.emb (ix2 e q))
  rw [emb6 t e q, wblk1 V c t, wblk2 V c t, wblk4 V c t]
  exact messageOf_rows (iblk0 V c 0 t) (V c (Pipeline.arrRef spec0 0)) (V c (Pipeline.arrRef spec0 1)) (V c (Pipeline.arrRef spec0 2)) (iblk0 V c 3 t) (V c (Pipeline.arrRef spec0 3)) (V c (Pipeline.arrRef spec0 4)) (iblk0 V c 5 t) (V c (Pipeline.arrRef spec0 5)) e (rowOf t.val t.isLt e) q (fun k => rblk0 V c t e k) (fun k => rblk3 V c t e k) (fun k => rblk5 V c t e k)

/-- An index of the array is in point t's block iff each coordinate is in the block's range on its axis. -/
theorem mem_blk6 (t : Fin cfg0.N) (i : S100000x128.Idx) :
    i ∈ ((cfg0.win 6).blk t).view.set ↔ ∀ a : Fin 2, win0_6.index t a * S5000x128.size a ≤ (i a).val ∧ (i a).val < win0_6.index t a * S5000x128.size a + S5000x128.size a := by
  show i ∈ ((View.whole main_v13_0).slice (win0_6.rect t)).set ↔ _
  rw [View.set_slice_whole, Rect.mem_set_unit]
  exact Iff.rfl

/-- Every stretch of 5000 rows is some point's block. -/
theorem onto6 : ∀ q : Fin 20, ∃ t : Fin cfg0.N, win0_6.index t (0 : Fin 2) = q.val ∧ win0_6.index t (1 : Fin 2) = 0 :=
  (by decide +kernel : ∀ q : Fin 20, ∃ t : Fin grid0.N, _)

/-- The blocks cover the array. -/
theorem cover6 (i : S100000x128.Idx) :
    ∃ t : Fin cfg0.N, (cfg0.win 6).flush t = true ∧ i ∈ ((cfg0.win 6).blk t).view.set := by
  have hi0 : (i 0).val < 100000 := (i 0).isLt
  have hi1 : (i 1).val < 128 := (i 1).isLt
  obtain ⟨t, h0, h1⟩ := onto6 ⟨(i 0).val / 5000, by omega⟩
  refine ⟨t, flush0_6 t, ?_⟩
  rw [mem_blk6]
  intro a
  match a with
  | ⟨0, _⟩ => show win0_6.index t (0 : Fin 2) * 5000 ≤ (i 0).val ∧ (i 0).val < win0_6.index t (0 : Fin 2) * 5000 + 5000; rw [h0]; dsimp only; omega
  | ⟨1, _⟩ => show win0_6.index t (1 : Fin 2) * 128 ≤ (i 1).val ∧ (i 1).val < win0_6.index t (1 : Fin 2) * 128 + 128; rw [h1]; omega

/-- THE ARRAY after the region: that function of the entry arrays. -/
theorem final6 (c : Dev nD) : (dat0 V c).arrAt 6 cfg0.N = (messageOf (V c (Pipeline.arrRef spec0 0)) (V c (Pipeline.arrRef spec0 1)) (V c (Pipeline.arrRef spec0 2)) (V c (Pipeline.arrRef spec0 3)) (V c (Pipeline.arrRef spec0 4)) (V c (Pipeline.arrRef spec0 5))) :=
  (dat0 V c).arrAt_eq_of_cover 6 (messageOf (V c (Pipeline.arrRef spec0 0)) (V c (Pipeline.arrRef spec0 1)) (V c (Pipeline.arrRef spec0 2)) (V c (Pipeline.arrRef spec0 3)) (V c (Pipeline.arrRef spec0 4)) (V c (Pipeline.arrRef spec0 5))) (fun t _ => flushed6 V c t) (cover6)

/-- Where point t's block of output window 7 sits in its array. -/
theorem emb7 (t : Fin cfg0.N) (e : Fin 5000) (q : Fin 128) :
    ((cfg0.win 7).blk t).view.emb (ix2 e q) = ix2 (rowOf t.val t.isLt e) q := by
  refine funext fun a => Fin.ext ?_
  obtain ⟨h0a, h0b, h1a, h1b, h2a, h2b, h3a, h3b, h4a, h4b, h5a, h5b, h6a, h6b, h7a, h7b⟩ := idx_facts t
  match a with
  | ⟨0, _⟩ => show win0_7.index t (0 : Fin 2) * 5000 + 1 * e.val = t.val * 5000 + e.val; omega
  | ⟨1, _⟩ => show win0_7.index t (1 : Fin 2) * 128 + 1 * q.val = q.val; omega

/-- What point t writes back through output window 7 is block t of one function of the region's entry arrays. -/
theorem flushed7 (c : Dev nD) (t : Fin cfg0.N) :
    (dat0 V c).flushed 7 t = ((cfg0.win 7).blk t).view.read (Elt Ideal) (relu (messageOf (V c (Pipeline.arrRef spec0 0)) (V c (Pipeline.arrRef spec0 1)) (V c (Pipeline.arrRef spec0 2)) (V c (Pipeline.arrRef spec0 3)) (V c (Pipeline.arrRef spec0 4)) (V c (Pipeline.arrRef spec0 5)))) := by
  show (cfg0.win 7).cut (grid0.coords t) ((dat0 V c).after 7 t) = _
  rw [after0_7]
  unfold out0_7
  rw [View.canon_unit_zero hz]
  simp only [View.ld_unit_zero (S := S5000x128) hz, View.ld_unit_zero (S := S128x128) hz, View.ld_unit_zero (S := S1x128) hz, View.ld_unit_zero (S := S5000x64) hz, View.ld_unit_zero (S := S64x128) hz]
  rw [k0_pay2_eq]
  funext j
  obtain ⟨e, q, rfl⟩ : ∃ (e : Fin 5000) (q : Fin 128), j = ix2 e q := ⟨j 0, j 1, eq_ix2 j⟩
  show relu (messageOf (iblk0 V c 0 t) (iblk0 V c 1 t) (iblk0 V c 2 t) (iblk0 V c 3 t) (iblk0 V c 4 t) (iblk0 V c 5 t)) (ix2 e q)
    = (relu (messageOf (V c (Pipeline.arrRef spec0 0)) (V c (Pipeline.arrRef spec0 1)) (V c (Pipeline.arrRef spec0 2)) (V c (Pipeline.arrRef spec0 3)) (V c (Pipeline.arrRef spec0 4)) (V c (Pipeline.arrRef spec0 5)))) (((cfg0.win 7).blk t).view.emb (ix2 e q))
  rw [emb7 t e q, wblk1 V c t, wblk2 V c t, wblk4 V c t]
  exact congrArg (fun z => max z (Ideal.ofBits .f32 0x00000000#32)) (messageOf_rows (iblk0 V c 0 t) (V c (Pipeline.arrRef spec0 0)) (V c (Pipeline.arrRef spec0 1)) (V c (Pipeline.arrRef spec0 2)) (iblk0 V c 3 t) (V c (Pipeline.arrRef spec0 3)) (V c (Pipeline.arrRef spec0 4)) (iblk0 V c 5 t) (V c (Pipeline.arrRef spec0 5)) e (rowOf t.val t.isLt e) q (fun k => rblk0 V c t e k) (fun k => rblk3 V c t e k) (fun k => rblk5 V c t e k))

/-- An index of the array is in point t's block iff each coordinate is in the block's range on its axis. -/
theorem mem_blk7 (t : Fin cfg0.N) (i : S100000x128.Idx) :
    i ∈ ((cfg0.win 7).blk t).view.set ↔ ∀ a : Fin 2, win0_7.index t a * S5000x128.size a ≤ (i a).val ∧ (i a).val < win0_7.index t a * S5000x128.size a + S5000x128.size a := by
  show i ∈ ((View.whole main_v13_1).slice (win0_7.rect t)).set ↔ _
  rw [View.set_slice_whole, Rect.mem_set_unit]
  exact Iff.rfl

/-- Every stretch of 5000 rows is some point's block. -/
theorem onto7 : ∀ q : Fin 20, ∃ t : Fin cfg0.N, win0_7.index t (0 : Fin 2) = q.val ∧ win0_7.index t (1 : Fin 2) = 0 :=
  (by decide +kernel : ∀ q : Fin 20, ∃ t : Fin grid0.N, _)

/-- The blocks cover the array. -/
theorem cover7 (i : S100000x128.Idx) :
    ∃ t : Fin cfg0.N, (cfg0.win 7).flush t = true ∧ i ∈ ((cfg0.win 7).blk t).view.set := by
  have hi0 : (i 0).val < 100000 := (i 0).isLt
  have hi1 : (i 1).val < 128 := (i 1).isLt
  obtain ⟨t, h0, h1⟩ := onto7 ⟨(i 0).val / 5000, by omega⟩
  refine ⟨t, flush0_7 t, ?_⟩
  rw [mem_blk7]
  intro a
  match a with
  | ⟨0, _⟩ => show win0_7.index t (0 : Fin 2) * 5000 ≤ (i 0).val ∧ (i 0).val < win0_7.index t (0 : Fin 2) * 5000 + 5000; rw [h0]; dsimp only; omega
  | ⟨1, _⟩ => show win0_7.index t (1 : Fin 2) * 128 ≤ (i 1).val ∧ (i 1).val < win0_7.index t (1 : Fin 2) * 128 + 128; rw [h1]; omega

/-- THE ARRAY after the region: that function of the entry arrays. -/
theorem final7 (c : Dev nD) : (dat0 V c).arrAt 7 cfg0.N = (relu (messageOf (V c (Pipeline.arrRef spec0 0)) (V c (Pipeline.arrRef spec0 1)) (V c (Pipeline.arrRef spec0 2)) (V c (Pipeline.arrRef spec0 3)) (V c (Pipeline.arrRef spec0 4)) (V c (Pipeline.arrRef spec0 5)))) :=
  (dat0 V c).arrAt_eq_of_cover 7 (relu (messageOf (V c (Pipeline.arrRef spec0 0)) (V c (Pipeline.arrRef spec0 1)) (V c (Pipeline.arrRef spec0 2)) (V c (Pipeline.arrRef spec0 3)) (V c (Pipeline.arrRef spec0 4)) (V c (Pipeline.arrRef spec0 5)))) (fun t _ => flushed7 V c t) (cover7)

end Cert.KernelIdeal.GnnReg0

end
-- ==== Proof.KReg1.lean ====
/-
  Region 1 of the idealized kernel, read as a function of whole arrays.

  The grid has 20 points; point t works on rows 5000·t … 5000·t + 4999 of every row-blocked array and on the whole of
  every weight matrix and bias row. What point t writes back is a function of those rows alone, so it is the block of one
  whole-array function; the 20 blocks cover the output array, which therefore ends as that function of the arrays the
  region was entered with. Stated at any entry contents `V`.
-/
import proofs.«125341_j42279658062025_2_alg».proof.Proof.KernelIdealFrameP
import proofs.«125341_j42279658062025_2_alg».proof.Proof.KBody
import Idealize.ShloMosaic.Lib.Pipeline.Value

set_option maxRecDepth 16384

noncomputable section

namespace Cert.KernelIdeal.GnnReg1

open Cert.KernelIdeal Cert.KernelIdeal.Gen Cert.KernelIdeal.GenP Cert.KernelIdeal.GnnBody
open Idealize.ShloMosaic Idealize.ShloMosaic.TcCoe Idealize.ShloMosaic.ValueIdx Idealize.SL.Sem
open Idealize.ShloMosaic.Pipeline (Dat Cfg Window)
open Cert.LibLayers Cert.LibBlockLayer Cert.Gnn

variable (V : (c : Dev nD) → (b : Ref sig .tc) → Buf (Elt Ideal) ((c : Thread nD τ).loc b))

theorem hz : (![0, 0] : Fin 2 → Nat) = fun _ => 0 := funext fun a => by fin_cases a <;> rfl

/-- Row e of point t's block is row 5000·t + e of the array. -/
def rowOf (t : ℕ) (ht : t < 20) (e : Fin 5000) : Fin 100000 := ⟨t * 5000 + e.val, by have := e.isLt; omega⟩

/-- The printed index maps over the grid: a row-blocked window is at block (t, 0), a weight or bias window at (0, 0). -/
theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0
    ∧ win1_4.index t (0 : Fin 2) = t.val ∧ win1_4.index t (1 : Fin 2) = 0 :=
  (by decide +kernel : ∀ t : Fin grid1.N, _)

/-- Window 1's block at every point is its whole array. -/
theorem wblk1 (c : Dev nD) (t : Fin cfg1.N) : iblk1 V c 1 t = V c (Pipeline.arrRef spec1 1) := by
  funext y
  show V c (Pipeline.arrRef spec1 1) (((cfg1.win 1).blk t).view.emb y) = _
  refine congrArg _ (funext fun a => Fin.ext ?_)
  obtain ⟨h0a, h0b, h1a, h1b, h2a, h2b, h3a, h3b, h4a, h4b⟩ := idx_facts t
  match a with
  | ⟨0, _⟩ => show win1_1.index t (0 : Fin 2) * 128 + 1 * (y 0).val = (y 0).val; omega
  | ⟨1, _⟩ => show win1_1.index t (1 : Fin 2) * 128 + 1 * (y 1).val = (y 1).val; omega

/-- Window 2's block at every point is its whole array. -/
theorem wblk2 (c : Dev nD) (t : Fin cfg1.N) : iblk1 V c 2 t = V c (Pipeline.arrRef spec1 2) := by
  funext y
  show V c (Pipeline.arrRef spec1 2) (((cfg1.win 2).blk t).view.emb y) = _
  refine congrArg _ (funext fun a => Fin.ext ?_)
  obtain ⟨h0a, h0b, h1a, h1b, h2a, h2b, h3a, h3b, h4a, h4b⟩ := idx_facts t
  match a with
  | ⟨0, _⟩ => show win1_2.index t (0 : Fin 2) * 1 + 1 * (y 0).val = (y 0).val; omega
  | ⟨1, _⟩ => show win1_2.index t (1 : Fin 2) * 128 + 1 * (y 1).val = (y 1).val; omega

/-- Window 0's block at point t, row e, is the array's row 5000·t + e. -/
theorem rblk0 (c : Dev nD) (t : Fin cfg1.N) (e : Fin 5000) (k : Fin 128) :
    iblk1 V c 0 t (ix2 e k) = V c (Pipeline.arrRef spec1 0) (ix2 (rowOf t.val t.isLt e) k) := by
  show V c (Pipeline.arrRef spec1 0) (((cfg1.win 0).blk t).view.emb (ix2 e k)) = _
  refine congrArg _ (funext fun a => Fin.ext ?_)
  obtain ⟨h0a, h0b, h1a, h1b, h2a, h2b, h3a, h3b, h4a, h4b⟩ := idx_facts t
  match a with
  | ⟨0, _⟩ => show win1_0.index t (0 : Fin 2) * 5000 + 1 * e.val = t.val * 5000 + e.val; omega
  | ⟨1, _⟩ => show win1_0.index t (1 : Fin 2) * 128 + 1 * k.val = k.val; omega

/-- Window 3's block at point t, row e, is the array's row 5000·t + e. -/
theorem rblk3 (c : Dev nD) (t : Fin cfg1.N) (e : Fin 5000) (k : Fin 128) :
    iblk1 V c 3 t (ix2 e k) = V c (Pipeline.arrRef spec1 3) (ix2 (rowOf t.val t.isLt e) k) := by
  show V c (Pipeline.arrRef spec1 3) (((cfg1.win 3).blk t).view.emb (ix2 e k)) = _
  refine congrArg _ (funext fun a => Fin.ext ?_)
  obtain ⟨h0a, h0b, h1a, h1b, h2a, h2b, h3a, h3b, h4a, h4b⟩ := idx_facts t
  match a with
  | ⟨0, _⟩ => show win1_3.index t (0 : Fin 2) * 5000 + 1 * e.val = t.val * 5000 + e.val; omega
  | ⟨1, _⟩ => show win1_3.index t (1 : Fin 2) * 128 + 1 * k.val = k.val; omega

/-- Where point t's block of output window 4 sits in its array. -/
theorem emb4 (t : Fin cfg1.N) (e : Fin 5000) (q : Fin 128) :
    ((cfg1.win 4).blk t).view.emb (ix2 e q) = ix2 (rowOf t.val t.isLt e) q := by
  refine funext fun a => Fin.ext ?_
  obtain ⟨h0a, h0b, h1a, h1b, h2a, h2b, h3a, h3b, h4a, h4b⟩ := idx_facts t
  match a with
  | ⟨0, _⟩ => show win1_4.index t (0 : Fin 2) * 5000 + 1 * e.val = t.val * 5000 + e.val; omega
  | ⟨1, _⟩ => show win1_4.index t (1 : Fin 2) * 128 + 1 * q.val = q.val; omega

/-- What point t writes back through output window 4 is block t of one function of the region's entry arrays. -/
theorem flushed4 (c : Dev nD) (t : Fin cfg1.N) :
    (dat1 V c).flushed 4 t = ((cfg1.win 4).blk t).view.read (Elt Ideal) (updateOf (V c (Pipeline.arrRef spec1 0)) (V c (Pipeline.arrRef spec1 1)) (V c (Pipeline.arrRef spec1 2)) (V c (Pipeline.arrRef spec1 3))) := by
  show (cfg1.win 4).cut (grid1.coords t) ((dat1 V c).after 4 t) = _
  rw [after1_4]
  unfold out1_4
  rw [View.canon_unit_zero hz]
  simp only [View.ld_unit_zero (S := S5000x128) hz, View.ld_unit_zero (S := S128x128) hz, View.ld_unit_zero (S := S1x128) hz]
  rw [k1_pay1_eq]
  funext j
  obtain ⟨e, q, rfl⟩ : ∃ (e : Fin 5000) (q : Fin 128), j = ix2 e q := ⟨j 0, j 1, eq_ix2 j⟩
  show updateOf (iblk1 V c 0 t) (iblk1 V c 1 t) (iblk1 V c 2 t) (iblk1 V c 3 t) (ix2 e q)
    = (updateOf (V c (Pipeline.arrRef spec1 0)) (V c (Pipeline.arrRef spec1 1)) (V c (Pipeline.arrRef spec1 2)) (V c (Pipeline.arrRef spec1 3))) (((cfg1.win 4).blk t).view.emb (ix2 e q))
  rw [emb4 t e q, wblk1 V c t, wblk2 V c t]
  exact updateOf_rows (iblk1 V c 0 t) (V c (Pipeline.arrRef spec1 0)) (V c (Pipeline.arrRef spec1 1)) (V c (Pipeline.arrRef spec1 2)) (iblk1 V c 3 t) (V c (Pipeline.arrRef spec1 3)) e (rowOf t.val t.isLt e) q (fun k => rblk0 V c t e k) (fun k => rblk3 V c t e k)

/-- An index of the array is in point t's block iff each coordinate is in the block's range on its axis. -/
theorem mem_blk4 (t : Fin cfg1.N) (i : S100000x128.Idx) :
    i ∈ ((cfg1.win 4).blk t).view.set ↔ ∀ a : Fin 2, win1_4.index t a * S5000x128.size a ≤ (i a).val ∧ (i a).val < win1_4.index t a * S5000x128.size a + S5000x128.size a := by
  show i ∈ ((View.whole main_v25).slice (win1_4.rect t)).set ↔ _
  rw [View.set_slice_whole, Rect.mem_set_unit]
  exact Iff.rfl

/-- Every stretch of 5000 rows is some point's block. -/
theorem onto4 : ∀ q : Fin 20, ∃ t : Fin cfg1.N, win1_4.index t (0 : Fin 2) = q.val ∧ win1_4.index t (1 : Fin 2) = 0 :=
  (by decide +kernel : ∀ q : Fin 20, ∃ t : Fin grid1.N, _)

/-- The blocks cover the array. -/
theorem cover4 (i : S100000x128.Idx) :
    ∃ t : Fin cfg1.N, (cfg1.win 4).flush t = true ∧ i ∈ ((cfg1.win 4).blk t).view.set := by
  have hi0 : (i 0).val < 100000 := (i 0).isLt
  have hi1 : (i 1).val < 128 := (i 1).isLt
  obtain ⟨t, h0, h1⟩ := onto4 ⟨(i 0).val / 5000, by omega⟩
  refine ⟨t, flush1_4 t, ?_⟩
  rw [mem_blk4]
  intro a
  match a with
  | ⟨0, _⟩ => show win1_4.index t (0 : Fin 2) * 5000 ≤ (i 0).val ∧ (i 0).val < win1_4.index t (0 : Fin 2) * 5000 + 5000; rw [h0]; dsimp only; omega
  | ⟨1, _⟩ => show win1_4.index t (1 : Fin 2) * 128 ≤ (i 1).val ∧ (i 1).val < win1_4.index t (1 : Fin 2) * 128 + 128; rw [h1]; omega

/-- THE ARRAY after the region: that function of the entry arrays. -/
theorem final4 (c : Dev nD) : (dat1 V c).arrAt 4 cfg1.N = (updateOf (V c (Pipeline.arrRef spec1 0)) (V c (Pipeline.arrRef spec1 1)) (V c (Pipeline.arrRef spec1 2)) (V c (Pipeline.arrRef spec1 3))) :=
  (dat1 V c).arrAt_eq_of_cover 4 (updateOf (V c (Pipeline.arrRef spec1 0)) (V c (Pipeline.arrRef spec1 1)) (V c (Pipeline.arrRef spec1 2)) (V c (Pipeline.arrRef spec1 3))) (fun t _ => flushed4 V c t) (cover4)

end Cert.KernelIdeal.GnnReg1

end
-- ==== Proof.KReg2.lean ====
/-
  Region 2 of the idealized kernel, read as a function of whole arrays.

  The grid has 20 points; point t works on rows 5000·t … 5000·t + 4999 of every row-blocked array and on the whole of
  every weight matrix and bias row. What point t writes back is a function of those rows alone, so it is the block of one
  whole-array function; the 20 blocks cover the output array, which therefore ends as that function of the arrays the
  region was entered with. Stated at any entry contents `V`.
-/
import proofs.«125341_j42279658062025_2_alg».proof.Proof.KernelIdealFrameP
import proofs.«125341_j42279658062025_2_alg».proof.Proof.KBody
import Idealize.ShloMosaic.Lib.Pipeline.Value

set_option maxRecDepth 16384

noncomputable section

namespace Cert.KernelIdeal.GnnReg2

open Cert.KernelIdeal Cert.KernelIdeal.Gen Cert.KernelIdeal.GenP Cert.KernelIdeal.GnnBody
open Idealize.ShloMosaic Idealize.ShloMosaic.TcCoe Idealize.ShloMosaic.ValueIdx Idealize.SL.Sem
open Idealize.ShloMosaic.Pipeline (Dat Cfg Window)
open Cert.LibLayers Cert.LibBlockLayer Cert.Gnn

variable (V : (c : Dev nD) → (b : Ref sig .tc) → Buf (Elt Ideal) ((c : Thread nD τ).loc b))

theorem hz : (![0, 0] : Fin 2 → Nat) = fun _ => 0 := funext fun a => by fin_cases a <;> rfl

/-- Row e of point t's block is row 5000·t + e of the array. -/
def rowOf (t : ℕ) (ht : t < 20) (e : Fin 5000) : Fin 100000 := ⟨t * 5000 + e.val, by have := e.isLt; omega⟩

/-- The printed index maps over the grid: a row-blocked window is at block (t, 0), a weight or bias window at (0, 0). -/
theorem idx_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0
    ∧ win2_4.index t (0 : Fin 2) = t.val ∧ win2_4.index t (1 : Fin 2) = 0 :=
  (by decide +kernel : ∀ t : Fin grid2.N, _)

/-- Window 1's block at every point is its whole array. -/
theorem wblk1 (c : Dev nD) (t : Fin cfg2.N) : iblk2 V c 1 t = V c (Pipeline.arrRef spec2 1) := by
  funext y
  show V c (Pipeline.arrRef spec2 1) (((cfg2.win 1).blk t).view.emb y) = _
  refine congrArg _ (funext fun a => Fin.ext ?_)
  obtain ⟨h0a, h0b, h1a, h1b, h2a, h2b, h3a, h3b, h4a, h4b⟩ := idx_facts t
  match a with
  | ⟨0, _⟩ => show win2_1.index t (0 : Fin 2) * 128 + 1 * (y 0).val = (y 0).val; omega
  | ⟨1, _⟩ => show win2_1.index t (1 : Fin 2) * 128 + 1 * (y 1).val = (y 1).val; omega

/-- Window 2's block at every point is its whole array. -/
theorem wblk2 (c : Dev nD) (t : Fin cfg2.N) : iblk2 V c 2 t = V c (Pipeline.arrRef spec2 2) := by
  funext y
  show V c (Pipeline.arrRef spec2 2) (((cfg2.win 2).blk t).view.emb y) = _
  refine congrArg _ (funext fun a => Fin.ext ?_)
  obtain ⟨h0a, h0b, h1a, h1b, h2a, h2b, h3a, h3b, h4a, h4b⟩ := idx_facts t
  match a with
  | ⟨0, _⟩ => show win2_2.index t (0 : Fin 2) * 1 + 1 * (y 0).val = (y 0).val; omega
  | ⟨1, _⟩ => show win2_2.index t (1 : Fin 2) * 128 + 1 * (y 1).val = (y 1).val; omega

/-- Window 0's block at point t, row e, is the array's row 5000·t + e. -/
theorem rblk0 (c : Dev nD) (t : Fin cfg2.N) (e : Fin 5000) (k : Fin 128) :
    iblk2 V c 0 t (ix2 e k) = V c (Pipeline.arrRef spec2 0) (ix2 (rowOf t.val t.isLt e) k) := by
  show V c (Pipeline.arrRef spec2 0) (((cfg2.win 0).blk t).view.emb (ix2 e k)) = _
  refine congrArg _ (funext fun a => Fin.ext ?_)
  obtain ⟨h0a, h0b, h1a, h1b, h2a, h2b, h3a, h3b, h4a, h4b⟩ := idx_facts t
  match a with
  | ⟨0, _⟩ => show win2_0.index t (0 : Fin 2) * 5000 + 1 * e.val = t.val * 5000 + e.val; omega
  | ⟨1, _⟩ => show win2_0.index t (1 : Fin 2) * 128 + 1 * k.val = k.val; omega

/-- Window 3's block at point t, row e, is the array's row 5000·t + e. -/
theorem rblk3 (c : Dev nD) (t : Fin cfg2.N) (e : Fin 5000) (k : Fin 128) :
    iblk2 V c 3 t (ix2 e k) = V c (Pipeline.arrRef spec2 3) (ix2 (rowOf t.val t.isLt e) k) := by
  show V c (Pipeline.arrRef spec2 3) (((cfg2.win 3).blk t).view.emb (ix2 e k)) = _
  refine congrArg _ (funext fun a => Fin.ext ?_)
  obtain ⟨h0a, h0b, h1a, h1b, h2a, h2b, h3a, h3b, h4a, h4b⟩ := idx_facts t
  match a with
  | ⟨0, _⟩ => show win2_3.index t (0 : Fin 2) * 5000 + 1 * e.val = t.val * 5000 + e.val; omega
  | ⟨1, _⟩ => show win2_3.index t (1 : Fin 2) * 128 + 1 * k.val = k.val; omega

/-- Where point t's block of output window 4 sits in its array. -/
theorem emb4 (t : Fin cfg2.N) (e : Fin 5000) (q : Fin 128) :
    ((cfg2.win 4).blk t).view.emb (ix2 e q) = ix2 (rowOf t.val t.isLt e) q := by
  refine funext fun a => Fin.ext ?_
  obtain ⟨h0a, h0b, h1a, h1b, h2a, h2b, h3a, h3b, h4a, h4b⟩ := idx_facts t
  match a with
  | ⟨0, _⟩ => show win2_4.index t (0 : Fin 2) * 5000 + 1 * e.val = t.val * 5000 + e.val; omega
  | ⟨1, _⟩ => show win2_4.index t (1 : Fin 2) * 128 + 1 * q.val = q.val; omega

/-- What point t writes back through output window 4 is block t of one function of the region's entry arrays. -/
theorem flushed4 (c : Dev nD) (t : Fin cfg2.N) :
    (dat2 V c).flushed 4 t = ((cfg2.win 4).blk t).view.read (Elt Ideal) (updateOf (V c (Pipeline.arrRef spec2 0)) (V c (Pipeline.arrRef spec2 1)) (V c (Pipeline.arrRef spec2 2)) (V c (Pipeline.arrRef spec2 3))) := by
  show (cfg2.win 4).cut (grid2.coords t) ((dat2 V c).after 4 t) = _
  rw [after2_4]
  unfold out2_4
  rw [View.canon_unit_zero hz]
  simp only [View.ld_unit_zero (S := S5000x128) hz, View.ld_unit_zero (S := S128x128) hz, View.ld_unit_zero (S := S1x128) hz]
  rw [k2_pay1_eq]
  funext j
  obtain ⟨e, q, rfl⟩ : ∃ (e : Fin 5000) (q : Fin 128), j = ix2 e q := ⟨j 0, j 1, eq_ix2 j⟩
  show updateOf (iblk2 V c 0 t) (iblk2 V c 1 t) (iblk2 V c 2 t) (iblk2 V c 3 t) (ix2 e q)
    = (updateOf (V c (Pipeline.arrRef spec2 0)) (V c (Pipeline.arrRef spec2 1)) (V c (Pipeline.arrRef spec2 2)) (V c (Pipeline.arrRef spec2 3))) (((cfg2.win 4).blk t).view.emb (ix2 e q))
  rw [emb4 t e q, wblk1 V c t, wblk2 V c t]
  exact updateOf_rows (iblk2 V c 0 t) (V c (Pipeline.arrRef spec2 0)) (V c (Pipeline.arrRef spec2 1)) (V c (Pipeline.arrRef spec2 2)) (iblk2 V c 3 t) (V c (Pipeline.arrRef spec2 3)) e (rowOf t.val t.isLt e) q (fun k => rblk0 V c t e k) (fun k => rblk3 V c t e k)

/-- An index of the array is in point t's block iff each coordinate is in the block's range on its axis. -/
theorem mem_blk4 (t : Fin cfg2.N) (i : S100000x128.Idx) :
    i ∈ ((cfg2.win 4).blk t).view.set ↔ ∀ a : Fin 2, win2_4.index t a * S5000x128.size a ≤ (i a).val ∧ (i a).val < win2_4.index t a * S5000x128.size a + S5000x128.size a := by
  show i ∈ ((View.whole main_v37).slice (win2_4.rect t)).set ↔ _
  rw [View.set_slice_whole, Rect.mem_set_unit]
  exact Iff.rfl

/-- Every stretch of 5000 rows is some point's block. -/
theorem onto4 : ∀ q : Fin 20, ∃ t : Fin cfg2.N, win2_4.index t (0 : Fin 2) = q.val ∧ win2_4.index t (1 : Fin 2) = 0 :=
  (by decide +kernel : ∀ q : Fin 20, ∃ t : Fin grid2.N, _)

/-- The blocks cover the array. -/
theorem cover4 (i : S100000x128.Idx) :
    ∃ t : Fin cfg2.N, (cfg2.win 4).flush t = true ∧ i ∈ ((cfg2.win 4).blk t).view.set := by
  have hi0 : (i 0).val < 100000 := (i 0).isLt
  have hi1 : (i 1).val < 128 := (i 1).isLt
  obtain ⟨t, h0, h1⟩ := onto4 ⟨(i 0).val / 5000, by omega⟩
  refine ⟨t, flush2_4 t, ?_⟩
  rw [mem_blk4]
  intro a
  match a with
  | ⟨0, _⟩ => show win2_4.index t (0 : Fin 2) * 5000 ≤ (i 0).val ∧ (i 0).val < win2_4.index t (0 : Fin 2) * 5000 + 5000; rw [h0]; dsimp only; omega
  | ⟨1, _⟩ => show win2_4.index t (1 : Fin 2) * 128 ≤ (i 1).val ∧ (i 1).val < win2_4.index t (1 : Fin 2) * 128 + 128; rw [h1]; omega

/-- THE ARRAY after the region: that function of the entry arrays. -/
theorem final4 (c : Dev nD) : (dat2 V c).arrAt 4 cfg2.N = (updateOf (V c (Pipeline.arrRef spec2 0)) (V c (Pipeline.arrRef spec2 1)) (V c (Pipeline.arrRef spec2 2)) (V c (Pipeline.arrRef spec2 3))) :=
  (dat2 V c).arrAt_eq_of_cover 4 (updateOf (V c (Pipeline.arrRef spec2 0)) (V c (Pipeline.arrRef spec2 1)) (V c (Pipeline.arrRef spec2 2)) (V c (Pipeline.arrRef spec2 3))) (fun t _ => flushed4 V c t) (cover4)

end Cert.KernelIdeal.GnnReg2

end
-- ==== Proof.KReg3.lean ====
/-
  Region 3 of the idealized kernel, read as a function of whole arrays.

  The grid has 20 points; point t works on rows 5000·t … 5000·t + 4999 of every row-blocked array and on the whole of
  every weight matrix and bias row. What point t writes back is a function of those rows alone, so it is the block of one
  whole-array function; the 20 blocks cover the output array, which therefore ends as that function of the arrays the
  region was entered with. Stated at any entry contents `V`.
-/
import proofs.«125341_j42279658062025_2_alg».proof.Proof.KernelIdealFrameP
import proofs.«125341_j42279658062025_2_alg».proof.Proof.KBody
import Idealize.ShloMosaic.Lib.Pipeline.Value

set_option maxRecDepth 16384

noncomputable section

namespace Cert.KernelIdeal.GnnReg3

open Cert.KernelIdeal Cert.KernelIdeal.Gen Cert.KernelIdeal.GenP Cert.KernelIdeal.GnnBody
open Idealize.ShloMosaic Idealize.ShloMosaic.TcCoe Idealize.ShloMosaic.ValueIdx Idealize.SL.Sem
open Idealize.ShloMosaic.Pipeline (Dat Cfg Window)
open Cert.LibLayers Cert.LibBlockLayer Cert.Gnn

variable (V : (c : Dev nD) → (b : Ref sig .tc) → Buf (Elt Ideal) ((c : Thread nD τ).loc b))

theorem hz : (![0, 0] : Fin 2 → Nat) = fun _ => 0 := funext fun a => by fin_cases a <;> rfl

/-- Row e of point t's block is row 5000·t + e of the array. -/
def rowOf (t : ℕ) (ht : t < 20) (e : Fin 5000) : Fin 100000 := ⟨t * 5000 + e.val, by have := e.isLt; omega⟩

/-- The printed index maps over the grid: a row-blocked window is at block (t, 0), a weight or bias window at (0, 0). -/
theorem idx_facts : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = t.val ∧ win3_6.index t (1 : Fin 2) = 0 :=
  (by decide +kernel : ∀ t : Fin grid3.N, _)

/-- Window 1's block at every point is its whole array. -/
theorem wblk1 (c : Dev nD) (t : Fin cfg3.N) : iblk3 V c 1 t = V c (Pipeline.arrRef spec3 1) := by
  funext y
  show V c (Pipeline.arrRef spec3 1) (((cfg3.win 1).blk t).view.emb y) = _
  refine congrArg _ (funext fun a => Fin.ext ?_)
  obtain ⟨h0a, h0b, h1a, h1b, h2a, h2b, h3a, h3b, h4a, h4b, h5a, h5b, h6a, h6b⟩ := idx_facts t
  match a with
  | ⟨0, _⟩ => show win3_1.index t (0 : Fin 2) * 128 + 1 * (y 0).val = (y 0).val; omega
  | ⟨1, _⟩ => show win3_1.index t (1 : Fin 2) * 128 + 1 * (y 1).val = (y 1).val; omega

/-- Window 2's block at every point is its whole array. -/
theorem wblk2 (c : Dev nD) (t : Fin cfg3.N) : iblk3 V c 2 t = V c (Pipeline.arrRef spec3 2) := by
  funext y
  show V c (Pipeline.arrRef spec3 2) (((cfg3.win 2).blk t).view.emb y) = _
  refine congrArg _ (funext fun a => Fin.ext ?_)
  obtain ⟨h0a, h0b, h1a, h1b, h2a, h2b, h3a, h3b, h4a, h4b, h5a, h5b, h6a, h6b⟩ := idx_facts t
  match a with
  | ⟨0, _⟩ => show win3_2.index t (0 : Fin 2) * 1 + 1 * (y 0).val = (y 0).val; omega
  | ⟨1, _⟩ => show win3_2.index t (1 : Fin 2) * 128 + 1 * (y 1).val = (y 1).val; omega

/-- Window 4's block at every point is its whole array. -/
theorem wblk4 (c : Dev nD) (t : Fin cfg3.N) : iblk3 V c 4 t = V c (Pipeline.arrRef spec3 4) := by
  funext y
  show V c (Pipeline.arrRef spec3 4) (((cfg3.win 4).blk t).view.emb y) = _
  refine congrArg _ (funext fun a => Fin.ext ?_)
  obtain ⟨h0a, h0b, h1a, h1b, h2a, h2b, h3a, h3b, h4a, h4b, h5a, h5b, h6a, h6b⟩ := idx_facts t
  match a with
  | ⟨0, _⟩ => show win3_4.index t (0 : Fin 2) * 128 + 1 * (y 0).val = (y 0).val; omega
  | ⟨1, _⟩ => show win3_4.index t (1 : Fin 2) * 128 + 1 * (y 1).val = (y 1).val; omega

/-- Window 5's block at every point is its whole array. -/
theorem wblk5 (c : Dev nD) (t : Fin cfg3.N) : iblk3 V c 5 t = V c (Pipeline.arrRef spec3 5) := by
  funext y
  show V c (Pipeline.arrRef spec3 5) (((cfg3.win 5).blk t).view.emb y) = _
  refine congrArg _ (funext fun a => Fin.ext ?_)
  obtain ⟨h0a, h0b, h1a, h1b, h2a, h2b, h3a, h3b, h4a, h4b, h5a, h5b, h6a, h6b⟩ := idx_facts t
  match a with
  | ⟨0, _⟩ => show win3_5.index t (0 : Fin 2) * 1 + 1 * (y 0).val = (y 0).val; omega
  | ⟨1, _⟩ => show win3_5.index t (1 : Fin 2) * 128 + 1 * (y 1).val = (y 1).val; omega

/-- Window 0's block at point t, row e, is the array's row 5000·t + e. -/
theorem rblk0 (c : Dev nD) (t : Fin cfg3.N) (e : Fin 5000) (k : Fin 128) :
    iblk3 V c 0 t (ix2 e k) = V c (Pipeline.arrRef spec3 0) (ix2 (rowOf t.val t.isLt e) k) := by
  show V c (Pipeline.arrRef spec3 0) (((cfg3.win 0).blk t).view.emb (ix2 e k)) = _
  refine congrArg _ (funext fun a => Fin.ext ?_)
  obtain ⟨h0a, h0b, h1a, h1b, h2a, h2b, h3a, h3b, h4a, h4b, h5a, h5b, h6a, h6b⟩ := idx_facts t
  match a with
  | ⟨0, _⟩ => show win3_0.index t (0 : Fin 2) * 5000 + 1 * e.val = t.val * 5000 + e.val; omega
  | ⟨1, _⟩ => show win3_0.index t (1 : Fin 2) * 128 + 1 * k.val = k.val; omega

/-- Window 3's block at point t, row e, is the array's row 5000·t + e. -/
theorem rblk3 (c : Dev nD) (t : Fin cfg3.N) (e : Fin 5000) (k : Fin 128) :
    iblk3 V c 3 t (ix2 e k) = V c (Pipeline.arrRef spec3 3) (ix2 (rowOf t.val t.isLt e) k) := by
  show V c (Pipeline.arrRef spec3 3) (((cfg3.win 3).blk t).view.emb (ix2 e k)) = _
  refine congrArg _ (funext fun a => Fin.ext ?_)
  obtain ⟨h0a, h0b, h1a, h1b, h2a, h2b, h3a, h3b, h4a, h4b, h5a, h5b, h6a, h6b⟩ := idx_facts t
  match a with
  | ⟨0, _⟩ => show win3_3.index t (0 : Fin 2) * 5000 + 1 * e.val = t.val * 5000 + e.val; omega
  | ⟨1, _⟩ => show win3_3.index t (1 : Fin 2) * 128 + 1 * k.val = k.val; omega

/-- Where point t's block of output window 6 sits in its array. -/
theorem emb6 (t : Fin cfg3.N) (e : Fin 5000) (q : Fin 128) :
    ((cfg3.win 6).blk t).view.emb (ix2 e q) = ix2 (rowOf t.val t.isLt e) q := by
  refine funext fun a => Fin.ext ?_
  obtain ⟨h0a, h0b, h1a, h1b, h2a, h2b, h3a, h3b, h4a, h4b, h5a, h5b, h6a, h6b⟩ := idx_facts t
  match a with
  | ⟨0, _⟩ => show win3_6.index t (0 : Fin 2) * 5000 + 1 * e.val = t.val * 5000 + e.val; omega
  | ⟨1, _⟩ => show win3_6.index t (1 : Fin 2) * 128 + 1 * q.val = q.val; omega

set_option maxHeartbeats 1600000 in
/-- What point t writes back through output window 6 is block t of one function of the region's entry arrays. -/
theorem flushed6 (c : Dev nD) (t : Fin cfg3.N) :
    (dat3 V c).flushed 6 t = ((cfg3.win 6).blk t).view.read (Elt Ideal) (headOf (V c (Pipeline.arrRef spec3 0)) (V c (Pipeline.arrRef spec3 1)) (V c (Pipeline.arrRef spec3 2)) (V c (Pipeline.arrRef spec3 3)) (V c (Pipeline.arrRef spec3 4)) (V c (Pipeline.arrRef spec3 5))) := by
  show (cfg3.win 6).cut (grid3.coords t) ((dat3 V c).after 6 t) = _
  rw [after3_6]
  unfold out3_6
  rw [View.canon_unit_zero hz]
  simp only [View.ld_unit_zero (S := S5000x128) hz, View.ld_unit_zero (S := S128x128) hz, View.ld_unit_zero (S := S1x128) hz]
  rw [k3_pay1_eq]
  funext j
  obtain ⟨e, q, rfl⟩ : ∃ (e : Fin 5000) (q : Fin 128), j = ix2 e q := ⟨j 0, j 1, eq_ix2 j⟩
  show headOf (iblk3 V c 0 t) (iblk3 V c 1 t) (iblk3 V c 2 t) (iblk3 V c 3 t) (iblk3 V c 4 t) (iblk3 V c 5 t) (ix2 e q)
    = (headOf (V c (Pipeline.arrRef spec3 0)) (V c (Pipeline.arrRef spec3 1)) (V c (Pipeline.arrRef spec3 2)) (V c (Pipeline.arrRef spec3 3)) (V c (Pipeline.arrRef spec3 4)) (V c (Pipeline.arrRef spec3 5))) (((cfg3.win 6).blk t).view.emb (ix2 e q))
  rw [emb6 t e q, wblk1 V c t, wblk2 V c t, wblk4 V c t, wblk5 V c t]
  exact headOf_rows (iblk3 V c 0 t) (V c (Pipeline.arrRef spec3 0)) (V c (Pipeline.arrRef spec3 1)) (V c (Pipeline.arrRef spec3 2)) (iblk3 V c 3 t) (V c (Pipeline.arrRef spec3 3)) (V c (Pipeline.arrRef spec3 4)) (V c (Pipeline.arrRef spec3 5)) e (rowOf t.val t.isLt e) q (fun k => rblk0 V c t e k) (fun k => rblk3 V c t e k)

/-- An index of the array is in point t's block iff each coordinate is in the block's range on its axis. -/
theorem mem_blk6 (t : Fin cfg3.N) (i : S100000x128.Idx) :
    i ∈ ((cfg3.win 6).blk t).view.set ↔ ∀ a : Fin 2, win3_6.index t a * S5000x128.size a ≤ (i a).val ∧ (i a).val < win3_6.index t a * S5000x128.size a + S5000x128.size a := by
  show i ∈ ((View.whole main_v50).slice (win3_6.rect t)).set ↔ _
  rw [View.set_slice_whole, Rect.mem_set_unit]
  exact Iff.rfl

/-- Every stretch of 5000 rows is some point's block. -/
theorem onto6 : ∀ q : Fin 20, ∃ t : Fin cfg3.N, win3_6.index t (0 : Fin 2) = q.val ∧ win3_6.index t (1 : Fin 2) = 0 :=
  (by decide +kernel : ∀ q : Fin 20, ∃ t : Fin grid3.N, _)

/-- The blocks cover the array. -/
theorem cover6 (i : S100000x128.Idx) :
    ∃ t : Fin cfg3.N, (cfg3.win 6).flush t = true ∧ i ∈ ((cfg3.win 6).blk t).view.set := by
  have hi0 : (i 0).val < 100000 := (i 0).isLt
  have hi1 : (i 1).val < 128 := (i 1).isLt
  obtain ⟨t, h0, h1⟩ := onto6 ⟨(i 0).val / 5000, by omega⟩
  refine ⟨t, flush3_6 t, ?_⟩
  rw [mem_blk6]
  intro a
  match a with
  | ⟨0, _⟩ => show win3_6.index t (0 : Fin 2) * 5000 ≤ (i 0).val ∧ (i 0).val < win3_6.index t (0 : Fin 2) * 5000 + 5000; rw [h0]; dsimp only; omega
  | ⟨1, _⟩ => show win3_6.index t (1 : Fin 2) * 128 ≤ (i 1).val ∧ (i 1).val < win3_6.index t (1 : Fin 2) * 128 + 128; rw [h1]; omega

/-- THE ARRAY after the region: that function of the entry arrays. -/
theorem final6 (c : Dev nD) : (dat3 V c).arrAt 6 cfg3.N = (headOf (V c (Pipeline.arrRef spec3 0)) (V c (Pipeline.arrRef spec3 1)) (V c (Pipeline.arrRef spec3 2)) (V c (Pipeline.arrRef spec3 3)) (V c (Pipeline.arrRef spec3 4)) (V c (Pipeline.arrRef spec3 5))) :=
  (dat3 V c).arrAt_eq_of_cover 6 (headOf (V c (Pipeline.arrRef spec3 0)) (V c (Pipeline.arrRef spec3 1)) (V c (Pipeline.arrRef spec3 2)) (V c (Pipeline.arrRef spec3 3)) (V c (Pipeline.arrRef spec3 4)) (V c (Pipeline.arrRef spec3 5))) (fun t _ => flushed6 V c t) (cover6)

end Cert.KernelIdeal.GnnReg3

end
-- ==== Proof.KHost.lean ====
/-
  The host operations between the kernel's regions, as functions of whole arrays.

  Before the first region the host pools the edge features at each edge's destination (a scatter-add of rows into zeros),
  counts each node's incoming edges (a scatter-add of ones) and scales the edge bias by that count. Between regions it
  pools the node states: each edge gathers its source's state — a negative source number wrapped by adding the number of
  nodes, then clamped by the gather — and the states are scatter-added at the destinations. A bias vector is handed to a
  region as a one-row matrix.
-/
import proofs.«125341_j42279658062025_2_alg».proof.Proof.Gen.KernelIdeal
import proofs.«125341_j42279658062025_2_alg».proof.Proof.Spec
import Idealize.ShloMosaic.PureOps.Ideal

noncomputable section

namespace Cert.KernelIdeal.GnnHost

open Cert.KernelIdeal Cert.KernelIdeal.Gen
open Idealize.ShloMosaic Cert.Gnn

/-- An edge array of 32-bit node numbers stood up as a column. -/
def column (v : IVec S1600000 32) : IVec S1600000x1 32 := broadcastInDim S1600000x1 ![0] bcast_S1600000_S1600000x1_0 v

/-- A negative node number wrapped by adding the number of nodes. -/
def wrapped (src : IVec S1600000 32) : IVec S1600000 32 :=
  select (cmpi .slt src (broadcastInDim S1600000 ![] bcast_S_S1600000 (constantI S_ 32 0#32)))
    (addi src (broadcastInDim S1600000 ![] bcast_S_S1600000 (constantI S_ 32 100000#32))) src

/-- Pooling the node states over the edges: gather at the sources, scatter-add at the destinations. -/
def pool (src dst : IVec S1600000 32) (h : FVec Ideal S100000x128 .f32) : FVec Ideal S100000x128 .f32 :=
  Host.scatterAdd scatter_S100000x128_S1600000x1_S1600000x128_1_0_0_1
    (broadcastInDim S100000x128 ![] bcast_S_S100000x128 (constant S_ .f32 0x00000000#32)) (column dst)
    (Host.gather gather_S100000x128_S1600000x1_S1600000x128_1_0_n_n_0_1_1128 h (column (wrapped src)))

/-- The edge features summed at each edge's destination. -/
def pooledFeatures (dst : IVec S1600000 32) (ef : FVec Ideal S1600000x64 .f32) : FVec Ideal S100000x64 .f32 :=
  Host.scatterAdd scatter_S100000x64_S1600000x1_S1600000x64_1_0_0_1
    (broadcastInDim S100000x64 ![] bcast_S_S100000x64 (constant S_ .f32 0x00000000#32)) (column dst) ef

/-- The number of edges arriving at each node, as a float: ones summed at the destinations. -/
def degree (dst : IVec S1600000 32) : FVec Ideal S100000 .f32 :=
  Host.scatterAdd scatter_S100000_S1600000x1_S1600000_n_0_0_1
    (broadcastInDim S100000 ![] bcast_S_S100000 (constant S_ .f32 0x00000000#32)) (column dst)
    (broadcastInDim S1600000 ![] bcast_S_S1600000 (constant S_ .f32 0x3F800000#32))

/-- The edge bias once per arriving edge: entry (p, q) is the degree of p times be q. -/
def degreeBias (dst : IVec S1600000 32) (be : FVec Ideal S128 .f32) : FVec Ideal S100000x128 .f32 :=
  mulf (broadcastInDim S100000x128 ![0, 1] bcast_S100000x1_S100000x128_0_1 (broadcastInDim S100000x1 ![0] bcast_S100000_S100000x1_0 (degree dst)))
    (broadcastInDim S100000x128 ![0, 1] bcast_S1x128_S100000x128_0_1 (broadcastInDim S1x128 ![1] bcast_S128_S1x128_1 be))

/-- A bias vector as the one-row matrix a region's window takes. -/
def biasRow (b : FVec Ideal S128 .f32) : FVec Ideal S1x128 .f32 := shapeCast S1x128 b shapeCasts_S128_S1x128

end Cert.KernelIdeal.GnnHost

end
-- ==== Proof.KValue.lean ====
/-
  What the idealized kernel's result buffer holds, as a function of the launch arrays.

  The run's contents are followed through its eight boundaries. A stretch of host operations leaves each buffer it
  writes at the operations' term of the buffers it reads and every other buffer as it found it; a region leaves each
  output array at its whole-array function of the arrays it was entered with (the region's module) and every other
  buffer, its input arrays included, as entered. Composed: the input message, three rounds of pooling and update, and
  the output layer, all of the twelve argument arrays.
-/
import proofs.«125341_j42279658062025_2_alg».proof.Proof.KReg0
import proofs.«125341_j42279658062025_2_alg».proof.Proof.KReg1
import proofs.«125341_j42279658062025_2_alg».proof.Proof.KReg2
import proofs.«125341_j42279658062025_2_alg».proof.Proof.KReg3
import proofs.«125341_j42279658062025_2_alg».proof.Proof.KHost
import Idealize.ShloMosaic.Lib.StableHlo.Run

set_option maxRecDepth 16384

noncomputable section

namespace Cert.KernelIdeal.GnnValue

open Cert.KernelIdeal Cert.KernelIdeal.GenP Cert.KernelIdeal.GnnBody Cert.KernelIdeal.GnnHost
open Idealize.ShloMosaic Idealize.ShloMosaic.TcCoe Idealize.SL.Sem Idealize.ShloMosaic.StableHlo
open Idealize.ShloMosaic.Pipeline (Dat Cfg Window)
open Cert.LibLayers Cert.LibBlockLayer Cert.Gnn

attribute [local irreducible] Host.scatterAdd Host.gather

variable (m : (ℓ : Loc nD τ sig) → Buf (Elt Ideal) ℓ) (ρ : Dev nD → PrngReg) (c : Dev nD)

/-- An argument array as launched. -/
abbrev arg (b : Ref sig .tc) : Buf (Elt Ideal) ((c : Thread nD τ).loc b) := m ((c : Thread nD τ).loc b)

/-- The input message. -/
def im : FVec Ideal S100000x128 .f32 :=
  messageOf (arg m c main_arg0) (arg m c main_arg4) (biasRow (arg m c main_arg5)) (pooledFeatures (arg m c main_arg3) (arg m c main_arg1)) (arg m c main_arg6) (degreeBias (arg m c main_arg3) (arg m c main_arg7))
/-- The node states after the first and the second round. -/
def h1 : FVec Ideal S100000x128 .f32 := updateOf (pool (arg m c main_arg2) (arg m c main_arg3) (relu (im m c))) (arg m c main_arg8) (biasRow (arg m c main_arg9)) (im m c)
def h2 : FVec Ideal S100000x128 .f32 := updateOf (pool (arg m c main_arg2) (arg m c main_arg3) (h1 m c)) (arg m c main_arg8) (biasRow (arg m c main_arg9)) (im m c)
/-- The result: the third round and the output layer. -/
def out : FVec Ideal S100000x128 .f32 := headOf (pool (arg m c main_arg2) (arg m c main_arg3) (h2 m c)) (arg m c main_arg8) (biasRow (arg m c main_arg9)) (im m c) (arg m c main_arg10) (biasRow (arg m c main_arg11))

/-! ## Equal arguments give equal values -/

theorem messageOf_congr {x x' : Mat 100000 128} {wn wn' : Mat 128 128} {bn bn' : Mat 1 128} {p p' : Mat 100000 64}
    {we we' : Mat 64 128} {d d' : Mat 100000 128} (h0 : x = x') (h1 : wn = wn') (h2 : bn = bn') (h3 : p = p') (h4 : we = we')
    (h5 : d = d') : messageOf x wn bn p we d = messageOf x' wn' bn' p' we' d' := by subst h0 h1 h2 h3 h4 h5; rfl

theorem updateOf_congr {n n' : Mat 100000 128} {wc wc' : Mat 128 128} {bc bc' : Mat 1 128} {i i' : Mat 100000 128}
    (h0 : n = n') (h1 : wc = wc') (h2 : bc = bc') (h3 : i = i') : updateOf n wc bc i = updateOf n' wc' bc' i' := by
  subst h0 h1 h2 h3; rfl

theorem headOf_congr {n n' : Mat 100000 128} {wc wc' : Mat 128 128} {bc bc' : Mat 1 128} {i i' : Mat 100000 128}
    {wo wo' : Mat 128 128} {bo bo' : Mat 1 128} (h0 : n = n') (h1 : wc = wc') (h2 : bc = bc') (h3 : i = i') (h4 : wo = wo')
    (h5 : bo = bo') : headOf n wc bc i wo bo = headOf n' wc' bc' i' wo' bo' := by subst h0 h1 h2 h3 h4 h5; rfl

theorem pool_congr {s s' d d' : IVec S1600000 32} {h h' : FVec Ideal S100000x128 .f32} (h0 : s = s') (h1 : d = d') (h2 : h = h') :
    pool s d h = pool s' d' h' := by subst h0 h1 h2; rfl

/-! ## Boundary 1: after the first stretch of host operations -/

theorem W1_main_arg0 : W1 m ρ c (Proc.devRef .tc main_arg0) = (arg m c main_arg0) :=
  (show StableHlo.after hostOps0 (W0 m ρ c) (Proc.devRef .tc main_arg0) = W0 m ρ c (Proc.devRef .tc main_arg0) from by
    after_results_simp <;> rfl).trans rfl
theorem W1_main_arg2 : W1 m ρ c (Proc.devRef .tc main_arg2) = (arg m c main_arg2) :=
  (show StableHlo.after hostOps0 (W0 m ρ c) (Proc.devRef .tc main_arg2) = W0 m ρ c (Proc.devRef .tc main_arg2) from by
    after_results_simp <;> rfl).trans rfl
theorem W1_main_arg3 : W1 m ρ c (Proc.devRef .tc main_arg3) = (arg m c main_arg3) :=
  (show StableHlo.after hostOps0 (W0 m ρ c) (Proc.devRef .tc main_arg3) = W0 m ρ c (Proc.devRef .tc main_arg3) from by
    after_results_simp <;> rfl).trans rfl
theorem W1_main_arg4 : W1 m ρ c (Proc.devRef .tc main_arg4) = (arg m c main_arg4) :=
  (show StableHlo.after hostOps0 (W0 m ρ c) (Proc.devRef .tc main_arg4) = W0 m ρ c (Proc.devRef .tc main_arg4) from by
    after_results_simp <;> rfl).trans rfl
theorem W1_main_arg6 : W1 m ρ c (Proc.devRef .tc main_arg6) = (arg m c main_arg6) :=
  (show StableHlo.after hostOps0 (W0 m ρ c) (Proc.devRef .tc main_arg6) = W0 m ρ c (Proc.devRef .tc main_arg6) from by
    after_results_simp <;> rfl).trans rfl
theorem W1_main_arg8 : W1 m ρ c (Proc.devRef .tc main_arg8) = (arg m c main_arg8) :=
  (show StableHlo.after hostOps0 (W0 m ρ c) (Proc.devRef .tc main_arg8) = W0 m ρ c (Proc.devRef .tc main_arg8) from by
    after_results_simp <;> rfl).trans rfl
theorem W1_main_arg9 : W1 m ρ c (Proc.devRef .tc main_arg9) = (arg m c main_arg9) :=
  (show StableHlo.after hostOps0 (W0 m ρ c) (Proc.devRef .tc main_arg9) = W0 m ρ c (Proc.devRef .tc main_arg9) from by
    after_results_simp <;> rfl).trans rfl
theorem W1_main_arg10 : W1 m ρ c (Proc.devRef .tc main_arg10) = (arg m c main_arg10) :=
  (show StableHlo.after hostOps0 (W0 m ρ c) (Proc.devRef .tc main_arg10) = W0 m ρ c (Proc.devRef .tc main_arg10) from by
    after_results_simp <;> rfl).trans rfl
theorem W1_main_arg11 : W1 m ρ c (Proc.devRef .tc main_arg11) = (arg m c main_arg11) :=
  (show StableHlo.after hostOps0 (W0 m ρ c) (Proc.devRef .tc main_arg11) = W0 m ρ c (Proc.devRef .tc main_arg11) from by
    after_results_simp <;> rfl).trans rfl
theorem W1_main_v12 : W1 m ρ c (Proc.devRef .tc main_v12) = (biasRow (arg m c main_arg5)) :=
  (show StableHlo.after hostOps0 (W0 m ρ c) (Proc.devRef .tc main_v12) = biasRow (W0 m ρ c (Proc.devRef .tc main_arg5)) from by
    after_results_simp <;> rfl)
theorem W1_main_v2 : W1 m ρ c (Proc.devRef .tc main_v2) = (pooledFeatures (arg m c main_arg3) (arg m c main_arg1)) :=
  (show StableHlo.after hostOps0 (W0 m ρ c) (Proc.devRef .tc main_v2) = pooledFeatures (W0 m ρ c (Proc.devRef .tc main_arg3)) (W0 m ρ c (Proc.devRef .tc main_arg1)) from by
    after_results_simp <;> rfl)
theorem W1_main_v11 : W1 m ρ c (Proc.devRef .tc main_v11) = (degreeBias (arg m c main_arg3) (arg m c main_arg7)) :=
  (show StableHlo.after hostOps0 (W0 m ρ c) (Proc.devRef .tc main_v11) = degreeBias (W0 m ρ c (Proc.devRef .tc main_arg3)) (W0 m ρ c (Proc.devRef .tc main_arg7)) from by
    after_results_simp <;> rfl)

/-! ## Boundary 2: after region 0 -/

theorem W2_main_arg2 : W2 m ρ c (Proc.devRef .tc main_arg2) = (arg m c main_arg2) := (W2_of_ne m ρ c main_arg2 (by decide)).trans (W1_main_arg2 m ρ c)
theorem W2_main_arg3 : W2 m ρ c (Proc.devRef .tc main_arg3) = (arg m c main_arg3) := (W2_of_ne m ρ c main_arg3 (by decide)).trans (W1_main_arg3 m ρ c)
theorem W2_main_arg8 : W2 m ρ c (Proc.devRef .tc main_arg8) = (arg m c main_arg8) := (W2_of_ne m ρ c main_arg8 (by decide)).trans (W1_main_arg8 m ρ c)
theorem W2_main_arg9 : W2 m ρ c (Proc.devRef .tc main_arg9) = (arg m c main_arg9) := (W2_of_ne m ρ c main_arg9 (by decide)).trans (W1_main_arg9 m ρ c)
theorem W2_main_arg10 : W2 m ρ c (Proc.devRef .tc main_arg10) = (arg m c main_arg10) := (W2_of_ne m ρ c main_arg10 (by decide)).trans (W1_main_arg10 m ρ c)
theorem W2_main_arg11 : W2 m ρ c (Proc.devRef .tc main_arg11) = (arg m c main_arg11) := (W2_of_ne m ρ c main_arg11 (by decide)).trans (W1_main_arg11 m ρ c)
theorem W2_main_v13_0 : W2 m ρ c (Proc.devRef .tc main_v13_0) = im m c :=
  (W2_arr m ρ c 6).trans ((GnnReg0.final6 (V1 m ρ) c).trans
    (messageOf_congr (W1_main_arg0 m ρ c) (W1_main_arg4 m ρ c) (W1_main_v12 m ρ c) (W1_main_v2 m ρ c) (W1_main_arg6 m ρ c) (W1_main_v11 m ρ c)))
theorem W2_main_v13_1 : W2 m ρ c (Proc.devRef .tc main_v13_1) = relu (im m c) :=
  (W2_arr m ρ c 7).trans ((GnnReg0.final7 (V1 m ρ) c).trans (congrArg (fun z : Mat 100000 128 => relu z)
    (messageOf_congr (W1_main_arg0 m ρ c) (W1_main_arg4 m ρ c) (W1_main_v12 m ρ c) (W1_main_v2 m ρ c) (W1_main_arg6 m ρ c) (W1_main_v11 m ρ c))))

/-! ## Boundary 3: after the next stretch of host operations -/

theorem W3_main_v23 : W3 m ρ c (Proc.devRef .tc main_v23) = (pool (arg m c main_arg2) (arg m c main_arg3) (relu (im m c))) :=
  (show StableHlo.after hostOps1 (W2 m ρ c) (Proc.devRef .tc main_v23) = pool (W2 m ρ c (Proc.devRef .tc main_arg2)) (W2 m ρ c (Proc.devRef .tc main_arg3)) (W2 m ρ c (Proc.devRef .tc main_v13_1)) from by
    after_results_simp <;> rfl).trans (pool_congr (W2_main_arg2 m ρ c) (W2_main_arg3 m ρ c) (W2_main_v13_1 m ρ c))
theorem W3_main_v24 : W3 m ρ c (Proc.devRef .tc main_v24) = (biasRow (arg m c main_arg9)) :=
  (show StableHlo.after hostOps1 (W2 m ρ c) (Proc.devRef .tc main_v24) = biasRow (W2 m ρ c (Proc.devRef .tc main_arg9)) from by
    after_results_simp <;> rfl).trans (congrArg biasRow (W2_main_arg9 m ρ c))
theorem W3_main_arg8 : W3 m ρ c (Proc.devRef .tc main_arg8) = (arg m c main_arg8) :=
  (show StableHlo.after hostOps1 (W2 m ρ c) (Proc.devRef .tc main_arg8) = W2 m ρ c (Proc.devRef .tc main_arg8) from by
    after_results_simp <;> rfl).trans (W2_main_arg8 m ρ c)
theorem W3_main_v13_0 : W3 m ρ c (Proc.devRef .tc main_v13_0) = (im m c) :=
  (show StableHlo.after hostOps1 (W2 m ρ c) (Proc.devRef .tc main_v13_0) = W2 m ρ c (Proc.devRef .tc main_v13_0) from by
    after_results_simp <;> rfl).trans (W2_main_v13_0 m ρ c)
theorem W3_main_arg2 : W3 m ρ c (Proc.devRef .tc main_arg2) = (arg m c main_arg2) :=
  (show StableHlo.after hostOps1 (W2 m ρ c) (Proc.devRef .tc main_arg2) = W2 m ρ c (Proc.devRef .tc main_arg2) from by
    after_results_simp <;> rfl).trans (W2_main_arg2 m ρ c)
theorem W3_main_arg3 : W3 m ρ c (Proc.devRef .tc main_arg3) = (arg m c main_arg3) :=
  (show StableHlo.after hostOps1 (W2 m ρ c) (Proc.devRef .tc main_arg3) = W2 m ρ c (Proc.devRef .tc main_arg3) from by
    after_results_simp <;> rfl).trans (W2_main_arg3 m ρ c)
theorem W3_main_arg9 : W3 m ρ c (Proc.devRef .tc main_arg9) = (arg m c main_arg9) :=
  (show StableHlo.after hostOps1 (W2 m ρ c) (Proc.devRef .tc main_arg9) = W2 m ρ c (Proc.devRef .tc main_arg9) from by
    after_results_simp <;> rfl).trans (W2_main_arg9 m ρ c)
theorem W3_main_arg10 : W3 m ρ c (Proc.devRef .tc main_arg10) = (arg m c main_arg10) :=
  (show StableHlo.after hostOps1 (W2 m ρ c) (Proc.devRef .tc main_arg10) = W2 m ρ c (Proc.devRef .tc main_arg10) from by
    after_results_simp <;> rfl).trans (W2_main_arg10 m ρ c)
theorem W3_main_arg11 : W3 m ρ c (Proc.devRef .tc main_arg11) = (arg m c main_arg11) :=
  (show StableHlo.after hostOps1 (W2 m ρ c) (Proc.devRef .tc main_arg11) = W2 m ρ c (Proc.devRef .tc main_arg11) from by
    after_results_simp <;> rfl).trans (W2_main_arg11 m ρ c)

/-! ## Boundary 4: after region 1 -/

theorem W4_main_arg2 : W4 m ρ c (Proc.devRef .tc main_arg2) = (arg m c main_arg2) := (W4_of_ne m ρ c main_arg2 (by decide)).trans (W3_main_arg2 m ρ c)
theorem W4_main_arg3 : W4 m ρ c (Proc.devRef .tc main_arg3) = (arg m c main_arg3) := (W4_of_ne m ρ c main_arg3 (by decide)).trans (W3_main_arg3 m ρ c)
theorem W4_main_arg9 : W4 m ρ c (Proc.devRef .tc main_arg9) = (arg m c main_arg9) := (W4_of_ne m ρ c main_arg9 (by decide)).trans (W3_main_arg9 m ρ c)
theorem W4_main_arg10 : W4 m ρ c (Proc.devRef .tc main_arg10) = (arg m c main_arg10) := (W4_of_ne m ρ c main_arg10 (by decide)).trans (W3_main_arg10 m ρ c)
theorem W4_main_arg11 : W4 m ρ c (Proc.devRef .tc main_arg11) = (arg m c main_arg11) := (W4_of_ne m ρ c main_arg11 (by decide)).trans (W3_main_arg11 m ρ c)
theorem W4_main_arg8 : W4 m ρ c (Proc.devRef .tc main_arg8) = (arg m c main_arg8) :=
  ((W4_arr m ρ c 1).trans (((dat1 (V3 m ρ) c).arrAt_in 1 rfl _).trans (A_eq1 (V3 m ρ) c 1))).trans (W3_main_arg8 m ρ c)
theorem W4_main_v13_0 : W4 m ρ c (Proc.devRef .tc main_v13_0) = (im m c) :=
  ((W4_arr m ρ c 3).trans (((dat1 (V3 m ρ) c).arrAt_in 3 rfl _).trans (A_eq1 (V3 m ρ) c 3))).trans (W3_main_v13_0 m ρ c)
theorem W4_main_v25 : W4 m ρ c (Proc.devRef .tc main_v25) = (h1 m c) :=
  (W4_arr m ρ c 4).trans ((GnnReg1.final4 (V3 m ρ) c).trans
    (updateOf_congr (W3_main_v23 m ρ c) (W3_main_arg8 m ρ c) (W3_main_v24 m ρ c) (W3_main_v13_0 m ρ c)))

/-! ## Boundary 5: after the next stretch of host operations -/

theorem W5_main_v35 : W5 m ρ c (Proc.devRef .tc main_v35) = (pool (arg m c main_arg2) (arg m c main_arg3) (h1 m c)) :=
  (show StableHlo.after hostOps2 (W4 m ρ c) (Proc.devRef .tc main_v35) = pool (W4 m ρ c (Proc.devRef .tc main_arg2)) (W4 m ρ c (Proc.devRef .tc main_arg3)) (W4 m ρ c (Proc.devRef .tc main_v25)) from by
    after_results_simp <;> rfl).trans (pool_congr (W4_main_arg2 m ρ c) (W4_main_arg3 m ρ c) (W4_main_v25 m ρ c))
theorem W5_main_v36 : W5 m ρ c (Proc.devRef .tc main_v36) = (biasRow (arg m c main_arg9)) :=
  (show StableHlo.after hostOps2 (W4 m ρ c) (Proc.devRef .tc main_v36) = biasRow (W4 m ρ c (Proc.devRef .tc main_arg9)) from by
    after_results_simp <;> rfl).trans (congrArg biasRow (W4_main_arg9 m ρ c))
theorem W5_main_arg8 : W5 m ρ c (Proc.devRef .tc main_arg8) = (arg m c main_arg8) :=
  (show StableHlo.after hostOps2 (W4 m ρ c) (Proc.devRef .tc main_arg8) = W4 m ρ c (Proc.devRef .tc main_arg8) from by
    after_results_simp <;> rfl).trans (W4_main_arg8 m ρ c)
theorem W5_main_v13_0 : W5 m ρ c (Proc.devRef .tc main_v13_0) = (im m c) :=
  (show StableHlo.after hostOps2 (W4 m ρ c) (Proc.devRef .tc main_v13_0) = W4 m ρ c (Proc.devRef .tc main_v13_0) from by
    after_results_simp <;> rfl).trans (W4_main_v13_0 m ρ c)
theorem W5_main_arg2 : W5 m ρ c (Proc.devRef .tc main_arg2) = (arg m c main_arg2) :=
  (show StableHlo.after hostOps2 (W4 m ρ c) (Proc.devRef .tc main_arg2) = W4 m ρ c (Proc.devRef .tc main_arg2) from by
    after_results_simp <;> rfl).trans (W4_main_arg2 m ρ c)
theorem W5_main_arg3 : W5 m ρ c (Proc.devRef .tc main_arg3) = (arg m c main_arg3) :=
  (show StableHlo.after hostOps2 (W4 m ρ c) (Proc.devRef .tc main_arg3) = W4 m ρ c (Proc.devRef .tc main_arg3) from by
    after_results_simp <;> rfl).trans (W4_main_arg3 m ρ c)
theorem W5_main_arg9 : W5 m ρ c (Proc.devRef .tc main_arg9) = (arg m c main_arg9) :=
  (show StableHlo.after hostOps2 (W4 m ρ c) (Proc.devRef .tc main_arg9) = W4 m ρ c (Proc.devRef .tc main_arg9) from by
    after_results_simp <;> rfl).trans (W4_main_arg9 m ρ c)
theorem W5_main_arg10 : W5 m ρ c (Proc.devRef .tc main_arg10) = (arg m c main_arg10) :=
  (show StableHlo.after hostOps2 (W4 m ρ c) (Proc.devRef .tc main_arg10) = W4 m ρ c (Proc.devRef .tc main_arg10) from by
    after_results_simp <;> rfl).trans (W4_main_arg10 m ρ c)
theorem W5_main_arg11 : W5 m ρ c (Proc.devRef .tc main_arg11) = (arg m c main_arg11) :=
  (show StableHlo.after hostOps2 (W4 m ρ c) (Proc.devRef .tc main_arg11) = W4 m ρ c (Proc.devRef .tc main_arg11) from by
    after_results_simp <;> rfl).trans (W4_main_arg11 m ρ c)

/-! ## Boundary 6: after region 2 -/

theorem W6_main_arg2 : W6 m ρ c (Proc.devRef .tc main_arg2) = (arg m c main_arg2) := (W6_of_ne m ρ c main_arg2 (by decide)).trans (W5_main_arg2 m ρ c)
theorem W6_main_arg3 : W6 m ρ c (Proc.devRef .tc main_arg3) = (arg m c main_arg3) := (W6_of_ne m ρ c main_arg3 (by decide)).trans (W5_main_arg3 m ρ c)
theorem W6_main_arg9 : W6 m ρ c (Proc.devRef .tc main_arg9) = (arg m c main_arg9) := (W6_of_ne m ρ c main_arg9 (by decide)).trans (W5_main_arg9 m ρ c)
theorem W6_main_arg10 : W6 m ρ c (Proc.devRef .tc main_arg10) = (arg m c main_arg10) := (W6_of_ne m ρ c main_arg10 (by decide)).trans (W5_main_arg10 m ρ c)
theorem W6_main_arg11 : W6 m ρ c (Proc.devRef .tc main_arg11) = (arg m c main_arg11) := (W6_of_ne m ρ c main_arg11 (by decide)).trans (W5_main_arg11 m ρ c)
theorem W6_main_arg8 : W6 m ρ c (Proc.devRef .tc main_arg8) = (arg m c main_arg8) :=
  ((W6_arr m ρ c 1).trans (((dat2 (V5 m ρ) c).arrAt_in 1 rfl _).trans (A_eq2 (V5 m ρ) c 1))).trans (W5_main_arg8 m ρ c)
theorem W6_main_v13_0 : W6 m ρ c (Proc.devRef .tc main_v13_0) = (im m c) :=
  ((W6_arr m ρ c 3).trans (((dat2 (V5 m ρ) c).arrAt_in 3 rfl _).trans (A_eq2 (V5 m ρ) c 3))).trans (W5_main_v13_0 m ρ c)
theorem W6_main_v37 : W6 m ρ c (Proc.devRef .tc main_v37) = (h2 m c) :=
  (W6_arr m ρ c 4).trans ((GnnReg2.final4 (V5 m ρ) c).trans
    (updateOf_congr (W5_main_v35 m ρ c) (W5_main_arg8 m ρ c) (W5_main_v36 m ρ c) (W5_main_v13_0 m ρ c)))

/-! ## Boundary 7: after the next stretch of host operations -/

theorem W7_main_v47 : W7 m ρ c (Proc.devRef .tc main_v47) = (pool (arg m c main_arg2) (arg m c main_arg3) (h2 m c)) :=
  (show StableHlo.after hostOps3 (W6 m ρ c) (Proc.devRef .tc main_v47) = pool (W6 m ρ c (Proc.devRef .tc main_arg2)) (W6 m ρ c (Proc.devRef .tc main_arg3)) (W6 m ρ c (Proc.devRef .tc main_v37)) from by
    after_results_simp <;> rfl).trans (pool_congr (W6_main_arg2 m ρ c) (W6_main_arg3 m ρ c) (W6_main_v37 m ρ c))
theorem W7_main_v48 : W7 m ρ c (Proc.devRef .tc main_v48) = (biasRow (arg m c main_arg9)) :=
  (show StableHlo.after hostOps3 (W6 m ρ c) (Proc.devRef .tc main_v48) = biasRow (W6 m ρ c (Proc.devRef .tc main_arg9)) from by
    after_results_simp <;> rfl).trans (congrArg biasRow (W6_main_arg9 m ρ c))
theorem W7_main_arg8 : W7 m ρ c (Proc.devRef .tc main_arg8) = (arg m c main_arg8) :=
  (show StableHlo.after hostOps3 (W6 m ρ c) (Proc.devRef .tc main_arg8) = W6 m ρ c (Proc.devRef .tc main_arg8) from by
    after_results_simp <;> rfl).trans (W6_main_arg8 m ρ c)
theorem W7_main_v13_0 : W7 m ρ c (Proc.devRef .tc main_v13_0) = (im m c) :=
  (show StableHlo.after hostOps3 (W6 m ρ c) (Proc.devRef .tc main_v13_0) = W6 m ρ c (Proc.devRef .tc main_v13_0) from by
    after_results_simp <;> rfl).trans (W6_main_v13_0 m ρ c)
theorem W7_main_arg10 : W7 m ρ c (Proc.devRef .tc main_arg10) = (arg m c main_arg10) :=
  (show StableHlo.after hostOps3 (W6 m ρ c) (Proc.devRef .tc main_arg10) = W6 m ρ c (Proc.devRef .tc main_arg10) from by
    after_results_simp <;> rfl).trans (W6_main_arg10 m ρ c)
theorem W7_main_v49 : W7 m ρ c (Proc.devRef .tc main_v49) = (biasRow (arg m c main_arg11)) :=
  (show StableHlo.after hostOps3 (W6 m ρ c) (Proc.devRef .tc main_v49) = biasRow (W6 m ρ c (Proc.devRef .tc main_arg11)) from by
    after_results_simp <;> rfl).trans (congrArg biasRow (W6_main_arg11 m ρ c))

/-! ## The result -/

/-- The result buffer at the last boundary is the output layer over three rounds from the input message. -/
theorem value : W8 m ρ c (Proc.devRef .tc main_v50) = out m c :=
  (W8_arr m ρ c 6).trans ((GnnReg3.final6 (V7 m ρ) c).trans
    (headOf_congr (W7_main_v47 m ρ c) (W7_main_arg8 m ρ c) (W7_main_v48 m ρ c) (W7_main_v13_0 m ρ c) (W7_main_arg10 m ρ c) (W7_main_v49 m ρ c)))

/-- The same as the network of Spec.lean. -/
theorem out_eq_net : out m c = net (pool (arg m c main_arg2) (arg m c main_arg3)) (arg m c main_arg8) (rowAt (biasRow (arg m c main_arg9))) (arg m c main_arg10) (rowAt (biasRow (arg m c main_arg11))) (im m c) := rfl

end Cert.KernelIdeal.GnnValue

end
-- ==== Proof.KRun.lean ====
/-
  The idealized kernel's run with its result named.

  @main is four pipelined regions among stretches of host operations. Every weakly fair execution from a memory with zero
  counters terminates without a fault; at the end the result buffer holds what the fold of the segments leaves in it —
  the last region's output array after all its write-backs — and the twelve argument arrays are as launched.
-/
import proofs.«125341_j42279658062025_2_alg».proof.Proof.KernelIdealFrameP

set_option maxRecDepth 16384

noncomputable section

namespace Cert.KernelIdeal.GnnRun

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result buffer ends at the last boundary's contents, the arguments as launched. The launch over the
    segments is the one the frame uses; only the last step differs, which reads the result buffer as well as the
    arguments off "every unscoped buffer holds the last boundary's contents". -/
theorem run : θ_run defs (onTc (τ := τ) (main (F := F))) ⟨m, fun _ => 0, ρ⟩ (fun r => ∀ c : Dev nD,
      r.2.mem ((c.tc : Thread nD τ).loc main_v50) = W8 m ρ c (Proc.devRef .tc main_v50)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v50 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c),
       (h c _ (mem_uc main_arg8 (by decide))).trans (W8_main_arg8 m ρ c),
       (h c _ (mem_uc main_arg9 (by decide))).trans (W8_main_arg9 m ρ c),
       (h c _ (mem_uc main_arg10 (by decide))).trans (W8_main_arg10 m ρ c),
       (h c _ (mem_uc main_arg11 (by decide))).trans (W8_main_arg11 m ρ c)⟩)

end Cert.KernelIdeal.GnnRun

end
-- ==== Proof.LibHostDense.lean ====
/-
  A dense layer of a host program read at coordinates, at the extended reals.

  A `dot_general` of an `[M, K]` array by a `[K, N]` matrix that contracts the left operand's columns with the right
  operand's rows and has no batch axis is, at `(p, q)`, the sum over `k` of `l (p, k) · W (k, q)`: the product into a zero
  accumulator and the host's product are one sum. A length-`N` vector laid out as the row `[1, N]` (`broadcast_in_dim`
  along axis 1) and repeated over `M` rows reads, at `(p, q)`, the vector at `q`; a scalar repeated over an array reads the
  scalar at every index. Together they read a rectified dense layer, `max (l · W + b) c`, at `(p, q)`.
-/
import proofs.«125341_j42279658062025_2_alg».proof.Proof.LibPlainDot
import Idealize.ShloMosaic.Lib.Pipeline.Value

noncomputable section

namespace Cert.LibHostDense

open Idealize.ShloMosaic Idealize.ShloMosaic.ValueIdx
open scoped BigOperators

variable {α : Type}

/-- The host's product at `(p, q)`. -/
theorem hostDot_plain_apply {M K N : ℕ} (d : DotDims ⟨2, ![M, K]⟩ ⟨2, ![K, N]⟩ ⟨2, ![M, N]⟩) {φ₁ φ₂ : FTy}
    (hlc : d.lhsContracting = [1]) (hrc : d.rhsContracting = [0])
    (hlb : d.lhsBatch = []) (hrb : d.rhsBatch = []) (hln : d.lhsNonContracting = [0]) (hrn : d.rhsNonContracting = [1])
    (prec : Option ContractPrecision) (l : FVec Ideal ⟨2, ![M, K]⟩ φ₁) (r : FVec Ideal ⟨2, ![K, N]⟩ φ₂) (p : Fin M) (q : Fin N) :
    Host.dotGeneral d prec l r (ix2 p q) = ∑ k : Fin K, l (ix2 p k) * r (ix2 k q) := by
  show FloatOps.dotGeneral d prec .single l r (ix2 p q) = _
  rw [Ideal.dotGeneral_apply, ← Ideal.matmul_constant_zero_apply d prec]
  exact Cert.LibPlainDot.matmul_plain_apply d hlc hrc hlb hrb hln hrn prec l r p q

/-- A length-`n` vector laid out as the row `[1, n]` reads, at `(0, q)`, the vector at `q`. -/
theorem bcastRow_apply {n : ℕ} (x : (⟨1, ![n]⟩ : Shape).Idx → α)
    (h : (⟨1, ![n]⟩ : Shape).BroadcastsInDim ⟨2, ![1, n]⟩ (![1] : Fin 1 → Fin 2)) (u : Fin 1) (q : Fin n) :
    broadcastInDim ⟨2, ![1, n]⟩ ![1] h x (ix2 u q) = x (ix1 q) := by
  refine broadcastInDim_apply _ h x (ix2 u q) (ix1 q) fun a => ?_
  match a with
  | ⟨0, _⟩ =>
    show q.val = if n = 1 then 0 else q.val
    split
    · have := q.isLt; omega
    · rfl

/-- A row `[1, n]` repeated over `m` rows reads, at `(p, q)`, the row at `q`. -/
theorem bcastRows_apply {m n : ℕ} (x : (⟨2, ![1, n]⟩ : Shape).Idx → α)
    (h : (⟨2, ![1, n]⟩ : Shape).BroadcastsInDim ⟨2, ![m, n]⟩ (![0, 1] : Fin 2 → Fin 2)) (p : Fin m) (q : Fin n) :
    broadcastInDim ⟨2, ![m, n]⟩ ![0, 1] h x (ix2 p q) = x (ix2 (0 : Fin 1) q) := by
  refine broadcastInDim_apply _ h x (ix2 p q) (ix2 (0 : Fin 1) q) fun a => ?_
  match a with
  | ⟨0, _⟩ => show 0 = if (1 : ℕ) = 1 then 0 else p.val; rw [if_pos rfl]
  | ⟨1, _⟩ =>
    show q.val = if n = 1 then 0 else q.val
    split
    · have := q.isLt; omega
    · rfl

/-- A scalar repeated over an array reads the scalar at every index. -/
theorem bcastScalar_apply {s : Shape} (x : (⟨0, ![]⟩ : Shape).Idx → α)
    (h : (⟨0, ![]⟩ : Shape).BroadcastsInDim s (![] : Fin 0 → Fin s.rank)) (i : s.Idx) :
    broadcastInDim s ![] h x i = x ix0 :=
  broadcastInDim_apply _ h x i ix0 fun a => a.elim0

/-- A rectified dense layer of a host program at `(p, q)`: the product, the bias row repeated over the rows, the
    maximum with a repeated scalar constant. -/
theorem hostDenseMax_apply {M K N : ℕ} (d : DotDims ⟨2, ![M, K]⟩ ⟨2, ![K, N]⟩ ⟨2, ![M, N]⟩) {φ₁ φ₂ : FTy}
    (hlc : d.lhsContracting = [1]) (hrc : d.rhsContracting = [0])
    (hlb : d.lhsBatch = []) (hrb : d.rhsBatch = []) (hln : d.lhsNonContracting = [0]) (hrn : d.rhsNonContracting = [1])
    (prec : Option ContractPrecision) (l : FVec Ideal ⟨2, ![M, K]⟩ φ₁) (W : FVec Ideal ⟨2, ![K, N]⟩ φ₂)
    (b : FVec Ideal ⟨1, ![N]⟩ .f32)
    (h1 : (⟨1, ![N]⟩ : Shape).BroadcastsInDim ⟨2, ![1, N]⟩ (![1] : Fin 1 → Fin 2))
    (h2 : (⟨2, ![1, N]⟩ : Shape).BroadcastsInDim ⟨2, ![M, N]⟩ (![0, 1] : Fin 2 → Fin 2))
    (h0 : (⟨0, ![]⟩ : Shape).BroadcastsInDim ⟨2, ![M, N]⟩ (![] : Fin 0 → Fin 2)) (w : BitVec 32) (p : Fin M) (q : Fin N) :
    maximumf (addf (Host.dotGeneral d prec l W)
        (broadcastInDim ⟨2, ![M, N]⟩ ![0, 1] h2 (broadcastInDim ⟨2, ![1, N]⟩ ![1] h1 b)))
      (broadcastInDim ⟨2, ![M, N]⟩ ![] h0 (constant (F := Ideal) ⟨0, ![]⟩ .f32 w)) (ix2 p q)
      = max ((∑ k : Fin K, l (ix2 p k) * W (ix2 k q)) + b (ix1 q)) (Ideal.ofBits .f32 w) := by
  rw [maximumf_apply, addf_apply, hostDot_plain_apply d hlc hrc hlb hrb hln hrn, bcastRows_apply, bcastRow_apply,
    bcastScalar_apply, constant_apply]

end Cert.LibHostDense

end
-- ==== Proof.LibHostLayer.lean ====
/-
  Layers of a host program as whole arrays, on the extended reals.

  A product of the activations with a weight matrix (contracting the activations' columns with the weights' rows, no
  batch axis), plus a bias vector laid out as a row and repeated over the rows, is the layer of LibLayers.lean with the
  bias vector read at its one coordinate; followed by a maximum with a repeated zero it is the rectified layer. Stated
  for any extents, as equalities of whole arrays, so that a composed term of several layers is rewritten layer by layer.
-/
import proofs.«125341_j42279658062025_2_alg».proof.Proof.LibHostDense
import proofs.«125341_j42279658062025_2_alg».proof.Proof.LibLayers

noncomputable section

namespace Cert.LibHostLayer

open Idealize.ShloMosaic Idealize.ShloMosaic.ValueIdx Cert.LibLayers Cert.LibHostDense
open scoped BigOperators

/-- A bias vector as a function of its one coordinate. -/
abbrev vecAt {N : ℕ} (b : (⟨1, ![N]⟩ : Shape).Idx → EReal) : Fin N → EReal := fun q => b (ix1 q)

/-- A rectified layer of a host program, as a whole array. -/
theorem hostLayer_relu {M K N : ℕ} (d : DotDims ⟨2, ![M, K]⟩ ⟨2, ![K, N]⟩ ⟨2, ![M, N]⟩) {φ₁ φ₂ : FTy}
    (hlc : d.lhsContracting = [1]) (hrc : d.rhsContracting = [0])
    (hlb : d.lhsBatch = []) (hrb : d.rhsBatch = []) (hln : d.lhsNonContracting = [0]) (hrn : d.rhsNonContracting = [1])
    (prec : Option ContractPrecision) (l : FVec Ideal ⟨2, ![M, K]⟩ φ₁) (W : FVec Ideal ⟨2, ![K, N]⟩ φ₂)
    (b : FVec Ideal ⟨1, ![N]⟩ .f32)
    (h1 : (⟨1, ![N]⟩ : Shape).BroadcastsInDim ⟨2, ![1, N]⟩ (![1] : Fin 1 → Fin 2))
    (h2 : (⟨2, ![1, N]⟩ : Shape).BroadcastsInDim ⟨2, ![M, N]⟩ (![0, 1] : Fin 2 → Fin 2))
    (h0 : (⟨0, ![]⟩ : Shape).BroadcastsInDim ⟨2, ![M, N]⟩ (![] : Fin 0 → Fin 2)) :
    maximumf (addf (Host.dotGeneral d prec l W)
        (broadcastInDim ⟨2, ![M, N]⟩ ![0, 1] h2 (broadcastInDim ⟨2, ![1, N]⟩ ![1] h1 b)))
      (broadcastInDim ⟨2, ![M, N]⟩ ![] h0 (constant (F := Ideal) ⟨0, ![]⟩ .f32 0x00000000#32))
      = relu (dense l W (vecAt b)) := by
  funext j
  obtain ⟨p, q, rfl⟩ : ∃ (p : Fin M) (q : Fin N), j = ix2 p q := ⟨j 0, j 1, eq_ix2 j⟩
  exact hostDenseMax_apply d hlc hrc hlb hrb hln hrn prec l W b h1 h2 h0 _ p q

/-- A layer of a host program with no activation, as a whole array. -/
theorem hostLayer_plain {M K N : ℕ} (d : DotDims ⟨2, ![M, K]⟩ ⟨2, ![K, N]⟩ ⟨2, ![M, N]⟩) {φ₁ φ₂ : FTy}
    (hlc : d.lhsContracting = [1]) (hrc : d.rhsContracting = [0])
    (hlb : d.lhsBatch = []) (hrb : d.rhsBatch = []) (hln : d.lhsNonContracting = [0]) (hrn : d.rhsNonContracting = [1])
    (prec : Option ContractPrecision) (l : FVec Ideal ⟨2, ![M, K]⟩ φ₁) (W : FVec Ideal ⟨2, ![K, N]⟩ φ₂)
    (b : FVec Ideal ⟨1, ![N]⟩ .f32)
    (h1 : (⟨1, ![N]⟩ : Shape).BroadcastsInDim ⟨2, ![1, N]⟩ (![1] : Fin 1 → Fin 2))
    (h2 : (⟨2, ![1, N]⟩ : Shape).BroadcastsInDim ⟨2, ![M, N]⟩ (![0, 1] : Fin 2 → Fin 2)) :
    addf (Host.dotGeneral d prec l W)
        (broadcastInDim ⟨2, ![M, N]⟩ ![0, 1] h2 (broadcastInDim ⟨2, ![1, N]⟩ ![1] h1 b))
      = dense l W (vecAt b) := by
  funext j
  obtain ⟨p, q, rfl⟩ : ∃ (p : Fin M) (q : Fin N), j = ix2 p q := ⟨j 0, j 1, eq_ix2 j⟩
  rw [addf_apply, hostDot_plain_apply d hlc hrc hlb hrb hln hrn, bcastRows_apply, bcastRow_apply]
  rfl

end Cert.LibHostLayer

end
-- ==== Proof.RefValue.lean ====
/-
  The reference program's result as the message-passing network of Spec.lean.

  The reference computes, on whole arrays: the edge layer  ef · We + be  on every edge; its sum over the edges arriving at
  each node, added to the node layer  x · Wn + bn  (the input message); the rectified message; three rounds, each pooling
  the node states along the edges (gather the senders' rows, sum them at the receivers), applying the layer (Wc, bc),
  adding the input message and rectifying; and the rectified output layer (Wo, bo). Each host layer (a product, a bias
  row repeated over the rows, sometimes a maximum with a repeated zero) is the layer of LibLayers.lean as a whole array,
  so the composed term is the network of Spec.lean with the reference's pooling as its 'pool'. The pooling itself (a
  gather followed by a scatter-add into zeros) is named once and never looked into.
-/
import proofs.«125341_j42279658062025_2_alg».proof.Proof.Gen.ReferenceIdeal.Run
import proofs.«125341_j42279658062025_2_alg».proof.Proof.Spec
import proofs.«125341_j42279658062025_2_alg».proof.Proof.LibHostLayer

noncomputable section

namespace Cert.ReferenceIdeal.GnnRef

open Cert.ReferenceIdeal Cert.ReferenceIdeal.Gen Idealize.ShloMosaic Idealize.ShloMosaic.TcCoe Idealize.SL.Sem
open Idealize.ShloMosaic.ValueIdx Cert.LibLayers Cert.LibHostLayer Cert.Gnn

attribute [local irreducible] Host.scatterAdd Host.gather

/-- The reference's pooling: every node receives the sum of the states of the nodes that send it an edge. An edge's
    sender is src, a negative src counted from the end (src + N). -/
def pool (src dst : IVec S1600000 32) (h : Mat 100000 128) : Mat 100000 128 :=
  Host.scatterAdd (F := Ideal) (φ := .f32) scatter_S100000x128_S1600000x1_S1600000x128_1_0_0_1
    (broadcastInDim S100000x128 ![] bcast_S_S100000x128 (constant (F := Ideal) S_ .f32 0x00000000#32))
    (broadcastInDim S1600000x1 ![0] bcast_S1600000_S1600000x1_0 dst)
    (Host.gather gather_S100000x128_S1600000x1_S1600000x128_1_0_n_n_0_1_1128 h
      (broadcastInDim S1600000x1 ![0] bcast_S1600000_S1600000x1_0
        (select (cmpi .slt src (broadcastInDim S1600000 ![] bcast_S_S1600000 (constantI S_ 32 0#32)))
          (addi src (broadcastInDim S1600000 ![] bcast_S_S1600000 (constantI S_ 32 100000#32))) src)))

/-- A maximum with the repeated zero is the rectifier. -/
theorem max_zeros (x : FVec Ideal S100000x128 .f32) :
    maximumf (F := Ideal) (φ := .f32) x
      (broadcastInDim S100000x128 ![] bcast_S_S100000x128 (constant (F := Ideal) S_ .f32 0x00000000#32)) = relu x := by
  funext j
  rw [maximumf_apply, Cert.LibHostDense.bcastScalar_apply, constant_apply]
  rfl

/-- The host's sum of two arrays is the entry-by-entry sum. -/
theorem addf_plus {s : Shape} (f g : FVec Ideal s .f32) : addf f g = plus f g := rfl

/-- The node layer: the product of the node features with Wn plus the bias row. -/
theorem node_layer (X : FVec Ideal S100000x128 .f32) (W : FVec Ideal S128x128 .f32) (b : FVec Ideal S128 .f32) :
    addf (Host.dotGeneral dot_S100000x128_S128x128_S100000x128_1_0_0_1_n_n none X W)
      (broadcastInDim S100000x128 ![0, 1] bcast_S1x128_S100000x128_0_1 (broadcastInDim S1x128 ![1] bcast_S128_S1x128_1 b))
      = dense X W (vecAt b) :=
  hostLayer_plain dot_S100000x128_S128x128_S100000x128_1_0_0_1_n_n rfl rfl rfl rfl rfl rfl none X W b
    bcast_S128_S1x128_1 bcast_S1x128_S100000x128_0_1

/-- The edge layer: the product of the edge features with We plus the bias row. -/
theorem edge_layer (EF : FVec Ideal S1600000x64 .f32) (W : FVec Ideal S64x128 .f32) (b : FVec Ideal S128 .f32) :
    addf (Host.dotGeneral dot_S1600000x64_S64x128_S1600000x128_1_0_0_1_n_n none EF W)
      (broadcastInDim S1600000x128 ![0, 1] bcast_S1x128_S1600000x128_0_1 (broadcastInDim S1x128 ![1] bcast_S128_S1x128_1 b))
      = dense EF W (vecAt b) :=
  hostLayer_plain dot_S1600000x64_S64x128_S1600000x128_1_0_0_1_n_n rfl rfl rfl rfl rfl rfl none EF W b
    bcast_S128_S1x128_1 bcast_S1x128_S1600000x128_0_1

/-- One round of the reference: pool, layer (Wc, bc), add the input message, rectify. -/
theorem round_eq (src dst : IVec S1600000 32) (Wc : FVec Ideal S128x128 .f32) (bc : FVec Ideal S128 .f32) (im h : FVec Ideal S100000x128 .f32) :
    maximumf (F := Ideal) (φ := .f32)
      (addf (addf (Host.dotGeneral (φ₁ := .f32) dot_S100000x128_S128x128_S100000x128_1_0_0_1_n_n none (pool src dst h) Wc)
        (broadcastInDim S100000x128 ![0, 1] bcast_S1x128_S100000x128_0_1 (broadcastInDim S1x128 ![1] bcast_S128_S1x128_1 bc))) im)
      (broadcastInDim S100000x128 ![] bcast_S_S100000x128 (constant (F := Ideal) S_ .f32 0x00000000#32))
      = round (pool src dst) Wc (vecAt bc) im h := by
  rw [max_zeros, node_layer, addf_plus]
  rfl

/-- The output layer, rectified. -/
theorem out_eq (h : FVec Ideal S100000x128 .f32) (Wo : FVec Ideal S128x128 .f32) (bo : FVec Ideal S128 .f32) :
    maximumf (F := Ideal) (φ := .f32)
      (addf (Host.dotGeneral dot_S100000x128_S128x128_S100000x128_1_0_0_1_n_n none h Wo)
        (broadcastInDim S100000x128 ![0, 1] bcast_S1x128_S100000x128_0_1 (broadcastInDim S1x128 ![1] bcast_S128_S1x128_1 bo)))
      (broadcastInDim S100000x128 ![] bcast_S_S100000x128 (constant (F := Ideal) S_ .f32 0x00000000#32))
      = relu (dense h Wo (vecAt bo)) :=
  hostLayer_relu dot_S100000x128_S128x128_S100000x128_1_0_0_1_n_n rfl rfl rfl rfl rfl rfl none h Wo bo
    bcast_S128_S1x128_1 bcast_S1x128_S100000x128_0_1 bcast_S_S100000x128

/-! The host terms of the reference, named by what they compute, so that the composed term is read as a composition
    of four kinds of steps. -/

/-- The reference's input message as the host computes it: the node layer plus, at every node, the sum of the edge
    layers of the arriving edges. -/
def hostMsg (X : FVec Ideal S100000x128 .f32) (EF : FVec Ideal S1600000x64 .f32) (dst : IVec S1600000 32)
    (Wn : FVec Ideal S128x128 .f32) (bn : FVec Ideal S128 .f32) (We : FVec Ideal S64x128 .f32) (be : FVec Ideal S128 .f32) :
    FVec Ideal S100000x128 .f32 :=
  addf (addf (Host.dotGeneral dot_S100000x128_S128x128_S100000x128_1_0_0_1_n_n none X Wn)
      (broadcastInDim S100000x128 ![0, 1] bcast_S1x128_S100000x128_0_1 (broadcastInDim S1x128 ![1] bcast_S128_S1x128_1 bn)))
    (Host.scatterAdd (F := Ideal) (φ := .f32) scatter_S100000x128_S1600000x1_S1600000x128_1_0_0_1
      (broadcastInDim S100000x128 ![] bcast_S_S100000x128 (constant (F := Ideal) S_ .f32 0x00000000#32))
      (broadcastInDim S1600000x1 ![0] bcast_S1600000_S1600000x1_0 dst)
      (addf (Host.dotGeneral dot_S1600000x64_S64x128_S1600000x128_1_0_0_1_n_n none EF We)
        (broadcastInDim S1600000x128 ![0, 1] bcast_S1x128_S1600000x128_0_1 (broadcastInDim S1x128 ![1] bcast_S128_S1x128_1 be))))

/-- The host's rectifier: the maximum with the repeated zero. -/
def hostRelu (x : FVec Ideal S100000x128 .f32) : FVec Ideal S100000x128 .f32 :=
  maximumf x (broadcastInDim S100000x128 ![] bcast_S_S100000x128 (constant (F := Ideal) S_ .f32 0x00000000#32))

/-- One round as the host computes it. -/
def hostRound (src dst : IVec S1600000 32) (Wc : FVec Ideal S128x128 .f32) (bc : FVec Ideal S128 .f32)
    (im h : FVec Ideal S100000x128 .f32) : FVec Ideal S100000x128 .f32 :=
  maximumf
    (addf (addf (Host.dotGeneral (φ₁ := .f32) dot_S100000x128_S128x128_S100000x128_1_0_0_1_n_n none (pool src dst h) Wc)
      (broadcastInDim S100000x128 ![0, 1] bcast_S1x128_S100000x128_0_1 (broadcastInDim S1x128 ![1] bcast_S128_S1x128_1 bc))) im)
    (broadcastInDim S100000x128 ![] bcast_S_S100000x128 (constant (F := Ideal) S_ .f32 0x00000000#32))

/-- The output layer as the host computes it. -/
def hostOut (h : FVec Ideal S100000x128 .f32) (Wo : FVec Ideal S128x128 .f32) (bo : FVec Ideal S128 .f32) :
    FVec Ideal S100000x128 .f32 :=
  maximumf
    (addf (Host.dotGeneral dot_S100000x128_S128x128_S100000x128_1_0_0_1_n_n none h Wo)
      (broadcastInDim S100000x128 ![0, 1] bcast_S1x128_S100000x128_0_1 (broadcastInDim S1x128 ![1] bcast_S128_S1x128_1 bo)))
    (broadcastInDim S100000x128 ![] bcast_S_S100000x128 (constant (F := Ideal) S_ .f32 0x00000000#32))

theorem hostMsg_eq (X : FVec Ideal S100000x128 .f32) (EF : FVec Ideal S1600000x64 .f32) (dst : IVec S1600000 32)
    (Wn : FVec Ideal S128x128 .f32) (bn : FVec Ideal S128 .f32) (We : FVec Ideal S64x128 .f32) (be : FVec Ideal S128 .f32) :
    hostMsg X EF dst Wn bn We be
      = plus (dense X Wn (vecAt bn))
          (Host.scatterAdd (F := Ideal) (φ := .f32) scatter_S100000x128_S1600000x1_S1600000x128_1_0_0_1
            (broadcastInDim S100000x128 ![] bcast_S_S100000x128 (constant (F := Ideal) S_ .f32 0x00000000#32))
            (broadcastInDim S1600000x1 ![0] bcast_S1600000_S1600000x1_0 dst) (dense EF We (vecAt be))) := by
  unfold hostMsg
  rw [edge_layer, node_layer, addf_plus]

theorem hostRelu_eq (x : FVec Ideal S100000x128 .f32) : hostRelu x = relu x := max_zeros x

theorem hostRound_eq (src dst : IVec S1600000 32) (Wc : FVec Ideal S128x128 .f32) (bc : FVec Ideal S128 .f32)
    (im h : FVec Ideal S100000x128 .f32) : hostRound src dst Wc bc im h = round (pool src dst) Wc (vecAt bc) im h :=
  round_eq src dst Wc bc im h

theorem hostOut_eq (h : FVec Ideal S100000x128 .f32) (Wo : FVec Ideal S128x128 .f32) (bo : FVec Ideal S128 .f32) :
    hostOut h Wo bo = relu (dense h Wo (vecAt bo)) := out_eq h Wo bo

/-- The four kinds of steps composed as the reference composes them are the network of Spec.lean. -/
theorem host_net (X : FVec Ideal S100000x128 .f32) (EF : FVec Ideal S1600000x64 .f32) (src dst : IVec S1600000 32)
    (Wn : FVec Ideal S128x128 .f32) (bn : FVec Ideal S128 .f32) (We : FVec Ideal S64x128 .f32) (be : FVec Ideal S128 .f32)
    (Wc : FVec Ideal S128x128 .f32) (bc : FVec Ideal S128 .f32) (Wo : FVec Ideal S128x128 .f32) (bo : FVec Ideal S128 .f32) :
    hostOut
        (hostRound src dst Wc bc (hostMsg X EF dst Wn bn We be)
          (hostRound src dst Wc bc (hostMsg X EF dst Wn bn We be)
            (hostRound src dst Wc bc (hostMsg X EF dst Wn bn We be) (hostRelu (hostMsg X EF dst Wn bn We be))))) Wo bo
      = net (pool src dst) Wc (vecAt bc) Wo (vecAt bo)
          (plus (dense X Wn (vecAt bn))
            (Host.scatterAdd (F := Ideal) (φ := .f32) scatter_S100000x128_S1600000x1_S1600000x128_1_0_0_1
              (broadcastInDim S100000x128 ![] bcast_S_S100000x128 (constant (F := Ideal) S_ .f32 0x00000000#32))
              (broadcastInDim S1600000x1 ![0] bcast_S1600000_S1600000x1_0 dst) (dense EF We (vecAt be)))) := by
  rw [hostMsg_eq, hostRelu_eq, hostRound_eq, hostRound_eq, hostRound_eq, hostOut_eq]
  rfl

open Idealize.ShloMosaic.TcCoe in
/-- The reference's result is the network of Spec.lean over the reference's pooling, from the input message "node
    layer plus the sum, at every node, of the arriving edges' layers". -/
theorem ref_value (m : (ℓ : Loc nD τ sig) → Buf (Elt Ideal) ℓ) (c : Dev nD) :
    Cert.ReferenceIdeal.Value.res_main_v65 (F := Ideal) m c
      = net (pool (m ((c.tc : Thread nD τ).loc main_arg2)) (m ((c.tc : Thread nD τ).loc main_arg3)))
          (m ((c.tc : Thread nD τ).loc main_arg8)) (vecAt (m ((c.tc : Thread nD τ).loc main_arg9)))
          (m ((c.tc : Thread nD τ).loc main_arg10)) (vecAt (m ((c.tc : Thread nD τ).loc main_arg11)))
          (plus (dense (m ((c.tc : Thread nD τ).loc main_arg0)) (m ((c.tc : Thread nD τ).loc main_arg4))
              (vecAt (m ((c.tc : Thread nD τ).loc main_arg5))))
            (Host.scatterAdd (F := Ideal) (φ := .f32) scatter_S100000x128_S1600000x1_S1600000x128_1_0_0_1
              (broadcastInDim S100000x128 ![] bcast_S_S100000x128 (constant (F := Ideal) S_ .f32 0x00000000#32))
              (broadcastInDim S1600000x1 ![0] bcast_S1600000_S1600000x1_0 (m ((c.tc : Thread nD τ).loc main_arg3)))
              (dense (m ((c.tc : Thread nD τ).loc main_arg1)) (m ((c.tc : Thread nD τ).loc main_arg6))
                (vecAt (m ((c.tc : Thread nD τ).loc main_arg7)))))) := by
  unfold Cert.ReferenceIdeal.Value.res_main_v65
  exact host_net (m ((c.tc : Thread nD τ).loc main_arg0)) (m ((c.tc : Thread nD τ).loc main_arg1))
    (m ((c.tc : Thread nD τ).loc main_arg2)) (m ((c.tc : Thread nD τ).loc main_arg3))
    (m ((c.tc : Thread nD τ).loc main_arg4)) (m ((c.tc : Thread nD τ).loc main_arg5))
    (m ((c.tc : Thread nD τ).loc main_arg6)) (m ((c.tc : Thread nD τ).loc main_arg7))
    (m ((c.tc : Thread nD τ).loc main_arg8)) (m ((c.tc : Thread nD τ).loc main_arg9))
    (m ((c.tc : Thread nD τ).loc main_arg10)) (m ((c.tc : Thread nD τ).loc main_arg11))

end Cert.ReferenceIdeal.GnnRef

end
-- ==== Proof.LibRows.lean ====
/-
  Row gathers and row scatters of the host, read at coordinates.

  `x[idx]` of a matrix `x : [N, C]` at a column of row numbers `idx : [R, 1]` is the matrix `[R, C]` whose row `r` is
  row `idx r` of `x`, the row number read as a signed integer and clamped into `[0, N − 1]`; the same for a flat
  array `x : [N]`, whose result is the array `[R]` of the named entries. A scatter of the rows of `u : [R, C]` into a
  matrix `[N, C]` at the row numbers `idx : [R, 1]` sends entry `(r, c)` of `u` to `(idx r, c)`: the row number is read
  signed and NOT clamped (an update whose row is outside the matrix is dropped), the column is kept.
-/
import Idealize.ShloMosaic.PureOps.Ideal
import Idealize.ShloMosaic.Lib.ValueIdx

noncomputable section

namespace Cert.LibRows

open Idealize.ShloMosaic Idealize.ShloMosaic.ValueIdx

variable {α : Type}

/-! ## Rows of a matrix -/

/-- The dimension numbers of a gather of whole rows: operand `[N, C]`, start indices `[R, 1]` (one row number each),
    result `[R, C]`; the slice is one row, its row axis collapsed, its column axis the result's. The conditions `wf`
    are decided on a program's literal shapes. -/
abbrev rowsDims (N R C : Nat) (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- THE ROW GATHER READ AT `(r, c)`: the operand at row `idx[r, 0]`, read signed and clamped into `[0, N − 1]`, and
    column `c`. -/
theorem gather_rows_apply {N R C w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (j : (⟨2, ![R, C]⟩ : Shape).Idx) :
    Host.gather (rowsDims N R C wf) x idx j
      = x (ix2 ⟨min (idx (ix2 (j 0) 0)).toInt.toNat (N - 1), by omega⟩ (j 1)) := by
  unfold Host.gather
  congr 1
  funext a
  refine Fin.ext ?_
  match a with
  | ⟨0, _⟩ =>
    show (rowsDims N R C wf).start j idx 0 + (rowsDims N R C wf).batchCoord j 0 + (rowsDims N R C wf).offCoord j 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims N R C wf).startIndexMap from List.mem_singleton.mpr rfl)]
    have hsi : (rowsDims N R C wf).siIdx j ⟨List.idxOf (0 : Fin 2) (rowsDims N R C wf).startIndexMap,
        List.idxOf_lt_length_iff.2 (List.mem_singleton.mpr rfl)⟩ = ix2 (j 0) 0 := by
      funext b; refine Fin.ext ?_
      match b with
      | ⟨0, _⟩ => rfl
      | ⟨1, _⟩ => rfl
    rw [hsi]
    rfl
  | ⟨1, _⟩ =>
    show (rowsDims N R C wf).start j idx 1 + (rowsDims N R C wf).batchCoord j 1 + (rowsDims N R C wf).offCoord j 1 = _
    rw [GatherDims.batchCoord_eq_zero _ _ _ List.not_mem_nil]
    unfold GatherDims.start
    rw [dif_neg (show (1 : Fin 2) ∉ (rowsDims N R C wf).startIndexMap from
      (show (1 : Fin 2) ∉ ([0] : List (Fin 2)) from by decide))]
    simp only [Nat.add_zero, Nat.zero_add]
    unfold GatherDims.offCoord
    rw [dif_pos ((GatherDims.mem_sKept (rowsDims N R C wf) 1).mpr
      ⟨(show (1 : Fin 2) ∉ ([0] : List (Fin 2)) from by decide), List.not_mem_nil⟩)]
    rfl

/-! ## Entries of a flat array -/

/-- The dimension numbers of a gather of single entries: operand `[N]`, start indices `[R, 1]`, result `[R]`; the slice is
    one entry, its axis collapsed. -/
abbrev entriesDims (N R : Nat) (wf : GatherDims.WF ⟨1, ![N]⟩ ⟨2, ![R, 1]⟩ ⟨1, ![R]⟩ [] [0] [] [0] [] 1 ![1]) :
    GatherDims ⟨1, ![N]⟩ ⟨2, ![R, 1]⟩ ⟨1, ![R]⟩ where
  offsetDims := []
  collapsedSliceDims := [0]
  operandBatchingDims := []
  startIndicesBatchingDims := []
  startIndexMap := [0]
  indexVectorDim := 1
  sliceSizes := ![1]
  wf := wf

/-- THE ENTRY GATHER READ AT `r`: the operand at `idx[r, 0]`, read signed and clamped into `[0, N − 1]`. -/
theorem gather_entries_apply {N R w : Nat} (hN : 0 < N)
    (wf : GatherDims.WF ⟨1, ![N]⟩ ⟨2, ![R, 1]⟩ ⟨1, ![R]⟩ [] [0] [] [0] [] 1 ![1])
    (x : (⟨1, ![N]⟩ : Shape).Idx → α) (idx : IVec ⟨2, ![R, 1]⟩ w) (j : (⟨1, ![R]⟩ : Shape).Idx) :
    Host.gather (entriesDims N R wf) x idx j = x (ix1 ⟨min (idx (ix2 (j 0) 0)).toInt.toNat (N - 1), by omega⟩) := by
  unfold Host.gather
  congr 1
  funext a
  obtain rfl : a = 0 := Subsingleton.elim _ _
  refine Fin.ext ?_
  show (entriesDims N R wf).start j idx 0 + (entriesDims N R wf).batchCoord j 0 + (entriesDims N R wf).offCoord j 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (entriesDims N R wf).startIndexMap from List.mem_singleton.mpr rfl)]
  have hsi : (entriesDims N R wf).siIdx j ⟨List.idxOf (0 : Fin 1) (entriesDims N R wf).startIndexMap,
      List.idxOf_lt_length_iff.2 (List.mem_singleton.mpr rfl)⟩ = ix2 (j 0) 0 := by
    funext b; refine Fin.ext ?_
    match b with
    | ⟨0, _⟩ => rfl
    | ⟨1, _⟩ => rfl
  rw [hsi]
  rfl

/-! ## Rows scattered into a matrix -/

/-- The dimension numbers of a scatter of whole rows: operand `[N, C]`, scatter indices `[R, 1]` (one row number each),
    updates `[R, C]`; an update row is a window along the operand's columns, placed at the row its index names. -/
abbrev rowsScatter (N R C : Nat) (wf : ScatterDims.WF ⟨2, ![N, C]⟩ ⟨2, ![R, 1]⟩ ⟨2, ![R, C]⟩ [1] [0] [0] 1) :
    ScatterDims ⟨2, ![N, C]⟩ ⟨2, ![R, 1]⟩ ⟨2, ![R, C]⟩ where
  updateWindowDims := [1]
  insertedWindowDims := [0]
  scatterDimsToOperandDims := [0]
  indexVectorDim := 1
  wf := wf

/-- The window's start along the rows is the row number `idx[r, 0]`, read signed. -/
theorem rowsScatter_start_row {N R C w : Nat} (wf : ScatterDims.WF ⟨2, ![N, C]⟩ ⟨2, ![R, 1]⟩ ⟨2, ![R, C]⟩ [1] [0] [0] 1)
    (idx : IVec ⟨2, ![R, 1]⟩ w) (j : (⟨2, ![R, C]⟩ : Shape).Idx) :
    (rowsScatter N R C wf).start j idx 0 = (idx (ix2 (j 0) 0)).toInt := by
  unfold ScatterDims.start
  rw [dif_pos (show (0 : Fin 2) ∈ (rowsScatter N R C wf).scatterDimsToOperandDims from List.mem_singleton.mpr rfl)]
  have hsi : (rowsScatter N R C wf).siIdx j ⟨List.idxOf (0 : Fin 2) (rowsScatter N R C wf).scatterDimsToOperandDims,
      List.idxOf_lt_length_iff.2 (List.mem_singleton.mpr rfl)⟩ = ix2 (j 0) 0 := by
    funext b; refine Fin.ext ?_
    match b with
    | ⟨0, _⟩ => rfl
    | ⟨1, _⟩ => rfl
  rw [hsi]
  rfl

/-- The window's start along the columns is `0`: the scatter indices name rows only. -/
theorem rowsScatter_start_col {N R C w : Nat} (wf : ScatterDims.WF ⟨2, ![N, C]⟩ ⟨2, ![R, 1]⟩ ⟨2, ![R, C]⟩ [1] [0] [0] 1)
    (idx : IVec ⟨2, ![R, 1]⟩ w) (j : (⟨2, ![R, C]⟩ : Shape).Idx) :
    (rowsScatter N R C wf).start j idx 1 = 0 := by
  unfold ScatterDims.start
  rw [dif_neg (show (1 : Fin 2) ∉ (rowsScatter N R C wf).scatterDimsToOperandDims from
    (show (1 : Fin 2) ∉ ([0] : List (Fin 2)) from by decide))]

/-- The window coordinate along the rows is `0`: the row axis is inserted, not a window axis. -/
theorem rowsScatter_window_row {N R C : Nat} (wf : ScatterDims.WF ⟨2, ![N, C]⟩ ⟨2, ![R, 1]⟩ ⟨2, ![R, C]⟩ [1] [0] [0] 1)
    (j : (⟨2, ![R, C]⟩ : Shape).Idx) : (rowsScatter N R C wf).window j 0 = 0 := by
  unfold ScatterDims.window
  rw [dif_neg (show (0 : Fin 2) ∉ (rowsScatter N R C wf).sKept from
    (show (0 : Fin 2) ∉ (List.finRange 2).filter (· ∉ ([0] : List (Fin 2))) from by decide))]

/-- The window coordinate along the columns is the update's column. -/
theorem rowsScatter_window_col {N R C : Nat} (wf : ScatterDims.WF ⟨2, ![N, C]⟩ ⟨2, ![R, 1]⟩ ⟨2, ![R, C]⟩ [1] [0] [0] 1)
    (j : (⟨2, ![R, C]⟩ : Shape).Idx) : (rowsScatter N R C wf).window j 1 = (j 1).val := by
  unfold ScatterDims.window
  rw [dif_pos (show (1 : Fin 2) ∈ (rowsScatter N R C wf).sKept from
    (show (1 : Fin 2) ∈ (List.finRange 2).filter (· ∉ ([0] : List (Fin 2))) from by decide))]
  rfl

/-- WHERE A SCATTERED ROW LANDS: if update entry `(r, c)` lands at operand index `i`, then `i`'s row is the row number
    `idx[r, 0]` read as a signed integer (not clamped: an update outside the operand lands nowhere) and `i`'s column is
    `c`. -/
theorem scatter_rows_result {N R C w : Nat} (wf : ScatterDims.WF ⟨2, ![N, C]⟩ ⟨2, ![R, 1]⟩ ⟨2, ![R, C]⟩ [1] [0] [0] 1)
    (idx : IVec ⟨2, ![R, 1]⟩ w) (j : (⟨2, ![R, C]⟩ : Shape).Idx) (i : (⟨2, ![N, C]⟩ : Shape).Idx)
    (h : (rowsScatter N R C wf).resultIdx? j idx = some i) :
    (idx (ix2 (j 0) 0)).toInt = ((i 0).val : Int) ∧ (i 1).val = (j 1).val := by
  unfold ScatterDims.resultIdx? at h
  split at h
  · rename_i hin
    have hi := Option.some.inj h
    have h0 : ((rowsScatter N R C wf).start j idx 0 + ((rowsScatter N R C wf).window j 0 : Int)).toNat = (i 0).val :=
      congrArg (fun f : (⟨2, ![N, C]⟩ : Shape).Idx => (f 0).val) hi
    have h1 : ((rowsScatter N R C wf).start j idx 1 + ((rowsScatter N R C wf).window j 1 : Int)).toNat = (i 1).val :=
      congrArg (fun f : (⟨2, ![N, C]⟩ : Shape).Idx => (f 1).val) hi
    have hb := (hin 0).1
    rw [rowsScatter_start_row, rowsScatter_window_row] at h0 hb
    rw [rowsScatter_start_col, rowsScatter_window_col] at h1
    constructor <;> omega
  · exact absurd h (by simp)

end Cert.LibRows

end
-- ==== Proof.LibRowSum.lean ====
/-
  A scatter that adds rows onto a matrix, read at one entry as a sum over the rows that land there.

  Update row `e` of `u : [R, C]` lands on row `idx[e, 0]` (read signed, not clamped) of the operand `[N, C]`, its
  columns kept. So update entry `(e, c')` lands on operand entry `(p, c)` exactly when `idx[e, 0] = p` and `c' = c`,
  and the scattered sum at `(p, c)` is the operand's entry plus the sum, over the update rows `e` whose row number is
  `p`, of `u[e, c]`. The set of those rows does not depend on the column nor on the number of columns: two scatters of
  different widths at the same row numbers sum over the same rows.
-/
import proofs.«125341_j42279658062025_2_alg».proof.Proof.LibRows
import Idealize.ShloMosaic.PureOps.Ideal.Laws

noncomputable section

namespace Cert.LibRowSum

open Idealize.ShloMosaic Idealize.ShloMosaic.ValueIdx Cert.LibRows
open scoped BigOperators

/-- The update rows whose row number, read signed, is `p`. -/
def rowsAt {R w : ℕ} (idx : IVec ⟨2, ![R, 1]⟩ w) (p : ℕ) : Finset (Fin R) :=
  Finset.univ.filter fun e : Fin R => (idx (ix2 e 0)).toInt = (p : Int)

/-- WHERE A SCATTERED ROW LANDS, both ways: update entry `j` lands at operand index `i` exactly when `j`'s row number,
    read signed, is `i`'s row and the columns agree. -/
theorem rowsScatter_lands_iff {N R C w : ℕ} (wf : ScatterDims.WF ⟨2, ![N, C]⟩ ⟨2, ![R, 1]⟩ ⟨2, ![R, C]⟩ [1] [0] [0] 1)
    (idx : IVec ⟨2, ![R, 1]⟩ w) (j : (⟨2, ![R, C]⟩ : Shape).Idx) (i : (⟨2, ![N, C]⟩ : Shape).Idx) :
    (rowsScatter N R C wf).resultIdx? j idx = some i
      ↔ (idx (ix2 (j 0) 0)).toInt = ((i 0).val : Int) ∧ (j 1).val = (i 1).val := by
  constructor
  · intro h
    have := scatter_rows_result wf idx j i h
    exact ⟨this.1, this.2.symm⟩
  · rintro ⟨h0, h1⟩
    have hi0 := (i 0).isLt
    have hi1 := (i 1).isLt
    have hs0 := rowsScatter_start_row wf idx j
    have hw0 := rowsScatter_window_row wf j
    have hs1 := rowsScatter_start_col wf idx j
    have hw1 := rowsScatter_window_col wf j
    have hin : ∀ a, 0 ≤ (rowsScatter N R C wf).start j idx a + ((rowsScatter N R C wf).window j a : Int)
        ∧ (rowsScatter N R C wf).start j idx a + ((rowsScatter N R C wf).window j a : Int)
            < ((⟨2, ![N, C]⟩ : Shape).size a : Int) := by
      refine Fin.forall_fin_two.mpr ⟨?_, ?_⟩
      · rw [hs0, hw0, h0]; constructor <;> omega
      · rw [hs1, hw1, h1]; constructor <;> omega
    unfold ScatterDims.resultIdx?
    rw [dif_pos hin]
    refine congrArg some (funext (Fin.forall_fin_two.mpr ⟨Fin.ext ?_, Fin.ext ?_⟩))
    · show ((rowsScatter N R C wf).start j idx 0 + ((rowsScatter N R C wf).window j 0 : Int)).toNat = (i 0).val
      rw [hs0, hw0, h0]; omega
    · show ((rowsScatter N R C wf).start j idx 1 + ((rowsScatter N R C wf).window j 1 : Int)).toNat = (i 1).val
      rw [hs1, hw1, h1]; omega

/-- THE ROW SCATTER-ADD READ AT `(p, c)`: the operand's entry plus the sum over the update rows whose row number is `p`
    of their entry in column `c`. -/
theorem scatterAdd_rows_apply {N R C w : ℕ} (wf : ScatterDims.WF ⟨2, ![N, C]⟩ ⟨2, ![R, 1]⟩ ⟨2, ![R, C]⟩ [1] [0] [0] 1)
    (z : (⟨2, ![N, C]⟩ : Shape).Idx → EReal) (idx : IVec ⟨2, ![R, 1]⟩ w) (upd : (⟨2, ![R, C]⟩ : Shape).Idx → EReal)
    (p : Fin N) (c : Fin C) :
    Host.scatterAdd (F := Ideal) (φ := .f32) (rowsScatter N R C wf) z idx upd (ix2 p c)
      = z (ix2 p c) + ∑ e ∈ rowsAt idx p.val, upd (ix2 e c) := by
  show z (ix2 p c) + ∑ j ∈ Finset.univ.filter (fun j => (rowsScatter N R C wf).resultIdx? j idx = some (ix2 p c)), upd j = _
  congr 1
  rw [Finset.filter_congr (fun j _ => rowsScatter_lands_iff wf idx j (ix2 p c)), Finset.sum_filter, sum_idx2]
  unfold rowsAt
  rw [Finset.sum_filter]
  refine Finset.sum_congr rfl fun e _ => ?_
  by_cases he : (idx (ix2 e 0)).toInt = (p.val : Int)
  · rw [if_pos he]
    rw [Finset.sum_eq_single c]
    · rw [if_pos ⟨he, rfl⟩]
    · intro b _ hb
      rw [if_neg]
      rintro ⟨_, h⟩
      exact hb (Fin.ext h)
    · intro h; exact absurd (Finset.mem_univ c) h
  · rw [if_neg he]
    refine Finset.sum_eq_zero fun b _ => ?_
    rw [if_neg]
    rintro ⟨h, _⟩
    exact he h

end Cert.LibRowSum

end
-- ==== Proof.LibEntriesScatter.lean ====
/-
  A scatter that adds single entries onto a vector, read at one index as a sum over the updates that land there.

  Update `e` of `u : [R]` lands on entry `idx[e, 0]` (read signed, not clamped) of the operand `[N]`. So the scattered
  sum at `p` is the operand's entry plus the sum, over the updates `e` whose number is `p`, of `u[e]`. The set of those
  updates is the one a scatter of whole rows at the same column of numbers sums over: a degree vector and an aggregated
  feature matrix scattered at one column of node numbers sum over the same edges.
-/
import proofs.«125341_j42279658062025_2_alg».proof.Proof.LibRowSum

noncomputable section

namespace Cert.LibEntriesScatter

open Idealize.ShloMosaic Idealize.ShloMosaic.ValueIdx Cert.LibRowSum
open scoped BigOperators

/-- A rank-1 index is its one coordinate. -/
def idx1Equiv (n : ℕ) : Fin n ≃ (⟨1, ![n]⟩ : Shape).Idx where
  toFun := ix1
  invFun j := j 0
  left_inv _ := rfl
  right_inv j := (eq_ix1 j).symm

/-- A sum over a rank-1 index set is the sum over its coordinate. -/
theorem sum_idx1 {M : Type*} [AddCommMonoid M] {n : ℕ} (f : (⟨1, ![n]⟩ : Shape).Idx → M) :
    ∑ j, f j = ∑ a : Fin n, f (ix1 a) :=
  (Fintype.sum_equiv (idx1Equiv n) _ _ fun _ => rfl).symm

/-- The dimension numbers of a scatter of single entries: operand `[N]`, scatter indices `[R, 1]` (one entry number
    each), updates `[R]`; there is no window axis. -/
abbrev entriesScatter (N R : Nat) (wf : ScatterDims.WF ⟨1, ![N]⟩ ⟨2, ![R, 1]⟩ ⟨1, ![R]⟩ [] [0] [0] 1) :
    ScatterDims ⟨1, ![N]⟩ ⟨2, ![R, 1]⟩ ⟨1, ![R]⟩ where
  updateWindowDims := []
  insertedWindowDims := [0]
  scatterDimsToOperandDims := [0]
  indexVectorDim := 1
  wf := wf

/-- The start along the one operand axis is the entry number `idx[e, 0]`, read signed. -/
theorem entriesScatter_start {N R w : Nat} (wf : ScatterDims.WF ⟨1, ![N]⟩ ⟨2, ![R, 1]⟩ ⟨1, ![R]⟩ [] [0] [0] 1)
    (idx : IVec ⟨2, ![R, 1]⟩ w) (j : (⟨1, ![R]⟩ : Shape).Idx) :
    (entriesScatter N R wf).start j idx 0 = (idx (ix2 (j 0) 0)).toInt := by
  unfold ScatterDims.start
  rw [dif_pos (show (0 : Fin 1) ∈ (entriesScatter N R wf).scatterDimsToOperandDims from List.mem_singleton.mpr rfl)]
  have hsi : (entriesScatter N R wf).siIdx j ⟨List.idxOf (0 : Fin 1) (entriesScatter N R wf).scatterDimsToOperandDims,
      List.idxOf_lt_length_iff.2 (List.mem_singleton.mpr rfl)⟩ = ix2 (j 0) 0 := by
    funext b; refine Fin.ext ?_
    match b with
    | ⟨0, _⟩ => rfl
    | ⟨1, _⟩ => rfl
  rw [hsi]
  rfl

/-- The window coordinate along the one operand axis is `0`: the axis is inserted, an update is one entry. -/
theorem entriesScatter_window {N R : Nat} (wf : ScatterDims.WF ⟨1, ![N]⟩ ⟨2, ![R, 1]⟩ ⟨1, ![R]⟩ [] [0] [0] 1)
    (j : (⟨1, ![R]⟩ : Shape).Idx) : (entriesScatter N R wf).window j 0 = 0 := by
  unfold ScatterDims.window
  rw [dif_neg (show (0 : Fin 1) ∉ (entriesScatter N R wf).sKept from
    (show (0 : Fin 1) ∉ (List.finRange 1).filter (· ∉ ([0] : List (Fin 1))) from by decide))]

/-- WHERE A SCATTERED ENTRY LANDS, both ways: update `j` lands at operand index `i` exactly when `j`'s entry number,
    read signed, is `i` (an update whose number is outside the operand lands nowhere). -/
theorem entriesScatter_lands_iff {N R w : ℕ} (wf : ScatterDims.WF ⟨1, ![N]⟩ ⟨2, ![R, 1]⟩ ⟨1, ![R]⟩ [] [0] [0] 1)
    (idx : IVec ⟨2, ![R, 1]⟩ w) (j : (⟨1, ![R]⟩ : Shape).Idx) (i : (⟨1, ![N]⟩ : Shape).Idx) :
    (entriesScatter N R wf).resultIdx? j idx = some i ↔ (idx (ix2 (j 0) 0)).toInt = ((i 0).val : Int) := by
  have hs0 := entriesScatter_start wf idx j
  have hw0 := entriesScatter_window wf j
  constructor
  · intro h
    unfold ScatterDims.resultIdx? at h
    split at h
    · rename_i hin
      have hi := Option.some.inj h
      have h0 : ((entriesScatter N R wf).start j idx 0 + ((entriesScatter N R wf).window j 0 : Int)).toNat = (i 0).val :=
        congrArg (fun f : (⟨1, ![N]⟩ : Shape).Idx => (f 0).val) hi
      have hb := (hin 0).1
      rw [hs0, hw0] at h0 hb
      omega
    · exact absurd h (by simp)
  · intro h0
    have hi0 := (i 0).isLt
    have hin : ∀ a, 0 ≤ (entriesScatter N R wf).start j idx a + ((entriesScatter N R wf).window j a : Int)
        ∧ (entriesScatter N R wf).start j idx a + ((entriesScatter N R wf).window j a : Int)
            < ((⟨1, ![N]⟩ : Shape).size a : Int) := by
      refine Fin.forall_fin_one.mpr ?_
      rw [hs0, hw0, h0]; constructor <;> omega
    unfold ScatterDims.resultIdx?
    rw [dif_pos hin]
    refine congrArg some (funext (Fin.forall_fin_one.mpr (Fin.ext ?_)))
    show ((entriesScatter N R wf).start j idx 0 + ((entriesScatter N R wf).window j 0 : Int)).toNat = (i 0).val
    rw [hs0, hw0, h0]; omega

/-- THE ENTRY SCATTER-ADD READ AT `p`: the operand's entry plus the sum over the updates whose entry number is `p` —
    the same set `rowsAt idx p` a scatter of rows at the column `idx` sums over. -/
theorem scatterAdd_entries_apply {N R w : ℕ} (wf : ScatterDims.WF ⟨1, ![N]⟩ ⟨2, ![R, 1]⟩ ⟨1, ![R]⟩ [] [0] [0] 1)
    (z : (⟨1, ![N]⟩ : Shape).Idx → EReal) (idx : IVec ⟨2, ![R, 1]⟩ w) (upd : (⟨1, ![R]⟩ : Shape).Idx → EReal)
    (p : Fin N) :
    Host.scatterAdd (F := Ideal) (φ := .f32) (entriesScatter N R wf) z idx upd (ix1 p)
      = z (ix1 p) + ∑ e ∈ rowsAt idx p.val, upd (ix1 e) := by
  show z (ix1 p) + ∑ j ∈ Finset.univ.filter (fun j => (entriesScatter N R wf).resultIdx? j idx = some (ix1 p)), upd j = _
  congr 1
  rw [Finset.filter_congr (fun j _ => entriesScatter_lands_iff wf idx j (ix1 p)), Finset.sum_filter, sum_idx1]
  unfold rowsAt
  rw [Finset.sum_filter]
  exact Finset.sum_congr rfl fun a _ => rfl

end Cert.LibEntriesScatter

end
-- ==== Proof.LibGcnLayer.lean ====
/-
  One graph-convolution layer read at coordinates, at the extended reals.

  The layer's value at node `p` and feature `q` is `agg (p, q) + s (p) · h (p, q) + b (q)`, where `h` is the
  projected feature matrix, `s` the self-loop weight of each node laid out as a column and repeated over the
  features, `agg` the aggregated neighbour messages and `b` the bias laid out as a row and repeated over the
  nodes. Two spellings of it are compared: `(h · s + agg) + b` with the bias row cast from a vector and read
  through its one row, and `(agg + s · h) + b` with the bias row repeated over the nodes by two
  `broadcast_in_dim`s. They agree at every extended real because sum and product are commutative there; no
  finiteness is needed. The same holds after a maximum with a repeated scalar constant (the rectifier).

  Also here: a length-`n` vector laid out as the column `[n, 1]` and that column repeated over `c` columns,
  read at coordinates.
-/
import Idealize.ShloMosaic.Lib.Pipeline.Value
import Idealize.ShloMosaic.Lib.ValueIdx
import Idealize.ShloMosaic.Lib.ValueLayout

noncomputable section

namespace Cert.LibGcnLayer

open Idealize.ShloMosaic Idealize.ShloMosaic.ValueIdx

variable {α : Type}

/-- A length-`n` vector laid out as the column `[n, 1]` reads, at `(p, u)`, the vector at `p`. -/
theorem bcastCol_apply {n : ℕ} (x : (⟨1, ![n]⟩ : Shape).Idx → α)
    (h : (⟨1, ![n]⟩ : Shape).BroadcastsInDim ⟨2, ![n, 1]⟩ (![0] : Fin 1 → Fin 2)) (p : Fin n) (u : Fin 1) :
    broadcastInDim ⟨2, ![n, 1]⟩ ![0] h x (ix2 p u) = x (ix1 p) := by
  refine broadcastInDim_apply _ h x (ix2 p u) (ix1 p) fun a => ?_
  match a with
  | ⟨0, _⟩ =>
    show p.val = if n = 1 then 0 else p.val
    split
    · have := p.isLt; omega
    · rfl

/-- A column `[n, 1]` repeated over `c` columns reads, at `(p, q)`, the column at `p`. -/
theorem bcastCols_apply {n c : ℕ} (x : (⟨2, ![n, 1]⟩ : Shape).Idx → α)
    (h : (⟨2, ![n, 1]⟩ : Shape).BroadcastsInDim ⟨2, ![n, c]⟩ (![0, 1] : Fin 2 → Fin 2)) (p : Fin n) (q : Fin c) :
    broadcastInDim ⟨2, ![n, c]⟩ ![0, 1] h x (ix2 p q) = x (ix2 p (0 : Fin 1)) := by
  refine broadcastInDim_apply _ h x (ix2 p q) (ix2 p (0 : Fin 1)) fun a => ?_
  match a with
  | ⟨0, _⟩ =>
    show p.val = if n = 1 then 0 else p.val
    split
    · have := p.isLt; omega
    · rfl
  | ⟨1, _⟩ => show 0 = if (1 : ℕ) = 1 then 0 else q.val; rw [if_pos rfl]

/-- A length-`c` vector laid out as the row `[1, c]` and repeated over `n` rows reads, at `(p, q)`, the vector at `q`. -/
theorem bcastRowRows_apply {n c : ℕ} (b : (⟨1, ![c]⟩ : Shape).Idx → α)
    (h1 : (⟨1, ![c]⟩ : Shape).BroadcastsInDim ⟨2, ![1, c]⟩ (![1] : Fin 1 → Fin 2))
    (h2 : (⟨2, ![1, c]⟩ : Shape).BroadcastsInDim ⟨2, ![n, c]⟩ (![0, 1] : Fin 2 → Fin 2)) (p : Fin n) (q : Fin c) :
    broadcastInDim ⟨2, ![n, c]⟩ ![0, 1] h2 (broadcastInDim ⟨2, ![1, c]⟩ ![1] h1 b) (ix2 p q) = b (ix1 q) := by
  have e1 : broadcastInDim ⟨2, ![n, c]⟩ ![0, 1] h2 (broadcastInDim ⟨2, ![1, c]⟩ ![1] h1 b) (ix2 p q)
      = broadcastInDim ⟨2, ![1, c]⟩ ![1] h1 b (ix2 (0 : Fin 1) q) := by
    refine broadcastInDim_apply _ h2 _ (ix2 p q) (ix2 (0 : Fin 1) q) fun a => ?_
    match a with
    | ⟨0, _⟩ => show 0 = if (1 : ℕ) = 1 then 0 else p.val; rw [if_pos rfl]
    | ⟨1, _⟩ =>
      show q.val = if c = 1 then 0 else q.val
      split
      · have := q.isLt; omega
      · rfl
  rw [e1]
  refine broadcastInDim_apply _ h1 b (ix2 (0 : Fin 1) q) (ix1 q) fun a => ?_
  match a with
  | ⟨0, _⟩ =>
    show q.val = if c = 1 then 0 else q.val
    split
    · have := q.isLt; omega
    · rfl

/-- A length-`c` vector cast to the row `[1, c]` reads, at `(0, q)`, the vector at `q`. -/
theorem castRow_apply {c : ℕ} (b : (⟨1, ![c]⟩ : Shape).Idx → α) (h : (⟨1, ![c]⟩ : Shape).ShapeCasts ⟨2, ![1, c]⟩) (q : Fin c) :
    shapeCast (⟨2, ![1, c]⟩ : Shape) b h (ix2 (0 : Fin 1) q) = b (ix1 q) := by
  refine shapeCast_apply b h (ix2 (0 : Fin 1) q) (ix1 q) ?_
  rw [Shape.rowMajor_val_one, Shape.rowMajor_val_two]
  show q.val = (0 : Fin 1).val * c + q.val
  simp

/-- The layer without the rectifier: `(h · s + agg) + b` through the cast bias row is `(agg + s · h) + b` through the
    repeated bias row, at every node and feature. -/
theorem layer_eq {n c : ℕ} (hW sn agg : FVec Ideal ⟨2, ![n, c]⟩ .f32) (b : FVec Ideal ⟨1, ![c]⟩ .f32)
    (hc : (⟨1, ![c]⟩ : Shape).ShapeCasts ⟨2, ![1, c]⟩)
    (h1 : (⟨1, ![c]⟩ : Shape).BroadcastsInDim ⟨2, ![1, c]⟩ (![1] : Fin 1 → Fin 2))
    (h2 : (⟨2, ![1, c]⟩ : Shape).BroadcastsInDim ⟨2, ![n, c]⟩ (![0, 1] : Fin 2 → Fin 2)) (p : Fin n) (q : Fin c) :
    (mulf hW sn (ix2 p q) + agg (ix2 p q)) + shapeCast (⟨2, ![1, c]⟩ : Shape) b hc (ix2 (0 : Fin 1) q)
      = addf (addf agg (mulf sn hW)) (broadcastInDim ⟨2, ![n, c]⟩ ![0, 1] h2 (broadcastInDim ⟨2, ![1, c]⟩ ![1] h1 b)) (ix2 p q) := by
  rw [addf_apply, addf_apply, mulf_apply, mulf_apply, bcastRowRows_apply, castRow_apply, mul_comm (hW (ix2 p q)),
    add_comm (sn (ix2 p q) * hW (ix2 p q))]

/-- The rectified layer: the maximum of either spelling with a scalar constant, the constant repeated over the array on
    one side. -/
theorem layer_relu_eq {n c : ℕ} (hW sn agg : FVec Ideal ⟨2, ![n, c]⟩ .f32) (b : FVec Ideal ⟨1, ![c]⟩ .f32)
    (hc : (⟨1, ![c]⟩ : Shape).ShapeCasts ⟨2, ![1, c]⟩)
    (h1 : (⟨1, ![c]⟩ : Shape).BroadcastsInDim ⟨2, ![1, c]⟩ (![1] : Fin 1 → Fin 2))
    (h2 : (⟨2, ![1, c]⟩ : Shape).BroadcastsInDim ⟨2, ![n, c]⟩ (![0, 1] : Fin 2 → Fin 2))
    (h0 : (⟨0, ![]⟩ : Shape).BroadcastsInDim ⟨2, ![n, c]⟩ (![] : Fin 0 → Fin 2)) (w : BitVec 32) (p : Fin n) (q : Fin c) :
    max ((mulf hW sn (ix2 p q) + agg (ix2 p q)) + shapeCast (⟨2, ![1, c]⟩ : Shape) b hc (ix2 (0 : Fin 1) q)) (Ideal.ofBits .f32 w)
      = maximumf (addf (addf agg (mulf sn hW)) (broadcastInDim ⟨2, ![n, c]⟩ ![0, 1] h2 (broadcastInDim ⟨2, ![1, c]⟩ ![1] h1 b)))
          (broadcastInDim ⟨2, ![n, c]⟩ ![] h0 (constant (F := Ideal) ⟨0, ![]⟩ .f32 w)) (ix2 p q) := by
  rw [maximumf_apply, ← layer_eq hW sn agg b hc h1 h2 p q]
  congr 1

end Cert.LibGcnLayer

end
-- ==== Proof.LibRow.lean ====
/-
  A vector laid out as a row.

  Casting a vector of n entries to the shape [1, n] keeps the entries in order: entry (0, j) of the row is entry j of
  the vector, because both sit at row-major position j.
-/
import Idealize.ShloMosaic.Lib.Pipeline.Value
import Idealize.ShloMosaic.Lib.ValueIdx

noncomputable section

namespace Cert.LibRow

open Idealize.ShloMosaic Idealize.ShloMosaic.ValueIdx

/-- An [n] vector cast to the row [1, n], read at (0, j), is the vector at j — for any element type and any n. -/
theorem row_apply {α : Type} {n : Nat} (v : (⟨1, ![n]⟩ : Shape).Idx → α) (h : (⟨1, ![n]⟩ : Shape).ShapeCasts ⟨2, ![1, n]⟩) (j : Fin n) :
    shapeCast (⟨2, ![1, n]⟩ : Shape) v h (ix2 (0 : Fin 1) j) = v (ix1 j) := by
  refine shapeCast_apply v h (ix2 (0 : Fin 1) j) (ix1 j) ?_
  rw [Shape.rowMajor_val_one, Shape.rowMajor_val_two]
  show j.val = (0 : Fin 1).val * n + j.val
  simp

end Cert.LibRow

end
-- ==== Proof.Bridge.lean ====
/-
  The two programs' input messages are equal, for real edge features, edge weights and edge bias.

  One program applies the edge layer  ef e · We + be  on every edge and sums the results at each node over the arriving
  edges. The other sums the edge features at each node first, counts the arriving edges, and computes
  (Σ_e ef e) · We + (number of arriving edges) · be. Both sums run over the same set of edges (those whose destination,
  read as a signed number, is the node), and both start from the number the f32 zero word encodes. Read at a node p and
  a feature q the two are the two sides of the law "pooling before the layer" of Spec.lean, which holds for real entries.
  The node layer  x · Wn + bn  is the same on both sides, one reading its bias through a one-row matrix.
-/
import proofs.«125341_j42279658062025_2_alg».proof.Proof.KBody
import proofs.«125341_j42279658062025_2_alg».proof.Proof.KHost
import proofs.«125341_j42279658062025_2_alg».proof.Proof.RefValue
import proofs.«125341_j42279658062025_2_alg».proof.Proof.Spec
import proofs.«125341_j42279658062025_2_alg».proof.Proof.LibRowSum
import proofs.«125341_j42279658062025_2_alg».proof.Proof.LibEntriesScatter
import proofs.«125341_j42279658062025_2_alg».proof.Proof.LibGcnLayer
import proofs.«125341_j42279658062025_2_alg».proof.Proof.LibRow
import proofs.«125341_j42279658062025_2_alg».proof.Proof.LibHostDense
import Idealize.ShloMosaic.Lib.IdealHost

noncomputable section

namespace Cert.Gnn.Bridge

open Idealize.ShloMosaic Idealize.ShloMosaic.ValueIdx
open Cert.LibLayers Cert.LibHostLayer Cert.LibHostDense Cert.LibRowSum Cert.LibEntriesScatter Cert.LibGcnLayer Cert.Gnn
open Cert.KernelIdeal.GnnHost Cert.KernelIdeal.GnnBody
open scoped BigOperators

attribute [local irreducible] Host.scatterAdd Host.gather

/-- The column of destinations, as an array of shape [edges, 1]. -/
abbrev col (dst : IVec ⟨1, ![1600000]⟩ 32) : IVec ⟨2, ![1600000, 1]⟩ 32 := column dst

/-- The pooled edge features at node p, feature k: zero plus the sum of the features of the edges arriving at p. -/
theorem pooled_apply (dst : IVec ⟨1, ![1600000]⟩ 32) (EF : FVec Ideal ⟨2, ![1600000, 64]⟩ .f32) (p : Fin 100000) (k : Fin 64) :
    pooledFeatures dst EF (ix2 p k)
      = Ideal.ofBits .f32 0x00000000#32 + ∑ e ∈ rowsAt (col dst) p.val, EF (ix2 e k) := by
  have h := scatterAdd_rows_apply (N := 100000) (R := 1600000) (C := 64)
    Cert.KernelIdeal.Facts₀.scatter_S100000x64_S1600000x1_S1600000x64_1_0_0_1_wf
    (broadcastInDim Cert.KernelIdeal.S100000x64 ![] Cert.KernelIdeal.Facts₀.bcast_S_S100000x64
      (constant (F := Ideal) Cert.KernelIdeal.S_ .f32 0x00000000#32)) (col dst) EF p k
  rw [bcastScalar_apply, constant_apply] at h
  exact h

/-- The degree of node p: zero plus one for every edge arriving at p. -/
theorem degree_apply (dst : IVec ⟨1, ![1600000]⟩ 32) (p : Fin 100000) :
    degree dst (ix1 p)
      = Ideal.ofBits .f32 0x00000000#32 + ∑ _e ∈ rowsAt (col dst) p.val, Ideal.ofBits .f32 0x3F800000#32 := by
  have h := scatterAdd_entries_apply (N := 100000) (R := 1600000)
    Cert.KernelIdeal.Facts₀.scatter_S100000_S1600000x1_S1600000_n_0_0_1_wf
    (broadcastInDim Cert.KernelIdeal.S100000 ![] Cert.KernelIdeal.Facts₀.bcast_S_S100000
      (constant (F := Ideal) Cert.KernelIdeal.S_ .f32 0x00000000#32)) (col dst)
    (broadcastInDim Cert.KernelIdeal.S1600000 ![] Cert.KernelIdeal.Facts₀.bcast_S_S1600000
      (constant (F := Ideal) Cert.KernelIdeal.S_ .f32 0x3F800000#32)) p
  rw [bcastScalar_apply, constant_apply] at h
  simp only [bcastScalar_apply, constant_apply] at h
  exact h

/-- The degree-scaled edge bias at (p, q): the degree of p times the bias at q. -/
theorem degreeBias_apply (dst : IVec ⟨1, ![1600000]⟩ 32) (be : FVec Ideal ⟨1, ![128]⟩ .f32) (p : Fin 100000) (q : Fin 128) :
    degreeBias dst be (ix2 p q) = degree dst (ix1 p) * be (ix1 q) := by
  unfold degreeBias
  rw [mulf_apply, bcastCols_apply, bcastCol_apply, bcastRows_apply, bcastRow_apply]

/-- A bias vector handed over as a one-row matrix reads, in column q, the vector at q. -/
theorem biasRow_apply (b : FVec Ideal ⟨1, ![128]⟩ .f32) (q : Fin 128) :
    Cert.LibBlockLayer.rowAt (biasRow b) q = b (ix1 q) :=
  Cert.LibRow.row_apply b Cert.KernelIdeal.Facts₀.shapeCasts_S128_S1x128 q

/-- The sum of edge rows at the destinations, read at (p, q): zero plus the sum of the rows of the arriving edges. -/
theorem edgeSum_apply (dst : IVec ⟨1, ![1600000]⟩ 32) (U : FVec Ideal ⟨2, ![1600000, 128]⟩ .f32) (p : Fin 100000) (q : Fin 128) :
    Host.scatterAdd (F := Ideal) (φ := .f32) Cert.ReferenceIdeal.scatter_S100000x128_S1600000x1_S1600000x128_1_0_0_1
        (broadcastInDim Cert.ReferenceIdeal.S100000x128 ![] Cert.ReferenceIdeal.Gen.bcast_S_S100000x128
          (constant (F := Ideal) Cert.ReferenceIdeal.S_ .f32 0x00000000#32))
        (broadcastInDim Cert.ReferenceIdeal.S1600000x1 ![0] Cert.ReferenceIdeal.Gen.bcast_S1600000_S1600000x1_0 dst) U (ix2 p q)
      = Ideal.ofBits .f32 0x00000000#32 + ∑ e ∈ rowsAt (col dst) p.val, U (ix2 e q) := by
  have h := scatterAdd_rows_apply (N := 100000) (R := 1600000) (C := 128)
    Cert.ReferenceIdeal.Gen.scatter_S100000x128_S1600000x1_S1600000x128_1_0_0_1_wf
    (broadcastInDim Cert.ReferenceIdeal.S100000x128 ![] Cert.ReferenceIdeal.Gen.bcast_S_S100000x128
      (constant (F := Ideal) Cert.ReferenceIdeal.S_ .f32 0x00000000#32)) (col dst) U p q
  rw [bcastScalar_apply, constant_apply] at h
  exact h

section
open Cert.ReferenceIdeal Cert.ReferenceIdeal.Gen

/-- The input message computed by pooling the edge features first is the one computed by pooling the edges' layers,
    when the edge features, the edge weights and the edge bias are real. -/
theorem message_eq (X : FVec Ideal S100000x128 .f32) (EF : FVec Ideal S1600000x64 .f32) (dst : IVec S1600000 32)
    (Wn : FVec Ideal S128x128 .f32) (bn : FVec Ideal S128 .f32) (We : FVec Ideal S64x128 .f32) (be : FVec Ideal S128 .f32)
    (hEF : ∀ i, ∃ r : ℝ, EF i = (r : EReal)) (hWe : ∀ i, ∃ r : ℝ, We i = (r : EReal))
    (hbe : ∀ i, ∃ r : ℝ, be i = (r : EReal)) :
    messageOf X Wn (biasRow bn) (pooledFeatures dst EF) We (degreeBias dst be)
      = plus (dense X Wn (vecAt bn))
          (Host.scatterAdd (F := Ideal) (φ := .f32) scatter_S100000x128_S1600000x1_S1600000x128_1_0_0_1
            (broadcastInDim S100000x128 ![] bcast_S_S100000x128 (constant (F := Ideal) S_ .f32 0x00000000#32))
            (broadcastInDim S1600000x1 ![0] bcast_S1600000_S1600000x1_0 dst) (dense EF We (vecAt be))) := by
  funext j
  obtain ⟨p, q, rfl⟩ : ∃ (p : Fin 100000) (q : Fin 128), j = ix2 p q := ⟨j 0, j 1, eq_ix2 j⟩
  show ((∑ k : Fin 128, X (ix2 p k) * Wn (ix2 k q)) + Cert.LibBlockLayer.rowAt (biasRow bn) q)
        + ((∑ k : Fin 64, pooledFeatures dst EF (ix2 p k) * We (ix2 k q)) + degreeBias dst be (ix2 p q))
      = ((∑ k : Fin 128, X (ix2 p k) * Wn (ix2 k q)) + bn (ix1 q))
        + Host.scatterAdd (F := Ideal) (φ := .f32) scatter_S100000x128_S1600000x1_S1600000x128_1_0_0_1
            (broadcastInDim S100000x128 ![] bcast_S_S100000x128 (constant (F := Ideal) S_ .f32 0x00000000#32))
            (broadcastInDim S1600000x1 ![0] bcast_S1600000_S1600000x1_0 dst) (dense EF We (vecAt be)) (ix2 p q)
  rw [biasRow_apply, degreeBias_apply, degree_apply, edgeSum_apply]
  simp only [pooled_apply, dense_apply]
  refine congrArg (fun t : EReal => ((∑ k : Fin 128, X (ix2 p k) * Wn (ix2 k q)) + bn (ix1 q)) + t) ?_
  exact pooled_layer (rowsAt (col dst) p.val) (fun e k => EF (ix2 e k)) (fun k => We (ix2 k q)) (be (ix1 q))
    (Ideal.ofBits .f32 0x00000000#32) (Ideal.ofBits .f32 0x3F800000#32) Ideal.ofBits_zero_f32 Ideal.ofBits_one_f32
    (fun e k => hEF (ix2 e k)) (fun k => hWe (ix2 k q)) (hbe (ix1 q))

end

end Cert.Gnn.Bridge

end
-- ==== Proof.LibSums.lean ====
/-
  General lemmas about sums over index ranges and about finiteness on the extended reals.
-/
import Idealize.ShloMosaic.PureOps.Ideal
import Idealize.ShloMosaic.Lib.ValueIdx
import Mathlib.Algebra.BigOperators.Fin

noncomputable section

open Idealize.ShloMosaic Idealize.ShloMosaic.ValueIdx

namespace Cert.LibSums

open Finset

/-- A sum over the first A*B naturals is the sum of A consecutive stretches of length B: element k = a*B + b. -/
theorem sum_range_mul {M : Type*} [AddCommMonoid M] (g : ℕ → M) (A B : ℕ) :
    ∑ k ∈ range (A * B), g k = ∑ a ∈ range A, ∑ b ∈ range B, g (a * B + b) := by
  induction A with
  | zero => simp
  | succ A ih => rw [Nat.succ_mul, sum_range_add, ih, sum_range_succ]

/-- A rank-1 index set is its one coordinate's range. -/
def idxEquiv1 {n : Nat} : (⟨1, ![n]⟩ : Shape).Idx ≃ Fin n where
  toFun i := i 0
  invFun k := ix1 k
  left_inv i := (eq_ix1 i).symm
  right_inv _ := rfl

/-- So a sum over a rank-1 index set is the sum over the coordinate. -/
theorem sum_idx1 {M : Type*} [AddCommMonoid M] {n : Nat} (f : (⟨1, ![n]⟩ : Shape).Idx → M) :
    ∑ i, f i = ∑ k : Fin n, f (ix1 k) := by
  rw [← Equiv.sum_comp (idxEquiv1 (n := n)).symm f]
  rfl

/-- The f32 word 0x7F800000 is +infinity on the extended reals. -/
theorem ofBits_inf_f32 : Ideal.ofBits .f32 0x7F800000#32 = (⊤ : EReal) := by simp [Ideal.ofBits, Ideal.ieee]

/-- An extended real whose absolute value max(x, -x) is below +infinity is a real number. -/
theorem real_of_abs_lt_top (x : EReal) (h : max x (-x) < (⊤ : EReal)) : ∃ r : ℝ, x = r := by
  induction x using EReal.rec with
  | bot => simp at h
  | top => simp at h
  | coe r => exact ⟨r, rfl⟩

/-- A comparison bit that is 1 says the comparison holds. -/
theorem of_ofBool_decide {p : Prop} [Decidable p] (h : BitVec.ofBool (decide p) = 1#1) : p := by
  by_contra hn
  rw [decide_eq_false hn] at h
  exact absurd h (by decide)

/-- An entry whose "absolute value below the word of +infinity" bit is 1 is a real number: what one element of a
    printed "every float input is finite" precondition says at the extended reals. -/
theorem real_of_finite_bit (x : EReal)
    (e : BitVec.ofBool (decide (max x (-x) < Ideal.ofBits .f32 0x7F800000#32)) = 1#1) : ∃ r : ℝ, x = r :=
  real_of_abs_lt_top x (by have h := of_ofBool_decide e; rwa [ofBits_inf_f32] at h)

end Cert.LibSums

end
-- ==== Proof.Finite.lean ====
/-
  From the precondition to real entries.

  The precondition states that, for every float argument array x, the conjunction over all entries of the comparison
  |x i| < +infinity is true, and that the conjunction of these over the arrays is true. On the extended reals the absolute
  value is max (x i) (-(x i)), and an extended real whose absolute value is below +infinity is a real number. So every entry
  of every float argument is real; stated here for the three arrays the pooled edge layer needs: the edge features, the
  edge layer's weights and its bias.
-/
import proofs.«125341_j42279658062025_2_alg».proof.Defs
import proofs.«125341_j42279658062025_2_alg».proof.Proof.Gen.Pre_finite_inputs
import proofs.«125341_j42279658062025_2_alg».proof.Proof.LibSums
import proofs.«125341_j42279658062025_2_alg».proof.Proof.LibHostDense
import Idealize.ShloMosaic.Lib.ReduceAll

noncomputable section

namespace Cert.Gnn.Finite

open Idealize.ShloMosaic Idealize.ShloMosaic.ValueIdx Idealize.SL.Sem

/-- The rank-0 shape has one index. -/
instance : Subsingleton (⟨0, ![]⟩ : Shape).Idx := ⟨fun a b => funext fun d => d.elim0⟩

/-- One array of the precondition: if the conjunction over all entries of |x i| < +infinity is true, every entry of x
    is a real number. -/
theorem real_of_all {s : Shape} {axes : List (Fin s.rank)} (x : FVec Ideal s .f32)
    (hb : (⟨0, ![]⟩ : Shape).BroadcastsInDim s (![] : Fin 0 → Fin s.rank))
    (hr : s.ReducesTo axes ⟨0, ![]⟩) (hu : 0 < (⟨0, ![]⟩ : Shape).numel) (init : IVec ⟨0, ![]⟩ 1)
    (e : Host.reduce IntOp.andi
        (cmpf .olt (Host.absf x) (broadcastInDim s ![] hb (constant (F := Ideal) ⟨0, ![]⟩ .f32 0x7F800000#32)))
        init hr hu ix0 = 1#1) (i : s.Idx) : ∃ r : ℝ, x i = (r : EReal) := by
  have hi := Host.reduce_andi_all _ init hr hu ix0 e i
  rw [cmpf_apply, Cert.LibHostDense.bcastScalar_apply, constant_apply] at hi
  exact Cert.LibSums.real_of_finite_bit (x i) hi

/-- A conjunction of two arrays of truth values that is true at an index: both are true there. -/
theorem both_of_andi {s : Shape} (x y : IVec s 1) (i : s.Idx) (h : andi x y i = 1#1) : x i = 1#1 ∧ y i = 1#1 :=
  IntOp.andi_eq_one.1 h

open Idealize.ShloMosaic.TcCoe in
/-- Under the precondition the edge features, the edge layer's weights and its bias have real entries. -/
theorem real_of_pre (m : (ℓ : Loc Cert.KernelIdeal.nD Cert.KernelIdeal.τ Cert.KernelIdeal.sig) → Buf (Elt Ideal) ℓ)
    (h : Cert.Pre_KernelIdeal (hPre_finite_inputs := Cert.Pre_finite_inputs.Gen.facts) m) (c : Dev Cert.KernelIdeal.nD) :
    (∀ i, ∃ r : ℝ, m ((c.tc : Thread Cert.KernelIdeal.nD Cert.KernelIdeal.τ).loc Cert.KernelIdeal.main_arg1) i = (r : EReal))
    ∧ (∀ i, ∃ r : ℝ, m ((c.tc : Thread Cert.KernelIdeal.nD Cert.KernelIdeal.τ).loc Cert.KernelIdeal.main_arg6) i = (r : EReal))
    ∧ (∀ i, ∃ r : ℝ, m ((c.tc : Thread Cert.KernelIdeal.nD Cert.KernelIdeal.τ).loc Cert.KernelIdeal.main_arg7) i = (r : EReal)) := by
  have h0 := congrFun (h c) ix0
  dsimp only [Cert.Pre_finite_inputs.fn, Cert.Pre_finite_inputs.fn_part1, Cert.Pre_finite_inputs.fn_part2] at h0
  -- the conjunction is nested to the left, the arrays in argument order: peel the last array off nine times
  obtain ⟨h1, -⟩ := both_of_andi _ _ _ h0
  obtain ⟨h2, -⟩ := both_of_andi _ _ _ h1
  obtain ⟨h3, -⟩ := both_of_andi _ _ _ h2
  obtain ⟨h4, -⟩ := both_of_andi _ _ _ h3
  obtain ⟨h5, e7⟩ := both_of_andi _ _ _ h4
  obtain ⟨h6, e6⟩ := both_of_andi _ _ _ h5
  obtain ⟨h7, -⟩ := both_of_andi _ _ _ h6
  obtain ⟨h8, -⟩ := both_of_andi _ _ _ h7
  obtain ⟨-, e1⟩ := both_of_andi _ _ _ h8
  exact ⟨real_of_all _ _ _ _ _ e1, real_of_all _ _ _ _ _ e6, real_of_all _ _ _ _ _ e7⟩

end Cert.Gnn.Finite

end
-- ==== Proof.Assemble.lean ====
/-
  The two programs compute one network.

  The reference's result is the network of Spec.lean with the input message "node layer plus the sum, over arriving
  edges, of the edge layer"; the kernel's is the same network — same pooling, same weights, the bias vectors read as
  rows — with the input message "node layer plus the pooled edge features through the edge matrix plus the edge bias once
  per arriving edge". For finite edge features, edge matrix and edge bias the two messages are equal (Bridge.lean), so
  from memories that agree on the arguments the two results are equal.
-/
import proofs.«125341_j42279658062025_2_alg».proof.Proof.KValue
import proofs.«125341_j42279658062025_2_alg».proof.Proof.KRun
import proofs.«125341_j42279658062025_2_alg».proof.Proof.RefValue
import proofs.«125341_j42279658062025_2_alg».proof.Proof.Bridge
import proofs.«125341_j42279658062025_2_alg».proof.Proof.Finite
import proofs.«125341_j42279658062025_2_alg».proof.Proof.LibRow
import proofs.«125341_j42279658062025_2_alg».proof.Defs

set_option maxRecDepth 16384

noncomputable section

namespace Cert.Gnn.Assemble

open Idealize.ShloMosaic Idealize.ShloMosaic.TcCoe Idealize.ShloMosaic.ValueIdx Idealize.SL.Sem
open Cert.LibLayers Cert.LibBlockLayer Cert.LibHostLayer Cert.Gnn

attribute [local irreducible] Host.scatterAdd Host.gather

/-- The network with equal parameters is the same network. -/
theorem net_congr {N L O : ℕ} {pool pool' : Mat N L → Mat N L} {Wc : Mat L L} {bc bc' : Fin L → EReal} {Wo : Mat L O}
    {bo bo' : Fin O → EReal} {im im' : Mat N L} (h0 : pool = pool') (h1 : bc = bc') (h2 : bo = bo') (h3 : im = im') :
    net pool Wc bc Wo bo im = net pool' Wc bc' Wo bo' im' := by subst h0 h1 h2 h3; rfl

/-- A bias vector handed over as a one-row matrix has the vector's entries. -/
theorem row_of_vec (b : FVec Ideal Cert.KernelIdeal.S128 .f32) :
    vecAt b = rowAt (Cert.KernelIdeal.GnnHost.biasRow b) :=
  funext fun q => (Cert.LibRow.row_apply b Cert.KernelIdeal.Gen.shapeCasts_S128_S1x128 q).symm

/-- The two programs pool alike: the same gather and scatter-add, the same wrap of a negative sender. -/
theorem pool_eq (src dst : IVec Cert.KernelIdeal.S1600000 32) :
    Cert.ReferenceIdeal.GnnRef.pool src dst = Cert.KernelIdeal.GnnHost.pool src dst := rfl

/-- The reference's result as a function of the twelve arrays. -/
def refNet (X : Mat 100000 128) (EF : Mat 1600000 64) (src dst : IVec Cert.ReferenceIdeal.S1600000 32) (Wn : Mat 128 128)
    (bn : FVec Ideal Cert.ReferenceIdeal.S128 .f32) (We : Mat 64 128) (be : FVec Ideal Cert.ReferenceIdeal.S128 .f32)
    (Wc : Mat 128 128) (bc : FVec Ideal Cert.ReferenceIdeal.S128 .f32) (Wo : Mat 128 128)
    (bo : FVec Ideal Cert.ReferenceIdeal.S128 .f32) : Mat 100000 128 :=
  net (Cert.ReferenceIdeal.GnnRef.pool src dst) Wc (vecAt bc) Wo (vecAt bo)
    (plus (dense X Wn (vecAt bn))
      (Host.scatterAdd (F := Ideal) (φ := .f32) Cert.ReferenceIdeal.scatter_S100000x128_S1600000x1_S1600000x128_1_0_0_1
        (broadcastInDim Cert.ReferenceIdeal.S100000x128 ![] Cert.ReferenceIdeal.Gen.bcast_S_S100000x128
          (constant (F := Ideal) Cert.ReferenceIdeal.S_ .f32 0x00000000#32))
        (broadcastInDim Cert.ReferenceIdeal.S1600000x1 ![0] Cert.ReferenceIdeal.Gen.bcast_S1600000_S1600000x1_0 dst)
        (dense EF We (vecAt be))))

theorem refNet_congr {X X' : Mat 100000 128} {EF EF' : Mat 1600000 64} {src src' dst dst' : IVec Cert.ReferenceIdeal.S1600000 32}
    {Wn Wn' : Mat 128 128} {bn bn' : FVec Ideal Cert.ReferenceIdeal.S128 .f32} {We We' : Mat 64 128}
    {be be' : FVec Ideal Cert.ReferenceIdeal.S128 .f32} {Wc Wc' : Mat 128 128} {bc bc' : FVec Ideal Cert.ReferenceIdeal.S128 .f32}
    {Wo Wo' : Mat 128 128} {bo bo' : FVec Ideal Cert.ReferenceIdeal.S128 .f32}
    (h0 : X = X') (h1 : EF = EF') (h2 : src = src') (h3 : dst = dst') (h4 : Wn = Wn') (h5 : bn = bn') (h6 : We = We') (h7 : be = be')
    (h8 : Wc = Wc') (h9 : bc = bc') (h10 : Wo = Wo') (h11 : bo = bo') :
    refNet X EF src dst Wn bn We be Wc bc Wo bo = refNet X' EF' src' dst' Wn' bn' We' be' Wc' bc' Wo' bo' := by
  subst h0 h1 h2 h3 h4 h5 h6 h7 h8 h9 h10 h11; rfl

/-- THE RESULTS AGREE: from memories that agree on the twelve arguments, the reference's result term is what the
    kernel's result buffer holds at its last boundary. Only the finiteness of the edge features, the edge matrix and
    the edge bias is used. -/
theorem results_eq (m : (ℓ : Loc Cert.KernelIdeal.nD Cert.KernelIdeal.τ Cert.KernelIdeal.sig) → Buf (Elt Ideal) ℓ) (ρ : Dev Cert.KernelIdeal.nD → PrngReg)
    (m' : (ℓ : Loc Cert.ReferenceIdeal.nD Cert.ReferenceIdeal.τ Cert.ReferenceIdeal.sig) → Buf (Elt Ideal) ℓ) (c : Dev Cert.KernelIdeal.nD)
    (hpre : Cert.Pre_KernelIdeal (hPre_finite_inputs := Cert.Pre_finite_inputs.Gen.facts) m)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (h8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (h9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9))
    (h10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10))
    (h11 : m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) :
    Cert.ReferenceIdeal.Value.res_main_v65 (F := Ideal) m' c
      = Cert.KernelIdeal.GenP.W8 m ρ c (Proc.devRef .tc Cert.KernelIdeal.main_v50) := by
  obtain ⟨hEF, hWe, hbe⟩ := Cert.Gnn.Finite.real_of_pre m hpre c
  calc Cert.ReferenceIdeal.Value.res_main_v65 (F := Ideal) m' c
      = refNet (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) := Cert.ReferenceIdeal.GnnRef.ref_value m' c
    _ = refNet (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) :=
        refNet_congr h0 h1 h2 h3 h4 h5 h6 h7 h8 h9 h10 h11
    _ = net (Cert.KernelIdeal.GnnHost.pool (m ((c.tc : Thread Cert.KernelIdeal.nD Cert.KernelIdeal.τ).loc Cert.KernelIdeal.main_arg2)) (m ((c.tc : Thread Cert.KernelIdeal.nD Cert.KernelIdeal.τ).loc Cert.KernelIdeal.main_arg3))) (m ((c.tc : Thread Cert.KernelIdeal.nD Cert.KernelIdeal.τ).loc Cert.KernelIdeal.main_arg8)) (rowAt (Cert.KernelIdeal.GnnHost.biasRow (m ((c.tc : Thread Cert.KernelIdeal.nD Cert.KernelIdeal.τ).loc Cert.KernelIdeal.main_arg9)))) (m ((c.tc : Thread Cert.KernelIdeal.nD Cert.KernelIdeal.τ).loc Cert.KernelIdeal.main_arg10))
          (rowAt (Cert.KernelIdeal.GnnHost.biasRow (m ((c.tc : Thread Cert.KernelIdeal.nD Cert.KernelIdeal.τ).loc Cert.KernelIdeal.main_arg11)))) (Cert.KernelIdeal.GnnValue.im m c) :=
        net_congr (pool_eq _ _) (row_of_vec _) (row_of_vec _)
          (Cert.Gnn.Bridge.message_eq (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) hEF hWe hbe).symm
    _ = Cert.KernelIdeal.GnnValue.out m c := (Cert.KernelIdeal.GnnValue.out_eq_net m c).symm
    _ = Cert.KernelIdeal.GenP.W8 m ρ c (Proc.devRef .tc Cert.KernelIdeal.main_v50) := (Cert.KernelIdeal.GnnValue.value m ρ c).symm

end Cert.Gnn.Assemble

end
-- ==== Proof.lean ====
/-
  The certificate: the three frames, the idealization (no rewrite was made: nothing to preserve) and the equality of the
  two idealized programs' results.

  The kernel's frames are the generated frame certificates; the
  reference's frame is its generated run with the result dropped. For the results: the kernel's run names its result
  buffer's last contents (KRun.lean), which are the message-passing network of Spec.lean over the argument arrays
  (KValue.lean); the reference's run ends at its composed term, the same network with the edge layer applied before
  pooling (RefValue.lean); under the precondition the edge features, edge matrix and edge bias are real, and then the two
  input messages are equal (Bridge.lean, Assemble.lean).
-/
import proofs.«125341_j42279658062025_2_alg».proof.Defs
import proofs.«125341_j42279658062025_2_alg».proof.Proof.Gen.Kernel
import proofs.«125341_j42279658062025_2_alg».proof.Proof.Gen.Kernel.Skeleton
import proofs.«125341_j42279658062025_2_alg».proof.Proof.Gen.Kernel.Points
import proofs.«125341_j42279658062025_2_alg».proof.Proof.KernelFrameP
import proofs.«125341_j42279658062025_2_alg».proof.Proof.Gen.KernelIdeal
import proofs.«125341_j42279658062025_2_alg».proof.Proof.Gen.KernelIdeal.Skeleton
import proofs.«125341_j42279658062025_2_alg».proof.Proof.Gen.KernelIdeal.Points
import proofs.«125341_j42279658062025_2_alg».proof.Proof.KernelIdealFrameP
import proofs.«125341_j42279658062025_2_alg».proof.Proof.Gen.ReferenceIdeal
import proofs.«125341_j42279658062025_2_alg».proof.Proof.Gen.Pre_finite_inputs
import proofs.«125341_j42279658062025_2_alg».proof.Proof.Gen.ReferenceIdeal.Run
import proofs.«125341_j42279658062025_2_alg».proof.Proof.Gen.ReferenceIdeal.Read
import proofs.«125341_j42279658062025_2_alg».proof.Proof.Assemble
import Idealize.ShloMosaic.Adequacy
import Idealize.ShloMosaic.Init

noncomputable section

namespace Cert.Proof

open Idealize.ShloMosaic Idealize.ShloMosaic.TcCoe Idealize.SL.Sem

theorem frame_kernel : Cert.frame_Kernel (hKernel := Cert.Kernel.Gen.facts) (hPre_finite_inputs := Cert.Pre_finite_inputs.Gen.facts) :=
  fun m ρ _ => Cert.Kernel.GenP.frame m ρ

theorem frame_kernelIdeal :
    Cert.frame_KernelIdeal (hKernelIdeal := Cert.KernelIdeal.Gen.facts) (hPre_finite_inputs := Cert.Pre_finite_inputs.Gen.facts) :=
  fun m ρ _ => Cert.KernelIdeal.GenP.frame m ρ

theorem frame_referenceIdeal :
    Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

theorem algebraic :
    Cert.algebraic_KernelIdeal_ReferenceIdeal (hKernelIdeal := Cert.KernelIdeal.Gen.facts) (hReferenceIdeal := Cert.ReferenceIdeal.Gen.facts)
      (hPre_finite_inputs := Cert.Pre_finite_inputs.Gen.facts) := by
  intro m ρ m' ρ' hpre hagree
  refine ⟨fun c => Cert.KernelIdeal.GenP.W8 m ρ c (Proc.devRef .tc Cert.KernelIdeal.main_v50),
    Cert.KernelIdeal.GnnRun.run (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10, h11⟩ := hagree c
  exact Cert.Gnn.Assemble.results_eq m ρ m' c hpre h0 h1 h2 h3 h4 h5 h6 h7 h8 h9 h10 h11

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
